-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x4096 : Shape := ⟨3, ![4, 512, 4096]⟩
abbrev S512 : Shape := ⟨1, ![512]⟩
abbrev S512x512 : Shape := ⟨2, ![512, 512]⟩
abbrev S_ : Shape := ⟨0, ![]⟩

class Facts : Prop where
  bcast_S_S4x512x4096 : S_.BroadcastsInDim S4x512x4096 (![] : Fin 0 → Fin S4x512x4096.rank)
  reducesTo_S4x512x4096_S_d0_1_2 : S4x512x4096.ReducesTo [0, 1, 2] S_
  h_S_ : 0 < S_.numel
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x512 .f32) (main_arg8 : FVec F S512 .f32) (main_arg9 : FVec F S512x512 .f32) (main_arg10 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x512x4096 .f32) (main_arg1 : FVec F S512 .f32) (main_arg2 : FVec F S512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) : IVec S_ 1 :=
  let main_v0 : FVec F S4x512x4096 .f32 := Host.absf main_arg0
  let main_cst : FVec F S_ .f32 := constant S_ .f32 0x7F800000#32
  let main_v1 : FVec F S4x512x4096 .f32 := broadcastInDim S4x512x4096 ![] bcast_S_S4x512x4096 main_cst
  let main_v2 : IVec S4x512x4096 1 := cmpf .olt main_v0 main_v1
  let main_c : IVec S_ 1 := constantI S_ 1 1#1
  let main_v3 : IVec S_ 1 := (fun x v => Host.reduce IntOp.andi x v reducesTo_S4x512x4096_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_v13 main_v16
-- ==== Kernel.lean ====
abbrev S4x512x4096 : Shape := ⟨3, ![4, 512, 4096]⟩
abbrev S512 : Shape := ⟨1, ![512]⟩
abbrev S512x512 : Shape := ⟨2, ![512, 512]⟩
abbrev S1x512 : Shape := ⟨2, ![1, 512]⟩
abbrev S4x4096x512 : Shape := ⟨3, ![4, 4096, 512]⟩
abbrev S1x512x1024 : Shape := ⟨3, ![1, 512, 1024]⟩
abbrev S1x1024x512 : Shape := ⟨3, ![1, 1024, 512]⟩
abbrev S512x1024 : Shape := ⟨2, ![512, 1024]⟩
abbrev S1024x512 : Shape := ⟨2, ![1024, 512]⟩
abbrev S1024 : Shape := ⟨1, ![1024]⟩
abbrev S1024x1 : Shape := ⟨2, ![1024, 1]⟩
abbrev S1x512x512 : Shape := ⟨3, ![1, 512, 512]⟩
abbrev S1x4096x512 : Shape := ⟨3, ![1, 4096, 512]⟩
abbrev S512x1 : Shape := ⟨2, ![512, 1]⟩

abbrev nBuf : Space → Nat
  | .hbm => 29
  | .vmem => 31
  | .smem => 0
  | _ => 0

abbrev bufTy : (tb : Table) → Fin (tcTables nBuf tb) → BufTy
  | .hbm, ⟨0, _⟩ => ⟨S4x512x4096, .f32⟩
  | .hbm, ⟨1, _⟩ => ⟨S512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S512x512, .f32⟩
  | .hbm, ⟨18, _⟩ => ⟨S512x512, .bf16⟩
  | .hbm, ⟨19, _⟩ => ⟨S512x512, .f32⟩
  | .hbm, ⟨20, _⟩ => ⟨S512x512, .bf16⟩
  | .hbm, ⟨21, _⟩ => ⟨S512x512, .f32⟩
  | .hbm, ⟨22, _⟩ => ⟨S512x512, .bf16⟩
  | .hbm, ⟨23, _⟩ => ⟨S512x512, .f32⟩
  | .hbm, ⟨24, _⟩ => ⟨S512x512, .bf16⟩
  | .hbm, ⟨25, _⟩ => ⟨S4x4096x512, .bf16⟩
  | .hbm, ⟨26, _⟩ => ⟨S4x4096x512, .bf16⟩
  | .hbm, ⟨27, _⟩ => ⟨S4x4096x512, .bf16⟩
  | .hbm, ⟨28, _⟩ => ⟨S4x512x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x512, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x4096x512, .bf16⟩
  | .local _ .vmem, ⟨19, _⟩ => ⟨S1x4096x512, .bf16⟩
  | .local _ .vmem, ⟨20, _⟩ => ⟨S1x4096x512, .bf16⟩
  | .local _ .vmem, ⟨21, _⟩ => ⟨S1x4096x512, .bf16⟩
  | .local _ .vmem, ⟨22, _⟩ => ⟨S1x512x512, .f32⟩
  | .local _ .vmem, ⟨23, _⟩ => ⟨S1x512x512, .f32⟩
  | .local _ .vmem, ⟨24, _⟩ => ⟨S512x512, .bf16⟩
  | .local _ .vmem, ⟨25, _⟩ => ⟨S1x512, .f32⟩
  | .local _ .vmem, ⟨26, _⟩ => ⟨S1x512x512, .f32⟩
  | .local _ .vmem, ⟨27, _⟩ => ⟨S1x512x512, .f32⟩
  | .local _ .vmem, ⟨28, _⟩ => ⟨S512x1, .f32⟩
  | .local _ .vmem, ⟨29, _⟩ => ⟨S512x1, .f32⟩
  | .local _ .vmem, ⟨30, _⟩ => ⟨S512x512, .f32⟩
  | _, _ => ⟨S4x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc1_scratch0 : Ref sig .tc := ⟨.vmem, 28, rfl⟩
abbrev cc1_scratch1 : Ref sig .tc := ⟨.vmem, 29, rfl⟩
abbrev cc1_scratch2 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨2, ![4, 8], ![false, false]⟩

@[reducible] def k1_t1_loop : Scf.Loop 32 :=
  let c0_i32 : BitVec 32 := 0#32
  let c8_i32 : BitVec 32 := 8#32
  let v14 : BitVec 32 := Scalar.addi c0_i32 c8_i32
  let c1_i32 : BitVec 32 := 1#32
  ⟨c0_i32, v14, c1_i32⟩
def k1_mult1 (k1_t1 : Fin k1_t1_loop.trips) : BitVec 32 :=
  let c0_i32_32 : BitVec 32 := 0#32
  let c0_i32 : BitVec 32 := 0#32
  let c1_i32 : BitVec 32 := 1#32
  let arg12 : BitVec 32 := Scf.iv c0_i32 c1_i32 k1_t1
  let c1_i32_31 : BitVec 32 := 1#32
  let v47 : BitVec 32 := Scalar.muli arg12 c1_i32_31
  let v48 : BitVec 32 := Scalar.addi c0_i32_32 v47
  let c512_i32 : BitVec 32 := 512#32
  let v49 : BitVec 32 := Scalar.muli v48 c512_i32
  v49
def k1_off1 (k1_t1 : Fin k1_t1_loop.trips) : Fin 3 → Nat :=
  let c0_33 : Index := 0#32
  let c0_i32_32 : BitVec 32 := 0#32
  let c0_i32 : BitVec 32 := 0#32
  let c1_i32 : BitVec 32 := 1#32
  let arg12 : BitVec 32 := Scf.iv c0_i32 c1_i32 k1_t1
  let c1_i32_31 : BitVec 32 := 1#32
  let v47 : BitVec 32 := Scalar.muli arg12 c1_i32_31
  let v48 : BitVec 32 := Scalar.addi c0_i32_32 v47
  let c512_i32 : BitVec 32 := 512#32
  let v49 : BitVec 32 := Scalar.muli v48 c512_i32
  let v50 : BitVec 32 := v49
  let v51 : Index := Scalar.indexCast v50
  let c0_34 : Index := 0#32
  ![0, v51.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S512_S1x512 : S512.ShapeCasts S1x512
  transposes_S512x512_S512x512_1_0 : S512x512.Transposes [1, 0] S512x512
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  packedbf16_S1x1024x512_S1x1024x512_0_0_0 : (Rect.unit (s := S1x1024x512) ![0, 0, 0] S1x1024x512.size inb_S1x1024x512_S1x1024x512_0_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  transposes_S512x512_p1_0_S512x512 : S512x512.Transposes [1, 0] S512x512
  reduces_S512x512_S512 : S512x512.Reduces [1] S512
  shapeCasts_S512_S512x1 : S512.ShapeCasts S512x1
  broadcasts_S512x1_S512x512 : S512x1.Broadcasts S512x512
  broadcasts_S1x512_S512x512 : S1x512.Broadcasts S512x512
  shapeCasts_S512x512_S1x512x512 : S512x512.ShapeCasts S1x512x512
  dot_S1024x512_S512x512_S1024x512_1_0_0_1_n_n_wf : DotDims.WF S1024x512 S512x512 S1024x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x512x4096.size a
  hwx0_0 : ∀ i : grid0.Coords, EltTy.bits .f32 = 32 ∨ (Rect.block (s := S4x512x4096) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x512.size a ≤ S4x4096x512.size a
  hwx0_9 : ∀ i : grid0.Coords, EltTy.bits .bf16 = 32 ∨ (Rect.block (s := S4x4096x512) S1x1024x512.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x512.size a ≤ S4x4096x512.size a
  hwx0_10 : ∀ i : grid0.Coords, EltTy.bits .bf16 = 32 ∨ (Rect.block (s := S4x4096x512) S1x1024x512.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024x512.size a ≤ S4x4096x512.size a
  hwx0_11 : ∀ i : grid0.Coords, EltTy.bits .bf16 = 32 ∨ (Rect.block (s := S4x4096x512) S1x1024x512.size (cc0_transform_11 i) (hinb0_11 i)).WholeWords (EltTy.packing .bf16)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S1x512x512.size a ≤ S1x4096x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S4x4096x512.size a
  hwx1_0 : ∀ i : grid1.Coords, EltTy.bits .bf16 = 32 ∨ (Rect.block (s := S4x4096x512) S1x512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x512.size a ≤ S4x4096x512.size a
  hwx1_1 : ∀ i : grid1.Coords, EltTy.bits .bf16 = 32 ∨ (Rect.block (s := S4x4096x512) S1x4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x512.size a ≤ S4x4096x512.size a
  hwx1_2 : ∀ i : grid1.Coords, EltTy.bits .bf16 = 32 ∨ (Rect.block (s := S4x4096x512) S1x4096x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x512.size a ≤ S4x512x4096.size a
  hwx1_3 : ∀ i : grid1.Coords, EltTy.bits .f32 = 32 ∨ (Rect.block (s := S4x512x4096) S1x512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x512.size a ≤ S4x512x4096.size a
  hwx1_6 : ∀ i : grid1.Coords, EltTy.bits .f32 = 32 ∨ (Rect.block (s := S4x512x4096) S1x512x512.size (cc1_transform_6 i) (hinb1_6 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14_0) S1x1024x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v14_1) S1x1024x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v14_2) S1x1024x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v14_0) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_1) S1x4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_2) S1x4096x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x512x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x512x4096 : Shape := ⟨3, ![4, 512, 4096]⟩
abbrev S512 : Shape := ⟨1, ![512]⟩
abbrev S512x512 : Shape := ⟨2, ![512, 512]⟩
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S4x4096x4096 : Shape := ⟨3, ![4, 4096, 4096]⟩

abbrev nBuf : Space → Nat
  | .hbm => 112
  | .vmem => 0
  | .smem => 0
  | _ => 0

abbrev bufTy : (tb : Table) → Fin (tcTables nBuf tb) → BufTy
  | .hbm, ⟨0, _⟩ => ⟨S4x512x4096, .f32⟩
  | .hbm, ⟨1, _⟩ => ⟨S512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S4x4096x512, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .i32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S4x4096x1, .f32⟩
  | .hbm, ⟨35, _⟩ => ⟨S4x4096x1, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S4x4096x512, .f32⟩
  | .hbm, ⟨43, _⟩ => ⟨S4x4096x512, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x1, .f32⟩
  | .hbm, ⟨48, _⟩ => ⟨S4x4096x512, .f32⟩
  | .hbm, ⟨49, _⟩ => ⟨S4x4096x512, .f32⟩
  | .hbm, ⟨50, _⟩ => ⟨S1x1x512, .f32⟩
  | .hbm, ⟨51, _⟩ => ⟨S4x4096x512, .f32⟩
  | .hbm, ⟨52, _⟩ => ⟨S4x4096x512, .f32⟩
  | .hbm, ⟨53, _⟩ => ⟨S1x1x512, .f32⟩
  | .hbm, ⟨54, _⟩ => ⟨S4x4096x512, .f32⟩
  | .hbm, ⟨55, _⟩ => ⟨S4x4096x512, .f32⟩
  | .hbm, ⟨56, _⟩ => ⟨S4x4096x512, .f32⟩
  | .hbm, ⟨57, _⟩ => ⟨S1x1x512, .f32⟩
  | .hbm, ⟨58, _⟩ => ⟨S4x4096x512, .f32⟩
  | .hbm, ⟨59, _⟩ => ⟨S4x4096x512, .f32⟩
  | .hbm, ⟨60, _⟩ => ⟨S4x4096x512, .f32⟩
  | .hbm, ⟨61, _⟩ => ⟨S1x1x512, .f32⟩
  | .hbm, ⟨62, _⟩ => ⟨S4x4096x512, .f32⟩
  | .hbm, ⟨63, _⟩ => ⟨S4x4096x512, .f32⟩
  | .hbm, ⟨64, _⟩ => ⟨S4x4096x512, .f32⟩
  | .hbm, ⟨65, _⟩ => ⟨S1x1x512, .f32⟩
  | .hbm, ⟨66, _⟩ => ⟨S4x4096x512, .f32⟩
  | .hbm, ⟨67, _⟩ => ⟨S4x4096x512, .f32⟩
  | .hbm, ⟨68, _⟩ => ⟨S4x4096x4096, .f32⟩
  | .hbm, ⟨69, _⟩ => ⟨S_, .f32⟩
  | .hbm, ⟨70, _⟩ => ⟨S4x4096x4096, .f32⟩
  | .hbm, ⟨71, _⟩ => ⟨S4x4096x4096, .f32⟩
  | .hbm, ⟨72, _⟩ => ⟨S_, .f32⟩
  | .hbm, ⟨73, _⟩ => ⟨S4x4096, .f32⟩
  | .hbm, ⟨74, _⟩ => ⟨S_, .f32⟩
  | .hbm, ⟨75, _⟩ => ⟨S4x4096, .f32⟩
  | .hbm, ⟨76, _⟩ => ⟨S4x4096, .f32⟩
  | .hbm, ⟨77, _⟩ => ⟨S4x4096x1, .f32⟩
  | .hbm, ⟨78, _⟩ => ⟨S4x4096x4096, .f32⟩
  | .hbm, ⟨79, _⟩ => ⟨S4x4096x4096, .f32⟩
  | .hbm, ⟨80, _⟩ => ⟨S4x4096x4096, .f32⟩
  | .hbm, ⟨81, _⟩ => ⟨S_, .f32⟩
  | .hbm, ⟨82, _⟩ => ⟨S4x4096, .f32⟩
  | .hbm, ⟨83, _⟩ => ⟨S4x4096x1, .f32⟩
  | .hbm, ⟨84, _⟩ => ⟨S4x4096x4096, .f32⟩
  | .hbm, ⟨85, _⟩ => ⟨S4x4096x4096, .f32⟩
  | .hbm, ⟨86, _⟩ => ⟨S4x4096x512, .f32⟩
  | .hbm, ⟨87, _⟩ => ⟨S4x4096x512, .f32⟩
  | .hbm, ⟨88, _⟩ => ⟨S1x1x512, .f32⟩
  | .hbm, ⟨89, _⟩ => ⟨S4x4096x512, .f32⟩
  | .hbm, ⟨90, _⟩ => ⟨S4x4096x512, .f32⟩
  | .hbm, ⟨91, _⟩ => ⟨S_, .f32⟩
  | .hbm, ⟨92, _⟩ => ⟨S_, .f32⟩
  | .hbm, ⟨93, _⟩ => ⟨S4x4096x512, .f32⟩
  | .hbm, ⟨94, _⟩ => ⟨S4x4096x512, .i1⟩
  | .hbm, ⟨95, _⟩ => ⟨S_, .f32⟩
  | .hbm, ⟨96, _⟩ => ⟨S4x4096x512, .f32⟩
  | .hbm, ⟨97, _⟩ => ⟨S4x4096x512, .i1⟩
  | .hbm, ⟨98, _⟩ => ⟨S_, .f32⟩
  | .hbm, ⟨99, _⟩ => ⟨S_, .f32⟩
  | .hbm, ⟨100, _⟩ => ⟨S4x4096x512, .f32⟩
  | .hbm, ⟨101, _⟩ => ⟨S4x4096x512, .f32⟩
  | .hbm, ⟨102, _⟩ => ⟨S4x4096x512, .f32⟩
  | .hbm, ⟨103, _⟩ => ⟨S_, .f32⟩
  | .hbm, ⟨104, _⟩ => ⟨S4x4096x512, .f32⟩
  | .hbm, ⟨105, _⟩ => ⟨S4x4096x512, .f32⟩
  | .hbm, ⟨106, _⟩ => ⟨S4x4096x512, .f32⟩
  | .hbm, ⟨107, _⟩ => ⟨S_, .f32⟩
  | .hbm, ⟨108, _⟩ => ⟨S4x4096x512, .f32⟩
  | .hbm, ⟨109, _⟩ => ⟨S4x4096x512, .f32⟩
  | .hbm, ⟨110, _⟩ => ⟨S4x512x4096, .f32⟩
  | .hbm, ⟨111, _⟩ => ⟨S4x512x4096, .f32⟩
  | _, _ => ⟨S4x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_cst_1 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_2 : Ref sig .tc := ⟨.hbm, 69, rfl⟩
abbrev main_v32 : Ref sig .tc := ⟨.hbm, 70, rfl⟩
abbrev main_v33 : Ref sig .tc := ⟨.hbm, 71, rfl⟩
abbrev main_cst_3 : Ref sig .tc := ⟨.hbm, 72, rfl⟩
abbrev main_v34 : Ref sig .tc := ⟨.hbm, 73, rfl⟩
abbrev main_cst_4 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_5 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_call1_cst : Ref sig .tc := ⟨.hbm, 91, rfl⟩
abbrev main_call1_call0_cst : Ref sig .tc := ⟨.hbm, 92, rfl⟩
abbrev main_call1_call0_v0 : Ref sig .tc := ⟨.hbm, 93, rfl⟩
abbrev main_call1_call0_v1 : Ref sig .tc := ⟨.hbm, 94, rfl⟩
abbrev main_call1_call0_cst_0 : Ref sig .tc := ⟨.hbm, 95, rfl⟩
abbrev main_call1_call0_v2 : Ref sig .tc := ⟨.hbm, 96, rfl⟩
abbrev main_call1_call0_v3 : Ref sig .tc := ⟨.hbm, 97, rfl⟩
abbrev main_call1_call0_cst_1 : Ref sig .tc := ⟨.hbm, 98, rfl⟩
abbrev main_call1_call0_call0_v0 : Ref sig .tc := ⟨.hbm, 99, rfl⟩
abbrev main_call1_call0_call0_v1 : Ref sig .tc := ⟨.hbm, 100, rfl⟩
abbrev main_call1_call0_v4 : Ref sig .tc := ⟨.hbm, 101, rfl⟩
abbrev main_call1_call0_v5 : Ref sig .tc := ⟨.hbm, 102, rfl⟩
abbrev main_call1_call0_v6 : Ref sig .tc := ⟨.hbm, 103, rfl⟩
abbrev main_call1_call0_v7 : Ref sig .tc := ⟨.hbm, 104, rfl⟩
abbrev main_call1_call0_v8 : Ref sig .tc := ⟨.hbm, 105, rfl⟩
abbrev main_call1_v0 : Ref sig .tc := ⟨.hbm, 106, rfl⟩
abbrev main_call1_cst_0 : Ref sig .tc := ⟨.hbm, 107, rfl⟩
abbrev main_call1_v1 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩

abbrev nD : Nat := 1
abbrev τ : Topo := Topo.v7x

variable {F : FTy → Type} [FloatOps F]

class Facts₀ : Prop where
  transposes_S4x512x4096_S4x4096x512_0_2_1 : S4x512x4096.Transposes [0, 2, 1] S4x4096x512
  reducesTo_S4x4096x512_S4x4096_d2 : S4x4096x512.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x512_0_1_2 : S4x4096x1.BroadcastsInDim S4x4096x512 (![0, 1, 2] : Fin 3 → Fin S4x4096x512.rank)
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S_S4x4096 : S_.BroadcastsInDim S4x4096 (![] : Fin 0 → Fin S4x4096.rank)
  bcast_S4x4096x1_S4x4096x4096_0_1_2 : S4x4096x1.BroadcastsInDim S4x4096x4096 (![0, 1, 2] : Fin 3 → Fin S4x4096x4096.rank)
  bcast_S_S4x4096x512 : S_.BroadcastsInDim S4x4096x512 (![] : Fin 0 → Fin S4x4096x512.rank)
  transposes_S4x4096x512_S4x512x4096_0_2_1 : S4x4096x512.Transposes [0, 2, 1] S4x512x4096
  dot_S4x4096x512_S512x512_S4x4096x512_2_1_01_0_n_n_wf : DotDims.WF S4x4096x512 S512x512 S4x4096x512 [2] [1] [0, 1] [0] [] []
  dot_S4x4096x512_S4x4096x512_S4x4096x4096_2_2_1_1_0_0_wf : DotDims.WF S4x4096x512 S4x4096x512 S4x4096x4096 [2] [2] [1] [1] [0] [0]
  dot_S4x4096x4096_S4x4096x512_S4x4096x512_2_1_1_2_0_0_wf : DotDims.WF S4x4096x4096 S4x4096x512 S4x4096x512 [2] [1] [1] [2] [0] [0]

variable [Facts₀]

def dot_S4x4096x512_S512x512_S4x4096x512_2_1_01_0_n_n : DotDims S4x4096x512 S512x512 S4x4096x512 where
  lhsContracting := [2]
  rhsContracting := [1]
  lhsNonContracting := [0, 1]
  rhsNonContracting := [0]
  lhsBatch := []
  rhsBatch := []
  wf := dot_S4x4096x512_S512x512_S4x4096x512_2_1_01_0_n_n_wf
def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.KerRun.lean ====
/-
  The kernel program's run with its result named: from any launch memory with zero counters, every weakly fair
  execution of the program on the TensorCores terminates without fault; the final memory holds, at the result
  buffer, the contents the last region leaves there, and at each of the eleven argument buffers what was launched.
-/
import proofs.«160347_j42992622633389_2_alg».proof.Proof.Gen.KernelIdeal.Frame

set_option maxRecDepth 16384

noncomputable section

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: termination without fault, the result buffer at the last boundary's contents, the arguments as launched. -/
theorem run_result : θ_run defs (onTc (τ := τ) (main (F := F))) ⟨m, fun _ => 0, ρ⟩ (fun r => ∀ c : Dev nD,
      r.2.mem ((c.tc : Thread nD τ).loc main_v15) = Gen.W3 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v15 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c)⟩)

end Cert.KernelIdeal.KerValue

end
-- ==== Proof.Spec.lean ====
/-
  The mathematics of the attention block, stated once on the extended reals, with no program in sight.

  One batch element b and one position l own a ROW of 512 channels.  The block is
    row  ->  layer norm over its channels  ->  three affine maps (queries, keys, values)
         ->  scores  s(l, m) = <q_l, k_m> * scale  against every position m
         ->  the softmax-weighted mean of the value rows
         ->  one more affine map, SELU, and the residual.
  Two spellings of the softmax-weighted mean are given: the plain one (attnR: subtract the row maximum,
  exponentiate, normalise, then average the value rows) and the streaming one (attnK: the 4096 positions are
  visited in 8 chunks of 512, a running maximum m, a running denominator l and a running numerator acc
  being rescaled by exp (m_old - m_new) at every chunk, the quotient taken once at the end; the running maximum
  starts from a large negative FINITE number rather than from -infinity).  Everything else is common to both.
-/
import Idealize.ShloMosaic.PureOps.Ideal
import Idealize.ShloMosaic.Lib.ValueIdx

noncomputable section

namespace Cert.AttnSpec

open Idealize.ShloMosaic Idealize.ShloMosaic.ValueIdx
open scoped BigOperators

/-! ## The literals, as the binary words both programs spell -/

def w512 : EReal := Ideal.ofBits .f32 0x44000000#32
def wEps : EReal := Ideal.ofBits .f32 0x3727C5AC#32
def wScale : EReal := Ideal.ofBits .f32 0x3D3504F3#32
def wNeg : EReal := Ideal.ofBits .f32 0xFF333332#32
def wNinf : EReal := Ideal.ofBits .f32 0xFF800000#32
def wOne : EReal := Ideal.ofBits .f32 0x3F800000#32
def wZero : EReal := Ideal.ofBits .f32 0x00000000#32
def wAlpha : EReal := Ideal.ofBits .f32 0x3FD62D7D#32
def wLam : EReal := Ideal.ofBits .f32 0x3F867D5F#32

/-! ## One row: layer norm and an affine map -/

/-- The mean of a row's 512 channels. -/
def rowMean (r : Fin 512 → EReal) : EReal := Ideal.div (∑ c, r c) w512

/-- The mean of the squared deviations from the row's mean. -/
def rowVar (r : Fin 512 → EReal) : EReal :=
  Ideal.div (∑ c, (r c - rowMean r) * (r c - rowMean r)) w512

/-- Layer norm of a row with gain g and shift β: ((r - mean) * (var + ε)^(-1/2)) * g + β. -/
def lnRow (r g β : Fin 512 → EReal) (c : Fin 512) : EReal :=
  (r c - rowMean r) * Ideal.rsqrt (rowVar r + wEps) * g c + β c

/-- An affine map of a row: output channel o is <h, W o ·> + bias o (the weight indexed [out, in]). -/
def aff (h : Fin 512 → EReal) (W : Fin 512 → Fin 512 → EReal) (bias : Fin 512 → EReal) (o : Fin 512) : EReal :=
  (∑ c, h c * W o c) + bias o

/-- The score of a query row against a key row. -/
def score (q k : Fin 512 → EReal) : EReal := (∑ c, q c * k c) * wScale

/-! ## The softmax-weighted mean of the value rows, plainly -/

/-- The row maximum as the plain spelling takes it: the fold of max from -infinity, and once more against -infinity. -/
def rowMaxR (s : Fin 4096 → EReal) : EReal := max wNinf (Finset.univ.fold max wNinf s)

/-- Channel c of the plain softmax-weighted mean: the sum over m of (exp (s m - M) / (0 + sum over m' of exp (s m' - M))) * v m c. -/
def attnR (s : Fin 4096 → EReal) (v : Fin 4096 → Fin 512 → EReal) (c : Fin 512) : EReal :=
  ∑ m, Ideal.div (Ideal.exp (s m - rowMaxR s)) (wZero + ∑ m', Ideal.exp (s m' - rowMaxR s)) * v m c

/-! ## The same mean, streamed over 8 chunks of 512 positions -/

/-- Position i of chunk j. -/
def kidx (j : Fin 8) (i : Fin 512) : Fin 4096 := ⟨512 * j.val + i.val, by omega⟩

/-- The running state: maximum, denominator, numerator (one entry per channel). -/
structure St where
  m : EReal
  l : EReal
  acc : Fin 512 → EReal

/-- The state before the first chunk: a large negative finite maximum, nothing summed. -/
def st0 : St := ⟨wNeg, wZero, fun _ => wZero⟩

/-- One chunk: the maximum is raised to cover the chunk's scores; the old sums are rescaled by
    exp (m_old - m_new) and the chunk's terms, taken against the new maximum, are added. -/
def step (s : Fin 512 → EReal) (v : Fin 512 → Fin 512 → EReal) (st : St) : St :=
  { m := max st.m (Finset.univ.fold max wNinf s)
    l := Ideal.exp (st.m - max st.m (Finset.univ.fold max wNinf s)) * st.l
          + ∑ i, Ideal.exp (s i - max st.m (Finset.univ.fold max wNinf s))
    acc := fun c => Ideal.exp (st.m - max st.m (Finset.univ.fold max wNinf s)) * st.acc c
          + ∑ i, Ideal.exp (s i - max st.m (Finset.univ.fold max wNinf s)) * v i c }

/-- The state after the first n chunks (n ≤ 8; beyond that nothing changes). -/
def stAfter (s : Fin 4096 → EReal) (v : Fin 4096 → Fin 512 → EReal) : ℕ → St
  | 0 => st0
  | n + 1 => if h : n < 8 then step (fun i => s (kidx ⟨n, h⟩ i)) (fun i => v (kidx ⟨n, h⟩ i)) (stAfter s v n)
             else stAfter s v n

/-- Channel c of the streamed mean: numerator over denominator after all 8 chunks. -/
def attnK (s : Fin 4096 → EReal) (v : Fin 4096 → Fin 512 → EReal) (c : Fin 512) : EReal :=
  Ideal.div ((stAfter s v 8).acc c) ((stAfter s v 8).l)

/-! ## SELU, in the two spellings -/

/-- λ * (p if p > 0 else α * (exp (min p 0) - 1)). -/
def seluK (p : EReal) : EReal :=
  wLam * Scalar.select (Ideal.cmp .ogt p wZero) p (wAlpha * (Ideal.exp (min p wZero) - wOne))

/-- λ * (p if p > 0 else α * (exp (0 if p > 0 else p) - 1)), the exponential-minus-one as one function. -/
def seluR (p : EReal) : EReal :=
  wLam * Scalar.select (Ideal.cmp .ogt p wZero) p
    (wAlpha * (Ideal.exp (Scalar.select (Ideal.cmp .ogt p wZero) wZero p) - 1))

/-! ## Arrays over literal shapes, read with explicit coordinates -/

abbrev cur1 {n : Nat} (a : (⟨1, ![n]⟩ : Shape).Idx → EReal) : Fin n → EReal := fun i => a (ix1 i)
abbrev cur2 {n0 n1 : Nat} (a : (⟨2, ![n0, n1]⟩ : Shape).Idx → EReal) : Fin n0 → Fin n1 → EReal := fun i j => a (ix2 i j)
abbrev cur3 {n0 n1 n2 : Nat} (a : (⟨3, ![n0, n1, n2]⟩ : Shape).Idx → EReal) : Fin n0 → Fin n1 → Fin n2 → EReal :=
  fun i j k => a (ix3 i j k)

/-! ## The whole block, from the eleven argument arrays -/

section Block

variable (x : Fin 4 → Fin 512 → Fin 4096 → EReal) (g β : Fin 512 → EReal)
  (wq : Fin 512 → Fin 512 → EReal) (bq : Fin 512 → EReal)
  (wk : Fin 512 → Fin 512 → EReal) (bk : Fin 512 → EReal)
  (wv : Fin 512 → Fin 512 → EReal) (bv : Fin 512 → EReal)
  (wp : Fin 512 → Fin 512 → EReal) (bp : Fin 512 → EReal)

/-- The normalised row of batch element b at position l. -/
def hRow (b : Fin 4) (l : Fin 4096) : Fin 512 → EReal := lnRow (fun c => x b c l) g β

/-- Query, key and value rows. -/
def qRow (b : Fin 4) (l : Fin 4096) : Fin 512 → EReal := aff (hRow x g β b l) wq bq
def kRow (b : Fin 4) (l : Fin 4096) : Fin 512 → EReal := aff (hRow x g β b l) wk bk
def vRow (b : Fin 4) (l : Fin 4096) : Fin 512 → EReal := aff (hRow x g β b l) wv bv

/-- The scores of position l against every position. -/
def sRow (b : Fin 4) (l : Fin 4096) (m : Fin 4096) : EReal :=
  score (qRow x g β wq bq b l) (kRow x g β wk bk b m)

/-- The block's result at (b, c, l), streamed spelling. -/
def outK (b : Fin 4) (c : Fin 512) (l : Fin 4096) : EReal :=
  x b c l + seluK (aff (attnK (sRow x g β wq bq wk bk b l) (vRow x g β wv bv b)) wp bp c)

/-- The block's result at (b, c, l), plain spelling. -/
def outR (b : Fin 4) (c : Fin 512) (l : Fin 4096) : EReal :=
  x b c l + seluR (aff (attnR (sRow x g β wq bq wk bk b l) (vRow x g β wv bv b)) wp bp c)

end Block

end Cert.AttnSpec

end
-- ==== Proof.Math1.lean ====
/-
  The literals of the attention block as the extended reals their binary words denote: zero, one,
  minus infinity, and six finite reals of which only the sign (of 512 and of epsilon) is ever used.
-/
import proofs.«160347_j42992622633389_2_alg».proof.Proof.Spec

noncomputable section

namespace Cert.AttnSpec

open Idealize.ShloMosaic
open scoped BigOperators

/-- An extended real that is a real number. -/
def IsR (a : EReal) : Prop := ∃ r : ℝ, a = (r : EReal)

theorem wZero_eq : wZero = 0 := by
  simp [wZero, Ideal.ofBits, Ideal.ieee]

theorem wNinf_eq : wNinf = ⊥ := by
  simp [wNinf, Ideal.ofBits, Ideal.ieee]

theorem wOne_eq : wOne = 1 := by
  simp [wOne, Ideal.ofBits, Ideal.ieee, -EReal.coe_mul]; norm_num

theorem w512_eq : w512 = ((512 : ℝ) : EReal) := by
  simp [w512, Ideal.ofBits, Ideal.ieee, -EReal.coe_mul]; norm_num

theorem wEps_pos : ∃ e : ℝ, 0 < e ∧ wEps = (e : EReal) := by
  refine ⟨_, ?_, by simp [wEps, Ideal.ofBits, Ideal.ieee, -EReal.coe_mul]; rfl⟩
  positivity

theorem wScale_real : IsR wScale := by
  refine ⟨_, by simp [wScale, Ideal.ofBits, Ideal.ieee, -EReal.coe_mul]; rfl⟩

theorem wNeg_real : IsR wNeg := by
  refine ⟨_, by simp [wNeg, Ideal.ofBits, Ideal.ieee, -EReal.coe_mul]; rfl⟩

theorem wAlpha_real : IsR wAlpha := by
  refine ⟨_, by simp [wAlpha, Ideal.ofBits, Ideal.ieee, -EReal.coe_mul]; rfl⟩

theorem wLam_real : IsR wLam := by
  refine ⟨_, by simp [wLam, Ideal.ofBits, Ideal.ieee, -EReal.coe_mul]; rfl⟩

end Cert.AttnSpec

end
-- ==== Proof.Math4.lean ====
/-
  The two spellings of SELU agree at every extended real: above zero both select the argument itself;
  otherwise the argument is at most zero, so its minimum with zero is the argument.
-/
import proofs.«160347_j42992622633389_2_alg».proof.Proof.Math1

noncomputable section

namespace Cert.AttnSpec

open Idealize.ShloMosaic

theorem seluK_eq_seluR (p : EReal) : seluK p = seluR p := by
  unfold seluK seluR
  rw [wZero_eq, wOne_eq]
  by_cases h : (0 : EReal) < p
  · have hc : Ideal.cmp .ogt p 0 = 1#1 := by simp [Ideal.cmp, h]
    rw [hc]; simp [Scalar.select]
  · have hc : Ideal.cmp .ogt p 0 = 0#1 := by simp [Ideal.cmp, h]
    have hm : min p 0 = p := min_eq_left (not_lt.mp h)
    rw [hc, hm]; simp [Scalar.select]

end Cert.AttnSpec

end
-- ==== Proof.Math3.lean ====
/-
  The softmax-weighted mean over the reals: it does not change when a real constant is subtracted from every
  score, and sums taken against one constant are turned into sums against another by one exponential factor.
-/
import proofs.«160347_j42992622633389_2_alg».proof.Proof.Spec

noncomputable section

namespace Cert.AttnSpec

open scoped BigOperators

/-- Rescaling: exp (M - M') times a sum of exp (s - M) w is the sum of exp (s - M') w. -/
theorem rescale_sum {ι : Type*} (t : Finset ι) (sr w : ι → ℝ) (M M' : ℝ) :
    Real.exp (M - M') * ∑ p ∈ t, Real.exp (sr p - M) * w p = ∑ p ∈ t, Real.exp (sr p - M') * w p := by
  rw [Finset.mul_sum]
  refine Finset.sum_congr rfl (fun p _ => ?_)
  rw [← mul_assoc, ← Real.exp_add]
  congr 2; ring

/-- The same with unit weights. -/
theorem rescale_sum_one {ι : Type*} (t : Finset ι) (sr : ι → ℝ) (M M' : ℝ) :
    Real.exp (M - M') * ∑ p ∈ t, Real.exp (sr p - M) = ∑ p ∈ t, Real.exp (sr p - M') := by
  have h := rescale_sum t sr (fun _ => 1) M M'
  simpa using h

/-- The weighted mean with weights exp (s - M) does not depend on M. -/
theorem softmax_shift {ι : Type*} [Fintype ι] (sr w : ι → ℝ) (M : ℝ) :
    (∑ p, Real.exp (sr p - M) * w p) / (∑ p, Real.exp (sr p - M))
      = (∑ p, Real.exp (sr p) * w p) / (∑ p, Real.exp (sr p)) := by
  have h1 : (∑ p, Real.exp (sr p) * w p) = Real.exp (M - 0) * ∑ p, Real.exp (sr p - M) * w p := by
    rw [rescale_sum]; simp
  have h2 : (∑ p, Real.exp (sr p)) = Real.exp (M - 0) * ∑ p, Real.exp (sr p - M) := by
    rw [rescale_sum_one]; simp
  rw [h1, h2, mul_div_mul_left _ _ (Real.exp_ne_zero _)]

/-- Two spellings of the mean, each against its own constant, agree: numerator over denominator on one
    side, the sum of normalised weights times values on the other. -/
theorem softmax_two {ι : Type*} [Fintype ι] (sr w : ι → ℝ) (M M' : ℝ) :
    (∑ p, Real.exp (sr p - M) * w p) / (∑ p, Real.exp (sr p - M))
      = ∑ p, Real.exp (sr p - M') / (∑ q, Real.exp (sr q - M')) * w p := by
  rw [softmax_shift sr w M, ← softmax_shift sr w M', Finset.sum_div]
  refine Finset.sum_congr rfl (fun p _ => ?_)
  ring

end Cert.AttnSpec

end
-- ==== Proof.Math2.lean ====
/-
  Real-valuedness is preserved by the block's operations, and finite sums of coerced reals are coerced sums.
-/
import proofs.«160347_j42992622633389_2_alg».proof.Proof.Math1

noncomputable section

namespace Cert.AttnSpec

open Idealize.ShloMosaic
open scoped BigOperators

/-- The coercion of a finite real sum is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem IsR.coe (r : ℝ) : IsR (r : EReal) := ⟨r, rfl⟩

theorem IsR.add {a b : EReal} (ha : IsR a) (hb : IsR b) : IsR (a + b) := by
  obtain ⟨x, rfl⟩ := ha; obtain ⟨y, rfl⟩ := hb; exact ⟨x + y, (EReal.coe_add x y).symm⟩

theorem IsR.sub {a b : EReal} (ha : IsR a) (hb : IsR b) : IsR (a - b) := by
  obtain ⟨x, rfl⟩ := ha; obtain ⟨y, rfl⟩ := hb; exact ⟨x - y, (EReal.coe_sub x y).symm⟩

theorem IsR.mul {a b : EReal} (ha : IsR a) (hb : IsR b) : IsR (a * b) := by
  obtain ⟨x, rfl⟩ := ha; obtain ⟨y, rfl⟩ := hb; exact ⟨x * y, (EReal.coe_mul x y).symm⟩

theorem IsR.sum {ι : Type*} (t : Finset ι) {f : ι → EReal} (hf : ∀ i, IsR (f i)) : IsR (∑ i ∈ t, f i) := by
  choose fr hfr using hf
  refine ⟨∑ i ∈ t, fr i, ?_⟩
  rw [coe_sum]; exact Finset.sum_congr rfl (fun i _ => hfr i)

theorem IsR.exp {a : EReal} (ha : IsR a) : IsR (Ideal.exp a) := by
  obtain ⟨x, rfl⟩ := ha; exact ⟨Real.exp x, rfl⟩

theorem IsR.div512 {a : EReal} (ha : IsR a) : IsR (Ideal.div a w512) := by
  obtain ⟨x, rfl⟩ := ha
  rw [w512_eq, Ideal.div_coe (by norm_num)]
  exact IsR.mul ⟨x, rfl⟩ ⟨_, rfl⟩

theorem wZero_real : IsR wZero := ⟨0, by rw [wZero_eq]; rfl⟩
theorem wOne_real : IsR wOne := ⟨1, by rw [wOne_eq]; rfl⟩

end Cert.AttnSpec

end
-- ==== Proof.Math5.lean ====
/-
  The fold of max from minus infinity over finitely many real numbers is a real number when there is at least
  one of them; and the positions below 512 (n + 1) are those below 512 n together with chunk n.
-/
import proofs.«160347_j42992622633389_2_alg».proof.Proof.Math2

noncomputable section

namespace Cert.AttnSpec

open Idealize.ShloMosaic
open scoped BigOperators

/-- The coercion of the larger of two reals is the larger of the coercions. -/
theorem coe_max_real (x y : ℝ) : ((max x y : ℝ) : EReal) = max (x : EReal) (y : EReal) :=
  EReal.coe_strictMono.monotone.map_max

theorem fold_max_bot_or_real {ι : Type*} (t : Finset ι) (f : ι → ℝ) :
    t.fold max (⊥ : EReal) (fun i => (f i : EReal)) = ⊥ ∨ IsR (t.fold max (⊥ : EReal) (fun i => (f i : EReal))) := by
  classical
  induction t using Finset.induction_on with
  | empty => left; simp
  | insert a t ha ih =>
    right
    rw [Finset.fold_insert ha]
    rcases ih with h | ⟨μ, h⟩
    · rw [h]; exact ⟨f a, by simp⟩
    · rw [h]; exact ⟨max (f a) μ, (coe_max_real _ _).symm⟩

theorem fold_max_real {ι : Type*} (t : Finset ι) (ht : t.Nonempty) (f : ι → ℝ) :
    IsR (t.fold max (⊥ : EReal) (fun i => (f i : EReal))) := by
  classical
  obtain ⟨a, ha⟩ := ht
  rw [← Finset.insert_erase ha, Finset.fold_insert (Finset.notMem_erase a t)]
  rcases fold_max_bot_or_real (t.erase a) f with h | ⟨μ, h⟩
  · rw [h]; exact ⟨f a, by simp⟩
  · rw [h]; exact ⟨max (f a) μ, (coe_max_real _ _).symm⟩

/-- The positions visited by the first n chunks. -/
def upTo (n : ℕ) : Finset (Fin 4096) := Finset.univ.filter (fun p => p.val < 512 * n)

theorem upTo_zero : upTo 0 = ∅ := by
  apply Finset.filter_false_of_mem
  intro p _; omega

theorem upTo_eight : upTo 8 = Finset.univ := by
  apply Finset.filter_true_of_mem
  intro p _; have := p.isLt; omega

theorem kidx_injective (j : Fin 8) : Function.Injective (kidx j) := by
  intro a b hab
  have := congrArg Fin.val hab
  simp only [kidx] at this
  exact Fin.ext (by omega)

theorem upTo_succ (n : ℕ) (h : n < 8) :
    upTo (n + 1) = upTo n ∪ Finset.univ.image (kidx ⟨n, h⟩) := by
  ext p
  simp only [upTo, Finset.mem_filter, Finset.mem_univ, true_and, Finset.mem_union, Finset.mem_image]
  constructor
  · intro hp
    by_cases hq : p.val < 512 * n
    · exact Or.inl hq
    · refine Or.inr ⟨⟨p.val - 512 * n, by omega⟩, ?_⟩
      apply Fin.ext
      simp only [kidx]
      omega
  · rintro (hq | ⟨i, rfl⟩)
    · omega
    · have := i.isLt
      simp only [kidx]
      omega

theorem upTo_disjoint (n : ℕ) (h : n < 8) : Disjoint (upTo n) (Finset.univ.image (kidx ⟨n, h⟩)) := by
  rw [Finset.disjoint_left]
  intro p hp hq
  simp only [upTo, Finset.mem_filter, Finset.mem_univ, true_and] at hp
  simp only [Finset.mem_image, Finset.mem_univ, true_and] at hq
  obtain ⟨i, rfl⟩ := hq
  simp only [kidx] at hp
  omega

/-- A sum over the positions of the first n + 1 chunks: the first n chunks, then chunk n. -/
theorem sum_upTo_succ (f : Fin 4096 → ℝ) (n : ℕ) (h : n < 8) :
    ∑ p ∈ upTo (n + 1), f p = ∑ p ∈ upTo n, f p + ∑ i, f (kidx ⟨n, h⟩ i) := by
  rw [upTo_succ n h, Finset.sum_union (upTo_disjoint n h),
    Finset.sum_image (fun a _ b _ hab => kidx_injective ⟨n, h⟩ hab)]

end Cert.AttnSpec

end
-- ==== Proof.Math6.lean ====
/-
  The streamed state over real scores and values: after n chunks the running maximum is some real M, and the
  running denominator and numerator are the sums, over the positions visited so far, of exp (s - M) and of
  exp (s - M) v.  Only that M is real is ever used: the weighted mean does not depend on it.
-/
import proofs.«160347_j42992622633389_2_alg».proof.Proof.Math3
import proofs.«160347_j42992622633389_2_alg».proof.Proof.Math5

noncomputable section

namespace Cert.AttnSpec

open Idealize.ShloMosaic
open scoped BigOperators

theorem exp_sub_coe (a b : ℝ) : Ideal.exp ((a : EReal) - (b : EReal)) = ((Real.exp (a - b) : ℝ) : EReal) := by
  rw [← EReal.coe_sub]; rfl

theorem stAfter_succ (s : Fin 4096 → EReal) (v : Fin 4096 → Fin 512 → EReal) (n : ℕ) (h : n < 8) :
    stAfter s v (n + 1) = step (fun i => s (kidx ⟨n, h⟩ i)) (fun i => v (kidx ⟨n, h⟩ i)) (stAfter s v n) := by
  rw [stAfter, dif_pos h]

theorem stAfter_inv (sr : Fin 4096 → ℝ) (vr : Fin 4096 → Fin 512 → ℝ) (n : ℕ) (hn : n ≤ 8) :
    ∃ M : ℝ, (stAfter (fun m => (sr m : EReal)) (fun m c => (vr m c : EReal)) n).m = (M : EReal)
      ∧ (stAfter (fun m => (sr m : EReal)) (fun m c => (vr m c : EReal)) n).l
          = ((∑ p ∈ upTo n, Real.exp (sr p - M) : ℝ) : EReal)
      ∧ ∀ c, (stAfter (fun m => (sr m : EReal)) (fun m c => (vr m c : EReal)) n).acc c
          = ((∑ p ∈ upTo n, Real.exp (sr p - M) * vr p c : ℝ) : EReal) := by
  induction n with
  | zero =>
    obtain ⟨M0, hM0⟩ := wNeg_real
    refine ⟨M0, hM0, ?_, fun c => ?_⟩
    · show wZero = _
      rw [upTo_zero, wZero_eq]; simp
    · show wZero = _
      rw [upTo_zero, wZero_eq]; simp
  | succ n ih =>
    have h : n < 8 := by omega
    obtain ⟨M, hm, hl, hacc⟩ := ih (by omega)
    have hμ : ∃ μ : ℝ, Finset.univ.fold max (⊥ : EReal) (fun i : Fin 512 => (sr (kidx ⟨n, h⟩ i) : EReal)) = (μ : EReal) :=
      fold_max_real Finset.univ Finset.univ_nonempty (fun i : Fin 512 => sr (kidx ⟨n, h⟩ i))
    obtain ⟨μ, hμ⟩ := hμ
    refine ⟨max M μ, ?_, ?_, fun c => ?_⟩
    · rw [stAfter_succ _ _ n h]
      simp only [step]
      rw [hm, wNinf_eq, hμ, coe_max_real]
    · rw [stAfter_succ _ _ n h]
      simp only [step]
      rw [hm, hl, wNinf_eq, hμ, ← coe_max_real]
      simp only [exp_sub_coe]
      rw [← coe_sum, ← EReal.coe_mul, ← EReal.coe_add, rescale_sum_one, sum_upTo_succ _ n h]
    · rw [stAfter_succ _ _ n h]
      simp only [step]
      rw [hm, hacc c, wNinf_eq, hμ, ← coe_max_real]
      simp only [exp_sub_coe, ← EReal.coe_mul]
      rw [← coe_sum, ← EReal.coe_add, rescale_sum, sum_upTo_succ _ n h]

end Cert.AttnSpec

end
-- ==== Proof.Math7.lean ====
/-
  Every row the block forms from real arguments is real: the layer norm (its variance is a sum of squares
  divided by 512, so the variance plus epsilon is positive and the reciprocal square root is real), the affine
  maps and the scores.
-/
import proofs.«160347_j42992622633389_2_alg».proof.Proof.Math2

noncomputable section

namespace Cert.AttnSpec

open Idealize.ShloMosaic
open scoped BigOperators

theorem rowMean_real {r : Fin 512 → EReal} (hr : ∀ c, IsR (r c)) : IsR (rowMean r) :=
  IsR.div512 (IsR.sum _ hr)

theorem rowVar_nonneg_real {r : Fin 512 → EReal} (hr : ∀ c, IsR (r c)) :
    ∃ v : ℝ, 0 ≤ v ∧ rowVar r = (v : EReal) := by
  obtain ⟨μ, hμ⟩ := rowMean_real hr
  choose rr hrr using hr
  unfold rowVar
  rw [hμ]
  simp only [hrr, ← EReal.coe_sub, ← EReal.coe_mul, ← coe_sum]
  rw [w512_eq, Ideal.div_coe (by norm_num), ← EReal.coe_mul]
  exact ⟨_, mul_nonneg (Finset.sum_nonneg (fun c _ => mul_self_nonneg _)) (by norm_num), rfl⟩

theorem rsqrt_pos_real (x : ℝ) (hx : 0 < x) : IsR (Ideal.rsqrt (x : EReal)) := by
  rw [Ideal.rsqrt_coe, if_neg (not_lt.mpr hx.le), if_neg hx.ne']
  exact ⟨_, rfl⟩

theorem lnRow_real {r g β : Fin 512 → EReal} (hr : ∀ c, IsR (r c)) (hg : ∀ c, IsR (g c)) (hβ : ∀ c, IsR (β c))
    (c : Fin 512) : IsR (lnRow r g β c) := by
  obtain ⟨v, hv0, hv⟩ := rowVar_nonneg_real hr
  obtain ⟨e, he0, he⟩ := wEps_pos
  unfold lnRow
  rw [hv, he, ← EReal.coe_add]
  exact IsR.add (IsR.mul (IsR.mul (IsR.sub (hr c) (rowMean_real hr))
    (rsqrt_pos_real _ (add_pos_of_nonneg_of_pos hv0 he0))) (hg c)) (hβ c)

theorem aff_real {h : Fin 512 → EReal} {W : Fin 512 → Fin 512 → EReal} {bias : Fin 512 → EReal}
    (hh : ∀ c, IsR (h c)) (hW : ∀ o c, IsR (W o c)) (hb : ∀ o, IsR (bias o)) (o : Fin 512) :
    IsR (aff h W bias o) :=
  IsR.add (IsR.sum _ (fun c => IsR.mul (hh c) (hW o c))) (hb o)

theorem score_real {q k : Fin 512 → EReal} (hq : ∀ c, IsR (q c)) (hk : ∀ c, IsR (k c)) : IsR (score q k) :=
  IsR.mul (IsR.sum _ (fun c => IsR.mul (hq c) (hk c))) wScale_real

section Block

variable {x : Fin 4 → Fin 512 → Fin 4096 → EReal} {g β : Fin 512 → EReal}
  {wq : Fin 512 → Fin 512 → EReal} {bq : Fin 512 → EReal}
  {wk : Fin 512 → Fin 512 → EReal} {bk : Fin 512 → EReal}
  {wv : Fin 512 → Fin 512 → EReal} {bv : Fin 512 → EReal}

theorem hRow_real (hx : ∀ b c l, IsR (x b c l)) (hg : ∀ c, IsR (g c)) (hβ : ∀ c, IsR (β c))
    (b : Fin 4) (l : Fin 4096) (c : Fin 512) : IsR (hRow x g β b l c) :=
  lnRow_real (fun c => hx b c l) hg hβ c

theorem qRow_real (hx : ∀ b c l, IsR (x b c l)) (hg : ∀ c, IsR (g c)) (hβ : ∀ c, IsR (β c))
    (hwq : ∀ o c, IsR (wq o c)) (hbq : ∀ o, IsR (bq o)) (b : Fin 4) (l : Fin 4096) (o : Fin 512) :
    IsR (qRow x g β wq bq b l o) :=
  aff_real (hRow_real hx hg hβ b l) hwq hbq o

theorem kRow_real (hx : ∀ b c l, IsR (x b c l)) (hg : ∀ c, IsR (g c)) (hβ : ∀ c, IsR (β c))
    (hwk : ∀ o c, IsR (wk o c)) (hbk : ∀ o, IsR (bk o)) (b : Fin 4) (l : Fin 4096) (o : Fin 512) :
    IsR (kRow x g β wk bk b l o) :=
  aff_real (hRow_real hx hg hβ b l) hwk hbk o

theorem vRow_real (hx : ∀ b c l, IsR (x b c l)) (hg : ∀ c, IsR (g c)) (hβ : ∀ c, IsR (β c))
    (hwv : ∀ o c, IsR (wv o c)) (hbv : ∀ o, IsR (bv o)) (b : Fin 4) (l : Fin 4096) (o : Fin 512) :
    IsR (vRow x g β wv bv b l o) :=
  aff_real (hRow_real hx hg hβ b l) hwv hbv o

theorem sRow_real (hx : ∀ b c l, IsR (x b c l)) (hg : ∀ c, IsR (g c)) (hβ : ∀ c, IsR (β c))
    (hwq : ∀ o c, IsR (wq o c)) (hbq : ∀ o, IsR (bq o)) (hwk : ∀ o c, IsR (wk o c)) (hbk : ∀ o, IsR (bk o))
    (b : Fin 4) (l m : Fin 4096) : IsR (sRow x g β wq bq wk bk b l m) :=
  score_real (qRow_real hx hg hβ hwq hbq b l) (kRow_real hx hg hβ hwk hbk b m)

end Block

end Cert.AttnSpec

end
-- ==== Proof.Math8.lean ====
/-
  The streamed mean equals the plain mean on real scores and values, and with it the whole block in its two
  spellings: the layer norm, the affine maps, the residual are common; SELU agrees everywhere.
-/
import proofs.«160347_j42992622633389_2_alg».proof.Proof.Math4
import proofs.«160347_j42992622633389_2_alg».proof.Proof.Math6
import proofs.«160347_j42992622633389_2_alg».proof.Proof.Math7

noncomputable section

namespace Cert.AttnSpec

open Idealize.ShloMosaic
open scoped BigOperators

theorem attn_coe (sr : Fin 4096 → ℝ) (vr : Fin 4096 → Fin 512 → ℝ) (c : Fin 512) :
    attnK (fun m => (sr m : EReal)) (fun m c => (vr m c : EReal)) c
      = attnR (fun m => (sr m : EReal)) (fun m c => (vr m c : EReal)) c := by
  obtain ⟨M, -, hl, hacc⟩ := stAfter_inv sr vr 8 le_rfl
  rw [upTo_eight] at hl hacc
  obtain ⟨Mr, hMr⟩ : ∃ Mr : ℝ,
      Finset.univ.fold max (⊥ : EReal) (fun m : Fin 4096 => (sr m : EReal)) = (Mr : EReal) :=
    fold_max_real Finset.univ Finset.univ_nonempty sr
  have hL : (∑ p, Real.exp (sr p - M)) ≠ 0 :=
    (Finset.sum_pos (fun p _ => Real.exp_pos _) Finset.univ_nonempty).ne'
  have hD : (∑ p, Real.exp (sr p - Mr)) ≠ 0 :=
    (Finset.sum_pos (fun p _ => Real.exp_pos _) Finset.univ_nonempty).ne'
  unfold attnK attnR rowMaxR
  rw [hacc c, hl, Ideal.div_coe hL, ← EReal.coe_mul, wNinf_eq, hMr, max_bot_left, wZero_eq, zero_add]
  simp only [exp_sub_coe]
  rw [← coe_sum]
  simp only [Ideal.div_coe hD, ← EReal.coe_mul]
  rw [← coe_sum, EReal.coe_eq_coe_iff, mul_one_div, softmax_two sr (fun p => vr p c) M Mr]
  refine Finset.sum_congr rfl (fun p _ => ?_)
  rw [mul_one_div]

theorem attnK_eq_attnR {s : Fin 4096 → EReal} {v : Fin 4096 → Fin 512 → EReal}
    (hs : ∀ m, IsR (s m)) (hv : ∀ m c, IsR (v m c)) (c : Fin 512) : attnK s v c = attnR s v c := by
  choose sr hsr using hs
  choose vr hvr using hv
  have hs' : s = fun m => (sr m : EReal) := funext hsr
  have hv' : v = fun m c => (vr m c : EReal) := funext (fun m => funext (hvr m))
  rw [hs', hv']
  exact attn_coe sr vr c

theorem outK_eq_outR
    (x : Fin 4 → Fin 512 → Fin 4096 → EReal) (g β : Fin 512 → EReal)
    (wq : Fin 512 → Fin 512 → EReal) (bq : Fin 512 → EReal) (wk : Fin 512 → Fin 512 → EReal) (bk : Fin 512 → EReal)
    (wv : Fin 512 → Fin 512 → EReal) (bv : Fin 512 → EReal) (wp : Fin 512 → Fin 512 → EReal) (bp : Fin 512 → EReal)
    (hx : ∀ b c l, IsR (x b c l)) (hg : ∀ c, IsR (g c)) (hβ : ∀ c, IsR (β c))
    (hwq : ∀ o c, IsR (wq o c)) (hbq : ∀ o, IsR (bq o)) (hwk : ∀ o c, IsR (wk o c)) (hbk : ∀ o, IsR (bk o))
    (hwv : ∀ o c, IsR (wv o c)) (hbv : ∀ o, IsR (bv o)) (hwp : ∀ o c, IsR (wp o c)) (hbp : ∀ o, IsR (bp o)) :
    outK x g β wq bq wk bk wv bv wp bp = outR x g β wq bq wk bk wv bv wp bp := by
  funext b c l
  have hattn : attnK (sRow x g β wq bq wk bk b l) (vRow x g β wv bv b)
      = attnR (sRow x g β wq bq wk bk b l) (vRow x g β wv bv b) :=
    funext (fun c' => attnK_eq_attnR (sRow_real hx hg hβ hwq hbq hwk hbk b l) (vRow_real hx hg hβ hwv hbv b) c')
  unfold outK outR
  rw [seluK_eq_seluR, hattn]

end Cert.AttnSpec

end
-- ==== Proof.Math.lean ====
/-
  The mathematics of the attention block, gathered: the two spellings of the block agree on real arguments
  (outK_eq_outR, in the module imported here, with everything it rests on).
-/
import proofs.«160347_j42992622633389_2_alg».proof.Proof.Math8
-- ==== Proof.PreFinite.lean ====
/-
  What the precondition says, entry by entry: every entry of each of the eleven argument arrays is a real number
  (its absolute value is below +infinity, so it is neither infinity).
-/
import proofs.«160347_j42992622633389_2_alg».proof.Pre_finite_inputs
import proofs.«160347_j42992622633389_2_alg».proof.Proof.Gen.Pre_finite_inputs
import proofs.«160347_j42992622633389_2_alg».proof.Proof.Math1
import Idealize.ShloMosaic.Lib.ReduceAll
import Idealize.ShloMosaic.Lib.Affine
import Idealize.ShloMosaic.Lib.ValueIdx

noncomputable section

namespace Cert.PreFinite

open Idealize.ShloMosaic Cert.Pre_finite_inputs Cert.AttnSpec

variable [Cert.Pre_finite_inputs.Facts]
open Cert.Pre_finite_inputs.Facts

instance : Subsingleton S_.Idx := ⟨fun a b => funext fun d => d.elim0⟩

/-- An extended real whose absolute value is below +infinity is a real number. -/
theorem isR_of_abs_lt (x : EReal) (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  induction x using EReal.rec with
  | bot => exfalso; simp [Ideal.cmp] at h
  | top => exfalso; simp [Ideal.cmp] at h
  | coe r => exact ⟨r, rfl⟩

/-- One array's test: if "all entries have absolute value below +infinity" holds, every entry is real. -/
theorem arr_isR {s : Shape} {axes : List (Fin s.rank)} (a : FVec Ideal s .f32) (hb : S_.BroadcastsInDim s (![] : Fin 0 → Fin s.rank))
    (hr : s.ReducesTo axes S_) (hu : 0 < S_.numel)
    (h : Host.reduce IntOp.andi (cmpf .olt (Host.absf a) (broadcastInDim s ![] hb (constant (F := Ideal) S_ .f32 0x7F800000#32)))
          (constantI S_ 1 1#1) hr hu ValueIdx.ix0 = 1#1) (i : s.Idx) : IsR (a i) :=
  isR_of_abs_lt _ (Host.reduce_andi_all _ _ hr hu ValueIdx.ix0 h i)

theorem finite_of_fn (a0 : FVec Ideal S4x512x4096 .f32) (a1 a2 : FVec Ideal S512 .f32) (a3 : FVec Ideal S512x512 .f32)
    (a4 : FVec Ideal S512 .f32) (a5 : FVec Ideal S512x512 .f32) (a6 : FVec Ideal S512 .f32) (a7 : FVec Ideal S512x512 .f32)
    (a8 : FVec Ideal S512 .f32) (a9 : FVec Ideal S512x512 .f32) (a10 : FVec Ideal S512 .f32)
    (h : fn (F := Ideal) a0 a1 a2 a3 a4 a5 a6 a7 a8 a9 a10 = fun _ => 1#1) :
    (∀ i, IsR (a0 i)) ∧ (∀ i, IsR (a1 i)) ∧ (∀ i, IsR (a2 i)) ∧ (∀ i, IsR (a3 i)) ∧ (∀ i, IsR (a4 i)) ∧ (∀ i, IsR (a5 i))
      ∧ (∀ i, IsR (a6 i)) ∧ (∀ i, IsR (a7 i)) ∧ (∀ i, IsR (a8 i)) ∧ (∀ i, IsR (a9 i)) ∧ (∀ i, IsR (a10 i)) := by
  have h0 := congrFun h ValueIdx.ix0
  dsimp only [fn, fn_part1, fn_part2, fn_part3, andi] at h0
  simp only [IntOp.andi_eq_one] at h0
  obtain ⟨⟨⟨⟨⟨⟨⟨⟨⟨⟨e0, e1⟩, e2⟩, e3⟩, e4⟩, e5⟩, e6⟩, e7⟩, e8⟩, e9⟩, e10⟩ := h0
  exact ⟨arr_isR a0 _ _ _ e0, arr_isR a1 _ _ _ e1, arr_isR a2 _ _ _ e2, arr_isR a3 _ _ _ e3, arr_isR a4 _ _ _ e4,
    arr_isR a5 _ _ _ e5, arr_isR a6 _ _ _ e6, arr_isR a7 _ _ _ e7, arr_isR a8 _ _ _ e8, arr_isR a9 _ _ _ e9, arr_isR a10 _ _ _ e10⟩

end Cert.PreFinite

end
-- ==== Proof.Claims.lean ====
/-
  The certificate's claims from their parts.  The two frame claims of the kernel are the generated frames; the
  idealization rewrote nothing.  The value claim: the kernel's result is the streamed spelling of the attention block at
  the launch arrays, the reference's result the plain spelling at its own; the two memories agree on the arguments, the
  precondition makes every argument entry a real number, and on real entries the two spellings are equal.  The
  kernel's value at an index and the reference's run and value are taken as hypotheses here.
-/
import proofs.«160347_j42992622633389_2_alg».proof.Defs
import proofs.«160347_j42992622633389_2_alg».proof.Proof.Gen.Kernel.Frame
import proofs.«160347_j42992622633389_2_alg».proof.Proof.Gen.KernelIdeal.Frame
import proofs.«160347_j42992622633389_2_alg».proof.Proof.Gen.ReferenceIdeal
import proofs.«160347_j42992622633389_2_alg».proof.Proof.Gen.Pre_finite_inputs
import proofs.«160347_j42992622633389_2_alg».proof.Proof.KerRun
import proofs.«160347_j42992622633389_2_alg».proof.Proof.Math
import proofs.«160347_j42992622633389_2_alg».proof.Proof.PreFinite

set_option maxRecDepth 16384

noncomputable section

namespace Cert.Proof.Claims

open Idealize.ShloMosaic Idealize.ShloMosaic.TcCoe Idealize.SL.Sem
open Idealize.ShloMosaic.ValueIdx
open Cert.AttnSpec

/-- The kernel as printed runs and leaves its arguments as launched. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- The idealization rewrote no operation. -/
theorem preserves : Cert.preserves_Kernel_KernelIdeal := trivial

section Reference

variable
  (refOut : (m' : (ℓ : Loc Cert.ReferenceIdeal.nD Cert.ReferenceIdeal.τ Cert.ReferenceIdeal.sig) → Buf (Elt Ideal) ℓ) → (c : Dev Cert.ReferenceIdeal.nD) → Buf (Elt Ideal) ((c.tc : Thread Cert.ReferenceIdeal.nD Cert.ReferenceIdeal.τ).loc Cert.ReferenceIdeal.main_v52))
  (hRrun : ∀ (m' : (ℓ : Loc Cert.ReferenceIdeal.nD Cert.ReferenceIdeal.τ Cert.ReferenceIdeal.sig) → Buf (Elt Ideal) ℓ) (ρ' : Dev Cert.ReferenceIdeal.nD → PrngReg),
      θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
        r.2.mem ((c.tc : Thread Cert.ReferenceIdeal.nD Cert.ReferenceIdeal.τ).loc Cert.ReferenceIdeal.main_v52) = refOut m' c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)))

include hRrun in
/-- The reference runs and leaves its arguments as launched: its run with the result dropped. -/
theorem frame_ri_of : Cert.frame_ReferenceIdeal := fun m ρ _ =>
  (θ_run Cert.ReferenceIdeal.defs _ _).mono (fun _ h c => (h c).2) (hRrun m ρ)

variable
  (hK : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD) (b : Fin 4) (ch : Fin 512) (l : Fin 4096),
      Cert.KernelIdeal.Gen.W3 m ρ c (Proc.devRef .tc Cert.KernelIdeal.main_v15) (ix3 b ch l)
        = outK (cur3 (m ((c.tc : Thread Cert.KernelIdeal.nD Cert.KernelIdeal.τ).loc Cert.KernelIdeal.main_arg0))) (cur1 (m ((c.tc : Thread Cert.KernelIdeal.nD Cert.KernelIdeal.τ).loc Cert.KernelIdeal.main_arg1))) (cur1 (m ((c.tc : Thread Cert.KernelIdeal.nD Cert.KernelIdeal.τ).loc Cert.KernelIdeal.main_arg2))) (cur2 (m ((c.tc : Thread Cert.KernelIdeal.nD Cert.KernelIdeal.τ).loc Cert.KernelIdeal.main_arg3))) (cur1 (m ((c.tc : Thread Cert.KernelIdeal.nD Cert.KernelIdeal.τ).loc Cert.KernelIdeal.main_arg4))) (cur2 (m ((c.tc : Thread Cert.KernelIdeal.nD Cert.KernelIdeal.τ).loc Cert.KernelIdeal.main_arg5))) (cur1 (m ((c.tc : Thread Cert.KernelIdeal.nD Cert.KernelIdeal.τ).loc Cert.KernelIdeal.main_arg6))) (cur2 (m ((c.tc : Thread Cert.KernelIdeal.nD Cert.KernelIdeal.τ).loc Cert.KernelIdeal.main_arg7))) (cur1 (m ((c.tc : Thread Cert.KernelIdeal.nD Cert.KernelIdeal.τ).loc Cert.KernelIdeal.main_arg8))) (cur2 (m ((c.tc : Thread Cert.KernelIdeal.nD Cert.KernelIdeal.τ).loc Cert.KernelIdeal.main_arg9))) (cur1 (m ((c.tc : Thread Cert.KernelIdeal.nD Cert.KernelIdeal.τ).loc Cert.KernelIdeal.main_arg10))) b ch l)
  (hRapply : ∀ (m' : (ℓ : Loc Cert.ReferenceIdeal.nD Cert.ReferenceIdeal.τ Cert.ReferenceIdeal.sig) → Buf (Elt Ideal) ℓ) (c : Dev Cert.ReferenceIdeal.nD) (b : Fin 4) (ch : Fin 512) (l : Fin 4096),
      refOut m' c (ix3 b ch l)
        = outR (cur3 (m' ((c.tc : Thread Cert.ReferenceIdeal.nD Cert.ReferenceIdeal.τ).loc Cert.ReferenceIdeal.main_arg0))) (cur1 (m' ((c.tc : Thread Cert.ReferenceIdeal.nD Cert.ReferenceIdeal.τ).loc Cert.ReferenceIdeal.main_arg1))) (cur1 (m' ((c.tc : Thread Cert.ReferenceIdeal.nD Cert.ReferenceIdeal.τ).loc Cert.ReferenceIdeal.main_arg2))) (cur2 (m' ((c.tc : Thread Cert.ReferenceIdeal.nD Cert.ReferenceIdeal.τ).loc Cert.ReferenceIdeal.main_arg3))) (cur1 (m' ((c.tc : Thread Cert.ReferenceIdeal.nD Cert.ReferenceIdeal.τ).loc Cert.ReferenceIdeal.main_arg4))) (cur2 (m' ((c.tc : Thread Cert.ReferenceIdeal.nD Cert.ReferenceIdeal.τ).loc Cert.ReferenceIdeal.main_arg5))) (cur1 (m' ((c.tc : Thread Cert.ReferenceIdeal.nD Cert.ReferenceIdeal.τ).loc Cert.ReferenceIdeal.main_arg6))) (cur2 (m' ((c.tc : Thread Cert.ReferenceIdeal.nD Cert.ReferenceIdeal.τ).loc Cert.ReferenceIdeal.main_arg7))) (cur1 (m' ((c.tc : Thread Cert.ReferenceIdeal.nD Cert.ReferenceIdeal.τ).loc Cert.ReferenceIdeal.main_arg8))) (cur2 (m' ((c.tc : Thread Cert.ReferenceIdeal.nD Cert.ReferenceIdeal.τ).loc Cert.ReferenceIdeal.main_arg9))) (cur1 (m' ((c.tc : Thread Cert.ReferenceIdeal.nD Cert.ReferenceIdeal.τ).loc Cert.ReferenceIdeal.main_arg10))) b ch l)

include hRrun hK hRapply in
/-- From memories agreeing on the arguments, all of whose entries are finite, the two programs end with equal results. -/
theorem algebraic_of : Cert.algebraic_KernelIdeal_ReferenceIdeal := by
  intro m g m' g' hpre hagree
  refine ⟨fun c => Cert.KernelIdeal.Gen.W3 m g c (Proc.devRef .tc Cert.KernelIdeal.main_v15), Cert.KernelIdeal.KerValue.run_result m g, ?_⟩
  refine (θ_run Cert.ReferenceIdeal.defs _ _).mono (fun _ h c => ⟨(h c).1.trans ?_, (h c).2⟩) (hRrun m' g')
  funext i
  obtain ⟨b, ch, l, rfl⟩ : ∃ (b : Fin 4) (ch : Fin 512) (l : Fin 4096), i = ix3 b ch l := ⟨i 0, i 1, i 2, eq_ix3 i⟩
  rw [hRapply]
  beta_reduce
  rw [hK]
  obtain ⟨e0, e1, e2, e3, e4, e5, e6, e7, e8, e9, e10⟩ := hagree c
  rw [e0, e1, e2, e3, e4, e5, e6, e7, e8, e9, e10]
  obtain ⟨f0, f1, f2, f3, f4, f5, f6, f7, f8, f9, f10⟩ := Cert.PreFinite.finite_of_fn _ _ _ _ _ _ _ _ _ _ _ (hpre c)
  exact (congrFun (congrFun (congrFun (outK_eq_outR _ _ _ _ _ _ _ _ _ _ _ (fun b c l => f0 (ix3 b c l)) (fun c => f1 (ix1 c)) (fun c => f2 (ix1 c)) (fun o c => f3 (ix2 o c)) (fun c => f4 (ix1 c)) (fun o c => f5 (ix2 o c)) (fun c => f6 (ix1 c)) (fun o c => f7 (ix2 o c)) (fun c => f8 (ix1 c)) (fun o c => f9 (ix2 o c)) (fun c => f10 (ix1 c))) b) ch) l).symm

end Reference

end Cert.Proof.Claims

end
-- ==== Proof.KerHost.lean ====
/-
  What region 0 finds in the buffers the host wrote before it: each [512] vector laid out as a [1, 512] row, each
  [512, 512] weight matrix transposed (its change of float format being the identity on the extended reals), and the
  input array untouched.
-/
import proofs.«160347_j42992622633389_2_alg».proof.Proof.Gen.KernelIdeal.Frame
import Idealize.ShloMosaic.Lib.ValueLayout

set_option maxRecDepth 16384

noncomputable section

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable (m : (ℓ : Loc nD τ sig) → Buf (Elt Ideal) ℓ) (ρ : Dev nD → PrngReg)

/-- The row main_v0 is the vector main_arg1: (0, ch) reads ch. -/
theorem V1_v0 (c : Dev nD) (ch : Fin 512) :
    Gen.V1 m ρ c main_v0 (ix2 (0 : Fin 1) ch) = m ((c.tc : Thread nD τ).loc main_arg1) (ix1 ch) := by
  have e : (Gen.V1 m ρ c main_v0 : S1x512.Idx → EReal)
      = shapeCast S1x512 (m ((c.tc : Thread nD τ).loc main_arg1) : S512.Idx → EReal) shapeCasts_S512_S1x512 := by
    dsimp only [Gen.V1, Gen.W1, Gen.hostOps0]; after_results; rfl
  exact (congrFun e (ix2 (0 : Fin 1) ch)).trans (shapeCast_a_1a_apply _ _ 0 ch)

/-- The row main_v1 is the vector main_arg2: (0, ch) reads ch. -/
theorem V1_v1 (c : Dev nD) (ch : Fin 512) :
    Gen.V1 m ρ c main_v1 (ix2 (0 : Fin 1) ch) = m ((c.tc : Thread nD τ).loc main_arg2) (ix1 ch) := by
  have e : (Gen.V1 m ρ c main_v1 : S1x512.Idx → EReal)
      = shapeCast S1x512 (m ((c.tc : Thread nD τ).loc main_arg2) : S512.Idx → EReal) shapeCasts_S512_S1x512 := by
    dsimp only [Gen.V1, Gen.W1, Gen.hostOps0]; after_results; rfl
  exact (congrFun e (ix2 (0 : Fin 1) ch)).trans (shapeCast_a_1a_apply _ _ 0 ch)

/-- The row main_v2 is the vector main_arg4: (0, ch) reads ch. -/
theorem V1_v2 (c : Dev nD) (ch : Fin 512) :
    Gen.V1 m ρ c main_v2 (ix2 (0 : Fin 1) ch) = m ((c.tc : Thread nD τ).loc main_arg4) (ix1 ch) := by
  have e : (Gen.V1 m ρ c main_v2 : S1x512.Idx → EReal)
      = shapeCast S1x512 (m ((c.tc : Thread nD τ).loc main_arg4) : S512.Idx → EReal) shapeCasts_S512_S1x512 := by
    dsimp only [Gen.V1, Gen.W1, Gen.hostOps0]; after_results; rfl
  exact (congrFun e (ix2 (0 : Fin 1) ch)).trans (shapeCast_a_1a_apply _ _ 0 ch)

/-- The row main_v3 is the vector main_arg6: (0, ch) reads ch. -/
theorem V1_v3 (c : Dev nD) (ch : Fin 512) :
    Gen.V1 m ρ c main_v3 (ix2 (0 : Fin 1) ch) = m ((c.tc : Thread nD τ).loc main_arg6) (ix1 ch) := by
  have e : (Gen.V1 m ρ c main_v3 : S1x512.Idx → EReal)
      = shapeCast S1x512 (m ((c.tc : Thread nD τ).loc main_arg6) : S512.Idx → EReal) shapeCasts_S512_S1x512 := by
    dsimp only [Gen.V1, Gen.W1, Gen.hostOps0]; after_results; rfl
  exact (congrFun e (ix2 (0 : Fin 1) ch)).trans (shapeCast_a_1a_apply _ _ 0 ch)

/-- The row main_v4 is the vector main_arg8: (0, ch) reads ch. -/
theorem V1_v4 (c : Dev nD) (ch : Fin 512) :
    Gen.V1 m ρ c main_v4 (ix2 (0 : Fin 1) ch) = m ((c.tc : Thread nD τ).loc main_arg8) (ix1 ch) := by
  have e : (Gen.V1 m ρ c main_v4 : S1x512.Idx → EReal)
      = shapeCast S1x512 (m ((c.tc : Thread nD τ).loc main_arg8) : S512.Idx → EReal) shapeCasts_S512_S1x512 := by
    dsimp only [Gen.V1, Gen.W1, Gen.hostOps0]; after_results; rfl
  exact (congrFun e (ix2 (0 : Fin 1) ch)).trans (shapeCast_a_1a_apply _ _ 0 ch)

/-- The row main_v5 is the vector main_arg10: (0, ch) reads ch. -/
theorem V1_v5 (c : Dev nD) (ch : Fin 512) :
    Gen.V1 m ρ c main_v5 (ix2 (0 : Fin 1) ch) = m ((c.tc : Thread nD τ).loc main_arg10) (ix1 ch) := by
  have e : (Gen.V1 m ρ c main_v5 : S1x512.Idx → EReal)
      = shapeCast S1x512 (m ((c.tc : Thread nD τ).loc main_arg10) : S512.Idx → EReal) shapeCasts_S512_S1x512 := by
    dsimp only [Gen.V1, Gen.W1, Gen.hostOps0]; after_results; rfl
  exact (congrFun e (ix2 (0 : Fin 1) ch)).trans (shapeCast_a_1a_apply _ _ 0 ch)

/-- The matrix main_v7 is main_arg3 transposed: (i, o) reads (o, i). -/
theorem V1_v7 (c : Dev nD) (i o : Fin 512) :
    Gen.V1 m ρ c main_v7 (ix2 i o) = m ((c.tc : Thread nD τ).loc main_arg3) (ix2 o i) := by
  have e : (Gen.V1 m ρ c main_v7 : S512x512.Idx → EReal)
      = transpose S512x512 [1, 0] (m ((c.tc : Thread nD τ).loc main_arg3) : S512x512.Idx → EReal) transposes_S512x512_S512x512_1_0 := by
    dsimp only [Gen.V1, Gen.W1, Gen.hostOps0]; after_results; rfl
  exact (congrFun e (ix2 i o)).trans (transpose_ix2_apply _ _ i o)

/-- The matrix main_v9 is main_arg5 transposed: (i, o) reads (o, i). -/
theorem V1_v9 (c : Dev nD) (i o : Fin 512) :
    Gen.V1 m ρ c main_v9 (ix2 i o) = m ((c.tc : Thread nD τ).loc main_arg5) (ix2 o i) := by
  have e : (Gen.V1 m ρ c main_v9 : S512x512.Idx → EReal)
      = transpose S512x512 [1, 0] (m ((c.tc : Thread nD τ).loc main_arg5) : S512x512.Idx → EReal) transposes_S512x512_S512x512_1_0 := by
    dsimp only [Gen.V1, Gen.W1, Gen.hostOps0]; after_results; rfl
  exact (congrFun e (ix2 i o)).trans (transpose_ix2_apply _ _ i o)

/-- The matrix main_v11 is main_arg7 transposed: (i, o) reads (o, i). -/
theorem V1_v11 (c : Dev nD) (i o : Fin 512) :
    Gen.V1 m ρ c main_v11 (ix2 i o) = m ((c.tc : Thread nD τ).loc main_arg7) (ix2 o i) := by
  have e : (Gen.V1 m ρ c main_v11 : S512x512.Idx → EReal)
      = transpose S512x512 [1, 0] (m ((c.tc : Thread nD τ).loc main_arg7) : S512x512.Idx → EReal) transposes_S512x512_S512x512_1_0 := by
    dsimp only [Gen.V1, Gen.W1, Gen.hostOps0]; after_results; rfl
  exact (congrFun e (ix2 i o)).trans (transpose_ix2_apply _ _ i o)

/-- The matrix main_v13 is main_arg9 transposed: (i, o) reads (o, i). -/
theorem V1_v13 (c : Dev nD) (i o : Fin 512) :
    Gen.V1 m ρ c main_v13 (ix2 i o) = m ((c.tc : Thread nD τ).loc main_arg9) (ix2 o i) := by
  have e : (Gen.V1 m ρ c main_v13 : S512x512.Idx → EReal)
      = transpose S512x512 [1, 0] (m ((c.tc : Thread nD τ).loc main_arg9) : S512x512.Idx → EReal) transposes_S512x512_S512x512_1_0 := by
    dsimp only [Gen.V1, Gen.W1, Gen.hostOps0]; after_results; rfl
  exact (congrFun e (ix2 i o)).trans (transpose_ix2_apply _ _ i o)

/-- No host operation writes the input array. -/
theorem V1_arg0 (c : Dev nD) : Gen.V1 m ρ c main_arg0 = m ((c.tc : Thread nD τ).loc main_arg0) := by
  dsimp only [Gen.V1, Gen.W1, Gen.hostOps0]; after_results

end Cert.KernelIdeal.KerValue

end
-- ==== Proof.KerValue.lean ====
/-
  The composition: the result buffer after the two regions, read at an index, is the attention block's streamed
  spelling evaluated at the eleven argument arrays.  Region 1's output is its per-row formula over the arrays it is
  entered with; of those, the query, key and value arrays are region 0's outputs, themselves per-row formulas over the
  arrays region 0 is entered with; those are the launch arrays, the vectors as rows and the weights transposed.  The
  two regions' per-row formulas are taken as hypotheses here.
-/
import proofs.«160347_j42992622633389_2_alg».proof.Proof.KerHost
import proofs.«160347_j42992622633389_2_alg».proof.Proof.Spec

set_option maxRecDepth 16384

noncomputable section

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx
open Cert.AttnSpec

variable (m : (ℓ : Loc nD τ sig) → Buf (Elt Ideal) ℓ) (ρ : Dev nD → PrngReg)

/-! ## What region 1 is entered with, apart from region 0's outputs -/

/-- Region 0 only reads the input array: at its exit the array is as launched. -/
theorem V2_arg0 (c : Dev nD) : Gen.V2 m ρ c main_arg0 = m ((c.tc : Thread nD τ).loc main_arg0) :=
  ((Gen.W2_arr m ρ c 0).trans (((Gen.dat0 (Gen.V1 m ρ) c).arrAt_in 0 rfl _).trans (Gen.A_eq0 (Gen.V1 m ρ) c 0))).trans
    (V1_arg0 m ρ c)

/-- The projection's weight is no array of region 0: at its exit it is the transposed launch matrix still. -/
theorem V2_v13 (c : Dev nD) (i o : Fin 512) :
    Gen.V2 m ρ c main_v13 (ix2 i o) = m ((c.tc : Thread nD τ).loc main_arg9) (ix2 o i) :=
  (congrFun (Gen.W2_of_ne m ρ c main_v13 (by decide)) (ix2 i o)).trans (V1_v13 m ρ c i o)

/-- The projection's bias likewise. -/
theorem V2_v5 (c : Dev nD) (ch : Fin 512) :
    Gen.V2 m ρ c main_v5 (ix2 (0 : Fin 1) ch) = m ((c.tc : Thread nD τ).loc main_arg10) (ix1 ch) :=
  (congrFun (Gen.W2_of_ne m ρ c main_v5 (by decide)) (ix2 (0 : Fin 1) ch)).trans (V1_v5 m ρ c ch)

/-! ## Region 0's outputs are the query, key and value rows -/

section Rows

variable
  (reg0_q : ∀ (V : (c : Dev nD) → (b : Ref sig .tc) → Buf (Elt Ideal) ((c : Thread nD τ).loc b)) (c : Dev nD) (b : Fin 4) (l : Fin 4096) (o : Fin 512),
    (Gen.dat0 V c).arrAt 9 cfg0.N (ix3 b l o)
      = aff (lnRow (fun ch => V c main_arg0 (ix3 b ch l)) (fun ch => V c main_v0 (ix2 0 ch)) (fun ch => V c main_v1 (ix2 0 ch)))
          (fun o' ch => V c main_v7 (ix2 ch o')) (fun o' => V c main_v2 (ix2 0 o')) o)
  (reg0_k : ∀ (V : (c : Dev nD) → (b : Ref sig .tc) → Buf (Elt Ideal) ((c : Thread nD τ).loc b)) (c : Dev nD) (b : Fin 4) (l : Fin 4096) (o : Fin 512),
    (Gen.dat0 V c).arrAt 10 cfg0.N (ix3 b l o)
      = aff (lnRow (fun ch => V c main_arg0 (ix3 b ch l)) (fun ch => V c main_v0 (ix2 0 ch)) (fun ch => V c main_v1 (ix2 0 ch)))
          (fun o' ch => V c main_v9 (ix2 ch o')) (fun o' => V c main_v3 (ix2 0 o')) o)
  (reg0_v : ∀ (V : (c : Dev nD) → (b : Ref sig .tc) → Buf (Elt Ideal) ((c : Thread nD τ).loc b)) (c : Dev nD) (b : Fin 4) (l : Fin 4096) (o : Fin 512),
    (Gen.dat0 V c).arrAt 11 cfg0.N (ix3 b l o)
      = aff (lnRow (fun ch => V c main_arg0 (ix3 b ch l)) (fun ch => V c main_v0 (ix2 0 ch)) (fun ch => V c main_v1 (ix2 0 ch)))
          (fun o' ch => V c main_v11 (ix2 ch o')) (fun o' => V c main_v4 (ix2 0 o')) o)

include reg0_q in
theorem V2_q (c : Dev nD) (b : Fin 4) (l : Fin 4096) (o : Fin 512) :
    Gen.V2 m ρ c main_v14_0 (ix3 b l o)
      = qRow (cur3 (m ((c.tc : Thread nD τ).loc main_arg0))) (cur1 (m ((c.tc : Thread nD τ).loc main_arg1))) (cur1 (m ((c.tc : Thread nD τ).loc main_arg2))) (cur2 (m ((c.tc : Thread nD τ).loc main_arg3))) (cur1 (m ((c.tc : Thread nD τ).loc main_arg4))) b l o := by
  rw [show Gen.V2 m ρ c main_v14_0 = (Gen.dat0 (Gen.V1 m ρ) c).arrAt 9 cfg0.N from Gen.W2_arr m ρ c 9, reg0_q]
  simp only [V1_v0 m ρ c, V1_v1 m ρ c, V1_v2 m ρ c, V1_v7 m ρ c, V1_arg0 m ρ c]
  rfl

include reg0_k in
theorem V2_k (c : Dev nD) (b : Fin 4) (l : Fin 4096) (o : Fin 512) :
    Gen.V2 m ρ c main_v14_1 (ix3 b l o)
      = kRow (cur3 (m ((c.tc : Thread nD τ).loc main_arg0))) (cur1 (m ((c.tc : Thread nD τ).loc main_arg1))) (cur1 (m ((c.tc : Thread nD τ).loc main_arg2))) (cur2 (m ((c.tc : Thread nD τ).loc main_arg5))) (cur1 (m ((c.tc : Thread nD τ).loc main_arg6))) b l o := by
  rw [show Gen.V2 m ρ c main_v14_1 = (Gen.dat0 (Gen.V1 m ρ) c).arrAt 10 cfg0.N from Gen.W2_arr m ρ c 10, reg0_k]
  simp only [V1_v0 m ρ c, V1_v1 m ρ c, V1_v3 m ρ c, V1_v9 m ρ c, V1_arg0 m ρ c]
  rfl

include reg0_v in
theorem V2_v (c : Dev nD) (b : Fin 4) (l : Fin 4096) (o : Fin 512) :
    Gen.V2 m ρ c main_v14_2 (ix3 b l o)
      = vRow (cur3 (m ((c.tc : Thread nD τ).loc main_arg0))) (cur1 (m ((c.tc : Thread nD τ).loc main_arg1))) (cur1 (m ((c.tc : Thread nD τ).loc main_arg2))) (cur2 (m ((c.tc : Thread nD τ).loc main_arg7))) (cur1 (m ((c.tc : Thread nD τ).loc main_arg8))) b l o := by
  rw [show Gen.V2 m ρ c main_v14_2 = (Gen.dat0 (Gen.V1 m ρ) c).arrAt 11 cfg0.N from Gen.W2_arr m ρ c 11, reg0_v]
  simp only [V1_v0 m ρ c, V1_v1 m ρ c, V1_v4 m ρ c, V1_v11 m ρ c, V1_arg0 m ρ c]
  rfl

/-! ## The result -/

variable
  (reg1_out : ∀ (V : (c : Dev nD) → (b : Ref sig .tc) → Buf (Elt Ideal) ((c : Thread nD τ).loc b)) (c : Dev nD) (b : Fin 4) (ch : Fin 512) (l : Fin 4096),
    (Gen.dat1 V c).arrAt 6 cfg1.N (ix3 b ch l)
      = HAdd.hAdd (α := EReal) (β := EReal) (γ := EReal) (V c main_arg0 (ix3 b ch l))
          (seluK (aff (attnK (fun mm => score (fun cc => V c main_v14_0 (ix3 b l cc)) (fun cc => V c main_v14_1 (ix3 b mm cc)))
                        (fun mm cc => V c main_v14_2 (ix3 b mm cc)))
                    (fun o cc => V c main_v13 (ix2 cc o)) (fun o => V c main_v5 (ix2 0 o)) ch)))

include reg0_q reg0_k reg0_v reg1_out in
/-- The result buffer at (b, ch, l) is the block's streamed spelling at the launch arrays. -/
theorem result_value (c : Dev nD) (b : Fin 4) (ch : Fin 512) (l : Fin 4096) :
    Gen.W3 m ρ c (Proc.devRef .tc main_v15) (ix3 b ch l)
      = outK (cur3 (m ((c.tc : Thread nD τ).loc main_arg0))) (cur1 (m ((c.tc : Thread nD τ).loc main_arg1))) (cur1 (m ((c.tc : Thread nD τ).loc main_arg2))) (cur2 (m ((c.tc : Thread nD τ).loc main_arg3))) (cur1 (m ((c.tc : Thread nD τ).loc main_arg4))) (cur2 (m ((c.tc : Thread nD τ).loc main_arg5))) (cur1 (m ((c.tc : Thread nD τ).loc main_arg6))) (cur2 (m ((c.tc : Thread nD τ).loc main_arg7))) (cur1 (m ((c.tc : Thread nD τ).loc main_arg8))) (cur2 (m ((c.tc : Thread nD τ).loc main_arg9))) (cur1 (m ((c.tc : Thread nD τ).loc main_arg10))) b ch l := by
  rw [show Gen.W3 m ρ c (Proc.devRef .tc main_v15) = (Gen.dat1 (Gen.V2 m ρ) c).arrAt 6 cfg1.N from Gen.W3_arr m ρ c 6,
    reg1_out]
  simp only [V2_arg0 m ρ c, V2_v13 m ρ c, V2_v5 m ρ c, V2_q m ρ reg0_q c, V2_k m ρ reg0_k c, V2_v m ρ reg0_v c]
  rfl

end Rows

end Cert.KernelIdeal.KerValue

end
-- ==== Proof.KerReg0Blocks.lean ====
import proofs.«160347_j42992622633389_2_alg».proof.Proof.Gen.KernelIdeal.Frame
import Idealize.ShloMosaic.Lib.Pipeline.Value
import Idealize.ShloMosaic.Lib.ValueIdx

set_option maxRecDepth 16384

/-! # The blocks the first kernel reads, as parts of the arrays

The first kernel runs on a 4 x 4 grid: point (b, k) reads the block of batch element b, all 512 channels, positions
1024 k to 1024 k + 1023 of the input, and the whole of every parameter array; it writes rows 1024 k to 1024 k + 1023
of batch element b in each of the three results. A block's entry sits in its array, on each axis, at the block's
index times the block's extent plus the entry's own coordinate. -/

noncomputable section

namespace Cert.KernelIdeal.Reg0Value

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 16 grid points: the input block moves with the result blocks (batch element on
    axis 0, position block on the input's axis 2 and the results' axis 1), the three results move together, and
    every parameter window stays at block 0. -/
theorem idx_facts : ∀ t : Fin cfg0.N,
    win0_0.index t (0 : Fin 3) = win0_9.index t (0 : Fin 3) ∧ win0_0.index t (1 : Fin 3) = 0
    ∧ win0_0.index t (2 : Fin 3) = win0_9.index t (1 : Fin 3) ∧ win0_9.index t (2 : Fin 3) = 0
    ∧ win0_9.index t (0 : Fin 3) ≤ 3 ∧ win0_9.index t (1 : Fin 3) ≤ 3
    ∧ win0_10.index t = win0_9.index t ∧ win0_11.index t = win0_9.index t :=
  (by decide +kernel : ∀ t : Fin grid0.N, _)

/-- Every parameter window's block index is zero at every point. -/
theorem idx_params : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Every pair (batch element, position block) is some point's. -/
theorem idx_onto : ∀ (q0 : Fin 4) (q1 : Fin 4), ∃ t : Fin cfg0.N, win0_9.index t = ![q0.val, q1.val, 0] :=
  (by decide +kernel : ∀ (q0 : Fin 4) (q1 : Fin 4), ∃ t : Fin grid0.N, win0_9.index t = ![q0.val, q1.val, 0])

/-- The input block at point t, read at y, is the input array at the entry whose coordinates are block index
    times extent plus y's. -/
theorem xblk_apply (c : Dev nD) (t : Fin cfg0.N) (y : S1x512x1024.Idx) (i : S4x512x4096.Idx)
    (h0 : (i 0).val = win0_0.index t (0 : Fin 3) * 1 + (y 0).val)
    (h1 : (i 1).val = win0_0.index t (1 : Fin 3) * 512 + (y 1).val)
    (h2 : (i 2).val = win0_0.index t (2 : Fin 3) * 1024 + (y 2).val) :
    (iblk0 V c 0 t : Vec Ideal S1x512x1024 .f32) y = (V c main_arg0 : S4x512x4096.Idx → EReal) i := by
  unfold iblk0
  rw [View.read_apply]
  show V c main_arg0 _ = V c main_arg0 i
  congr 1
  funext a
  apply Fin.ext
  match a with
  | ⟨0, _⟩ => show win0_0.index t (0 : Fin 3) * 1 + 1 * (y 0).val = (i 0).val; omega
  | ⟨1, _⟩ => show win0_0.index t (1 : Fin 3) * 512 + 1 * (y 1).val = (i 1).val; omega
  | ⟨2, _⟩ => show win0_0.index t (2 : Fin 3) * 1024 + 1 * (y 2).val = (i 2).val; omega

/-! ## The parameter windows: each block is its whole array -/

/-- Window 1's block at any point is the whole of its array. -/
theorem pblk1 (c : Dev nD) (t : Fin cfg0.N) :
    (iblk0 V c 1 t : FVec Ideal S1x512 .f32) = (V c main_v0 : S1x512.Idx → EReal) := by
  funext y
  unfold iblk0
  rw [View.read_apply]
  show V c main_v0 _ = V c main_v0 y
  congr 1
  funext a
  apply Fin.ext
  obtain ⟨⟨e0, e1⟩, -, -, -, -, -, -, -⟩ := idx_params t
  match a with
  | ⟨0, _⟩ => show win0_1.index t (0 : Fin 2) * 1 + 1 * (y 0).val = (y 0).val; omega
  | ⟨1, _⟩ => show win0_1.index t (1 : Fin 2) * 512 + 1 * (y 1).val = (y 1).val; omega

/-- Window 2's block at any point is the whole of its array. -/
theorem pblk2 (c : Dev nD) (t : Fin cfg0.N) :
    (iblk0 V c 2 t : FVec Ideal S1x512 .f32) = (V c main_v1 : S1x512.Idx → EReal) := by
  funext y
  unfold iblk0
  rw [View.read_apply]
  show V c main_v1 _ = V c main_v1 y
  congr 1
  funext a
  apply Fin.ext
  obtain ⟨-, ⟨e0, e1⟩, -, -, -, -, -, -⟩ := idx_params t
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- Window 3's block at any point is the whole of its array. -/
theorem pblk3 (c : Dev nD) (t : Fin cfg0.N) :
    (iblk0 V c 3 t : FVec Ideal S512x512 .bf16) = (V c main_v7 : S512x512.Idx → EReal) := by
  funext y
  unfold iblk0
  rw [View.read_apply]
  show V c main_v7 _ = V c main_v7 y
  congr 1
  funext a
  apply Fin.ext
  obtain ⟨-, -, ⟨e0, e1⟩, -, -, -, -, -⟩ := idx_params t
  match a with
  | ⟨0, _⟩ => show win0_3.index t (0 : Fin 2) * 512 + 1 * (y 0).val = (y 0).val; omega
  | ⟨1, _⟩ => show win0_3.index t (1 : Fin 2) * 512 + 1 * (y 1).val = (y 1).val; omega

/-- Window 4's block at any point is the whole of its array. -/
theorem pblk4 (c : Dev nD) (t : Fin cfg0.N) :
    (iblk0 V c 4 t : FVec Ideal S512x512 .bf16) = (V c main_v9 : S512x512.Idx → EReal) := by
  funext y
  unfold iblk0
  rw [View.read_apply]
  show V c main_v9 _ = V c main_v9 y
  congr 1
  funext a
  apply Fin.ext
  obtain ⟨-, -, -, ⟨e0, e1⟩, -, -, -, -⟩ := idx_params t
  match a with
  | ⟨0, _⟩ => show win0_4.index t (0 : Fin 2) * 512 + 1 * (y 0).val = (y 0).val; omega
  | ⟨1, _⟩ => show win0_4.index t (1 : Fin 2) * 512 + 1 * (y 1).val = (y 1).val; omega

/-- Window 5's block at any point is the whole of its array. -/
theorem pblk5 (c : Dev nD) (t : Fin cfg0.N) :
    (iblk0 V c 5 t : FVec Ideal S512x512 .bf16) = (V c main_v11 : S512x512.Idx → EReal) := by
  funext y
  unfold iblk0
  rw [View.read_apply]
  show V c main_v11 _ = V c main_v11 y
  congr 1
  funext a
  apply Fin.ext
  obtain ⟨-, -, -, -, ⟨e0, e1⟩, -, -, -⟩ := idx_params t
  match a with
  | ⟨0, _⟩ => show win0_5.index t (0 : Fin 2) * 512 + 1 * (y 0).val = (y 0).val; omega
  | ⟨1, _⟩ => show win0_5.index t (1 : Fin 2) * 512 + 1 * (y 1).val = (y 1).val; omega

/-- Window 6's block at any point is the whole of its array. -/
theorem pblk6 (c : Dev nD) (t : Fin cfg0.N) :
    (iblk0 V c 6 t : FVec Ideal S1x512 .f32) = (V c main_v2 : S1x512.Idx → EReal) := by
  funext y
  unfold iblk0
  rw [View.read_apply]
  show V c main_v2 _ = V c main_v2 y
  congr 1
  funext a
  apply Fin.ext
  obtain ⟨-, -, -, -, -, ⟨e0, e1⟩, -, -⟩ := idx_params t
  match a with
  | ⟨0, _⟩ => show win0_6.index t (0 : Fin 2) * 1 + 1 * (y 0).val = (y 0).val; omega
  | ⟨1, _⟩ => show win0_6.index t (1 : Fin 2) * 512 + 1 * (y 1).val = (y 1).val; omega

/-- Window 7's block at any point is the whole of its array. -/
theorem pblk7 (c : Dev nD) (t : Fin cfg0.N) :
    (iblk0 V c 7 t : FVec Ideal S1x512 .f32) = (V c main_v3 : S1x512.Idx → EReal) := by
  funext y
  unfold iblk0
  rw [View.read_apply]
  show V c main_v3 _ = V c main_v3 y
  congr 1
  funext a
  apply Fin.ext
  obtain ⟨-, -, -, -, -, -, ⟨e0, e1⟩, -⟩ := idx_params t
  match a with
  | ⟨0, _⟩ => show win0_7.index t (0 : Fin 2) * 1 + 1 * (y 0).val = (y 0).val; omega
  | ⟨1, _⟩ => show win0_7.index t (1 : Fin 2) * 512 + 1 * (y 1).val = (y 1).val; omega

/-- Window 8's block at any point is the whole of its array. -/
theorem pblk8 (c : Dev nD) (t : Fin cfg0.N) :
    (iblk0 V c 8 t : FVec Ideal S1x512 .f32) = (V c main_v4 : S1x512.Idx → EReal) := by
  funext y
  unfold iblk0
  rw [View.read_apply]
  show V c main_v4 _ = V c main_v4 y
  congr 1
  funext a
  apply Fin.ext
  obtain ⟨-, -, -, -, -, -, -, ⟨e0, e1⟩⟩ := idx_params t
  match a with
  | ⟨0, _⟩ => show win0_8.index t (0 : Fin 2) * 1 + 1 * (y 0).val = (y 0).val; omega
  | ⟨1, _⟩ => show win0_8.index t (1 : Fin 2) * 512 + 1 * (y 1).val = (y 1).val; omega

end Cert.KernelIdeal.Reg0Value

end
-- ==== Proof.LibColumnCasts.lean ====
import Idealize.ShloMosaic.Lib.Pipeline.Value
import Idealize.ShloMosaic.Lib.ValueIdx

/-! # Column casts read at an index

A vector of length `a` seen as an `a × 1` column (what a sum along the last axis that keeps the axis produces),
and an `a × 1` column seen as a vector again. Both casts keep the row-major position: entry `i` of the vector is
entry `(i, 0)` of the column. Stated for any extent `a` and any element type, over indices written with
`ix1` / `ix2`, so that they apply to a printed cast by unification. -/

namespace ColumnCasts

open Idealize.ShloMosaic Idealize.ShloMosaic.ValueIdx

variable {α : Type}

/-- A length-`a` vector cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to a length-`a` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end ColumnCasts
-- ==== Proof.LibColumnBroadcast.lean ====
import Idealize.ShloMosaic.Lib.Pipeline.Value
import Idealize.ShloMosaic.Lib.ValueIdx

/-! # A column broadcast along the last axis, read at an index

An `a × 1` column broadcast to `a × b` (what a row statistic kept as a column becomes when it is combined with the
whole row again) repeats entry `(i, 0)` along row `i`. Stated for any extents and any element type, over indices
written with `ix2`, so that it applies to a printed broadcast by unification. -/

namespace ColumnBroadcast

open Idealize.ShloMosaic Idealize.ShloMosaic.ValueIdx

variable {α : Type}

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end ColumnBroadcast
-- ==== Proof.KerReg0Ln.lean ====
import proofs.«160347_j42992622633389_2_alg».proof.Proof.Gen.KernelIdeal.Skeleton
import proofs.«160347_j42992622633389_2_alg».proof.Proof.Spec
import proofs.«160347_j42992622633389_2_alg».proof.Proof.LibColumnCasts
import proofs.«160347_j42992622633389_2_alg».proof.Proof.LibColumnBroadcast
import Idealize.ShloMosaic.Lib.ValueLayout
import Idealize.ShloMosaic.PureOps.Ideal.Laws

/-! # The layer norm of one block, read at an entry

The first kernel loads a block of 512 channels by 1024 positions, turns it so that a position owns a row of
512 channels, and normalises every row: the row's mean is the sum of its channels over 512, its variance the sum of
the squared deviations over 512, and entry (p, c) of the result is
((x p c - mean p) * rsqrt (var p + eps)) * gain c + shift c. Read at an entry this is the specification's
layer norm of the row of position p. -/

noncomputable section

namespace Cert.KernelIdeal.Reg0Value

open Idealize.ShloMosaic Idealize.ShloMosaic.ValueIdx Cert.KernelIdeal Cert.KernelIdeal.Gen
open scoped BigOperators

/-! ## The pieces of the body, named -/

/-- The loaded block turned: positions by channels. -/
def turned (x0 : Vec Ideal S1x512x1024 .f32) : FVec Ideal S1024x512 .f32 :=
  transpose S1024x512 [1, 0] (shapeCast S512x1024 x0 Facts₀.shapeCasts_S1x512x1024_S512x1024)
    Facts₀.transposes_S512x1024_p1_0_S1024x512

/-- The column of row averages: each row summed along its channels, kept as a column, over 512. -/
def avgCol (X : FVec Ideal S1024x512 .f32) : FVec Ideal S1024x1 .f32 :=
  divf (shapeCast S1024x1 (multiReduction .add [1] S1024 X 0x00000000#32 Facts₀.reduces_S1024x512_S1024 (.inl rfl) rfl)
      Facts₀.shapeCasts_S1024_S1024x1)
    (broadcast S1024x1 (Scalar.ofBits .f32 0x44000000#32))

/-- Every row less its average. -/
def centered (X : FVec Ideal S1024x512 .f32) : FVec Ideal S1024x512 .f32 :=
  subf X (broadcastTo S1024x512 (avgCol X) Facts₀.broadcasts_S1024x1_S1024x512)

/-- The column of reciprocal standard deviations: rsqrt of the average squared deviation plus eps. -/
def rstdCol (X : FVec Ideal S1024x512 .f32) : FVec Ideal S1024x1 .f32 :=
  rsqrt (addf (avgCol (mulf (centered X) (centered X))) (broadcast S1024x1 (Scalar.ofBits .f32 0x3727C5AC#32)))

/-- The body's normalised block is these pieces put together. -/
theorem pay4_eq (x0 : Vec Ideal S1x512x1024 .f32) (x1 x2 : Vec Ideal S1x512 .f32) :
    k0_pay4 x0 x1 x2 = truncf .bf16 (addf (mulf (mulf (centered (turned x0))
        (broadcastTo S1024x512 (rstdCol (turned x0)) Facts₀.broadcasts_S1024x1_S1024x512))
        (broadcastTo S1024x512 (shapeCast S1x512 x1 Facts₀.shapeCasts_S1x512_S1x512) Facts₀.broadcasts_S1x512_S1024x512))
        (broadcastTo S1024x512 (shapeCast S1x512 x2 Facts₀.shapeCasts_S1x512_S1x512) Facts₀.broadcasts_S1x512_S1024x512))
      Facts₀.bitsLt_bf16_f32 := rfl

/-! ## Each piece at an entry -/

/-- The turned block at (p, ch) is the loaded block at (0, ch, p). -/
theorem turned_apply (x0 : Vec Ideal S1x512x1024 .f32) (p : Fin 1024) (ch : Fin 512) :
    turned x0 (ix2 p ch) = x0 (ix3 (0 : Fin 1) ch p) := by
  unfold turned
  rw [transpose_ix2_apply, shapeCast_1ab_ab_apply]

/-- A sum along the channels of a 1024 x 512 array, at position p, is the sum over the 512 channels. -/
theorem laneSum_apply (src : FVec Ideal S1024x512 .f32) (hφ : FKind.Formats .f32)
    (hacc : (0x00000000#32 : BitVec 32) = FKind.add.neutral .f32 hφ) (p : Fin 1024) :
    multiReduction (F := Ideal) .add [1] S1024 src 0x00000000#32 Facts₀.reduces_S1024x512_S1024 hφ hacc (ix1 p)
      = ∑ ch : Fin 512, src (ix2 p ch) := by
  refine (Ideal.multiReduction_add_single src 0x00000000#32 Facts₀.reduces_S1024x512_S1024 hφ hacc (ix1 p)).trans ?_
  refine Finset.sum_congr rfl fun ch _ => congrArg src ?_
  funext a
  match a with
  | ⟨0, _⟩ => rfl
  | ⟨1, _⟩ => rfl

/-- The column of averages at (p, ·) is the specification's mean of row p. -/
theorem avgCol_apply (X : FVec Ideal S1024x512 .f32) (p : Fin 1024) (u : Fin 1) :
    avgCol X (ix2 p u) = Cert.AttnSpec.rowMean (fun ch => X (ix2 p ch)) := by
  unfold avgCol
  rw [divf_apply, broadcast_apply, ColumnCasts.shapeCast_a_a1_apply]
  refine congrArg (fun s => Ideal.div s _) ?_
  exact laneSum_apply X _ _ p

/-- A centred entry is the entry less its row's mean. -/
theorem centered_apply (X : FVec Ideal S1024x512 .f32) (p : Fin 1024) (c : Fin 512) :
    centered X (ix2 p c) = X (ix2 p c) - Cert.AttnSpec.rowMean (fun ch => X (ix2 p ch)) := by
  unfold centered
  rw [subf_apply, ColumnBroadcast.broadcastTo_a1_ab_apply, avgCol_apply]

/-- The reciprocal standard deviation of row p. -/
theorem rstdCol_apply (X : FVec Ideal S1024x512 .f32) (p : Fin 1024) (u : Fin 1) :
    rstdCol X (ix2 p u) = Ideal.rsqrt (Cert.AttnSpec.rowVar (fun ch => X (ix2 p ch)) + Cert.AttnSpec.wEps) := by
  unfold rstdCol
  show Ideal.rsqrt (avgCol (mulf (centered X) (centered X)) (ix2 p u) + _) = _
  rw [avgCol_apply]
  refine congrArg (fun v => Ideal.rsqrt (v + _)) ?_
  unfold Cert.AttnSpec.rowVar Cert.AttnSpec.rowMean
  refine congrArg (fun s => Ideal.div s _) (Finset.sum_congr rfl fun ch _ => ?_)
  show mulf (centered X) (centered X) (ix2 p ch) = _
  rw [mulf_apply, centered_apply]
  rfl

/-- THE NORMALISED BLOCK AT (p, c): the specification's layer norm of the row of position p, at channel c. -/
theorem pay4_apply (x0 : Vec Ideal S1x512x1024 .f32) (x1 x2 : Vec Ideal S1x512 .f32) (p : Fin 1024) (c : Fin 512) :
    k0_pay4 x0 x1 x2 (ix2 p c)
      = Cert.AttnSpec.lnRow (fun ch => x0 (ix3 (0 : Fin 1) ch p)) (fun ch => x1 (ix2 (0 : Fin 1) ch))
          (fun ch => x2 (ix2 (0 : Fin 1) ch)) c := by
  rw [pay4_eq, truncf_apply, addf_apply, mulf_apply, mulf_apply, centered_apply,
    ColumnBroadcast.broadcastTo_a1_ab_apply, rstdCol_apply, broadcastTo_1b_ab_apply, broadcastTo_1b_ab_apply,
    shapeCast_self, shapeCast_self]
  have e : (fun ch => turned x0 (ix2 p ch)) = fun ch => x0 (ix3 (0 : Fin 1) ch p) :=
    funext fun ch => turned_apply x0 p ch
  rw [e, turned_apply]
  rfl

end Cert.KernelIdeal.Reg0Value

end
-- ==== Proof.KerReg0Aff.lean ====
import proofs.«160347_j42992622633389_2_alg».proof.Proof.KerReg0Ln

/-! # The three projections of one block, read at an entry

After the layer norm the first kernel multiplies the normalised block (1024 positions by 512 channels) by a
512 x 512 weight block laid out [in, out], adds a bias row, and stores the result as a [1, 1024, 512] block: three
times, for queries, keys and values. Entry (p, o) of a product into a zero accumulator is the sum over the channels
ch of h(p, ch) * W(ch, o); with the bias this is the specification's affine map of row p, the weight read as
W o ch = block(ch, o). -/

noncomputable section

namespace Cert.KernelIdeal.Reg0Value

open Idealize.ShloMosaic Idealize.ShloMosaic.ValueIdx Cert.KernelIdeal Cert.KernelIdeal.Gen
open scoped BigOperators

/-- The product into the zero accumulator at (p, o): the sum over the contracted channel. -/
theorem mm_apply (L : FVec Ideal S1024x512 .bf16) (R : FVec Ideal S512x512 .bf16) (p : Fin 1024) (o : Fin 512) :
    matmul dot_S1024x512_S512x512_S1024x512_1_0_0_1_n_n none L R (constant (F := Ideal) S1024x512 .f32 0x00000000#32) (ix2 p o)
      = ∑ ch : Fin 512, L (ix2 p ch) * R (ix2 ch o) := by
  show FloatOps.matmul _ none L R _ (ix2 p o) = _
  rw [Ideal.matmul_constant_zero_apply,
    ← Equiv.sum_comp (contrEquiv1 dot_S1024x512_S512x512_S1024x512_1_0_0_1_n_n 512 rfl rfl).symm]
  refine Finset.sum_congr rfl fun ch _ => ?_
  have c2 := contrEquiv1_symm_val dot_S1024x512_S512x512_S1024x512_1_0_0_1_n_n 512 rfl rfl ch
  have l2 : dot_S1024x512_S512x512_S1024x512_1_0_0_1_n_n.lhsIdx (ix2 p o)
      ((contrEquiv1 _ 512 rfl rfl).symm ch) = ix2 p ch := by
    funext ax; apply Fin.ext
    match ax with
    | ⟨0, _⟩ => simp [DotDims.lhsIdx, dot_S1024x512_S512x512_S1024x512_1_0_0_1_n_n]; rfl
    | ⟨1, _⟩ => simp [DotDims.lhsIdx, dot_S1024x512_S512x512_S1024x512_1_0_0_1_n_n]; exact c2
  have r2 : dot_S1024x512_S512x512_S1024x512_1_0_0_1_n_n.rhsIdx (ix2 p o)
      ((contrEquiv1 _ 512 rfl rfl).symm ch) = ix2 ch o := by
    funext ax; apply Fin.ext
    match ax with
    | ⟨0, _⟩ => simp [DotDims.rhsIdx, dot_S1024x512_S512x512_S1024x512_1_0_0_1_n_n]; exact c2
    | ⟨1, _⟩ => simp [DotDims.rhsIdx, dot_S1024x512_S512x512_S1024x512_1_0_0_1_n_n]; rfl
  rw [l2, r2]

/-- A block times a weight block plus a bias row, as the body spells it. -/
def blockAff (h : FVec Ideal S1024x512 .bf16) (W : FVec Ideal S512x512 .bf16) (b : FVec Ideal S1x512 .f32) :
    FVec Ideal S1024x512 .f32 :=
  addf (matmul dot_S1024x512_S512x512_S1024x512_1_0_0_1_n_n none h
      (shapeCast S512x512 W Facts₀.shapeCasts_S512x512_S512x512) (constant S1024x512 .f32 0x00000000#32))
    (broadcastTo S1024x512 (shapeCast S1x512 b Facts₀.shapeCasts_S1x512_S1x512) Facts₀.broadcasts_S1x512_S1024x512)

/-- What is stored: the block under a leading unit axis (the change of format is the identity). -/
def stored (v : FVec Ideal S1024x512 .f32) : FVec Ideal S1x1024x512 .bf16 :=
  shapeCast S1x1024x512 (truncf .bf16 v Facts₀.bitsLt_bf16_f32) Facts₀.shapeCasts_S1024x512_S1x1024x512

/-- The three stored blocks are that one form, at the three weights and biases. -/
theorem payQ_eq (x0 : Vec Ideal S1x512x1024 .f32) (x1 x2 : Vec Ideal S1x512 .f32) (W : FVec Ideal S512x512 .bf16)
    (b : FVec Ideal S1x512 .f32) : k0_pay1 (k0_pay5 x0 x1 x2 W b) = stored (blockAff (k0_pay4 x0 x1 x2) W b) := rfl
theorem payK_eq (x0 : Vec Ideal S1x512x1024 .f32) (x1 x2 : Vec Ideal S1x512 .f32) (W : FVec Ideal S512x512 .bf16)
    (b : FVec Ideal S1x512 .f32) : k0_pay2 (k0_pay6 x0 x1 x2 W) b = stored (blockAff (k0_pay4 x0 x1 x2) W b) := rfl
theorem payV_eq (x0 : Vec Ideal S1x512x1024 .f32) (x1 x2 : Vec Ideal S1x512 .f32) (W : FVec Ideal S512x512 .bf16)
    (b : FVec Ideal S1x512 .f32) : k0_pay3 (k0_pay4 x0 x1 x2) W b = stored (blockAff (k0_pay4 x0 x1 x2) W b) := rfl

/-- The stored block at (·, p, o): the affine map of row p of the operand block. -/
theorem stored_blockAff_apply (h : FVec Ideal S1024x512 .bf16) (W : FVec Ideal S512x512 .bf16) (b : FVec Ideal S1x512 .f32)
    (u : Fin 1) (p : Fin 1024) (o : Fin 512) :
    stored (blockAff h W b) (ix3 u p o)
      = Cert.AttnSpec.aff (fun c => h (ix2 p c)) (fun o' ch => W (ix2 ch o')) (fun o' => b (ix2 (0 : Fin 1) o')) o := by
  unfold stored blockAff
  rw [shapeCast_ab_1ab_apply, truncf_apply, addf_apply, broadcastTo_1b_ab_apply, shapeCast_self, shapeCast_self]
  refine congrArg (fun s => s + _) ?_
  exact mm_apply h W p o

/-- THE STORED BLOCK OF A PROJECTION AT (·, p, o), from the loaded blocks: the affine map of the layer norm of the
    row of position p. -/
theorem outBlock_apply (x0 : Vec Ideal S1x512x1024 .f32) (x1 x2 : Vec Ideal S1x512 .f32) (W : FVec Ideal S512x512 .bf16)
    (b : FVec Ideal S1x512 .f32) (u : Fin 1) (p : Fin 1024) (o : Fin 512) :
    stored (blockAff (k0_pay4 x0 x1 x2) W b) (ix3 u p o)
      = Cert.AttnSpec.aff (Cert.AttnSpec.lnRow (fun ch => x0 (ix3 (0 : Fin 1) ch p)) (fun ch => x1 (ix2 (0 : Fin 1) ch))
            (fun ch => x2 (ix2 (0 : Fin 1) ch)))
          (fun o' ch => W (ix2 ch o')) (fun o' => b (ix2 (0 : Fin 1) o')) o := by
  rw [stored_blockAff_apply]
  refine congrArg (fun r => Cert.AttnSpec.aff r _ _ o) ?_
  exact funext fun c => pay4_apply x0 x1 x2 p c

end Cert.KernelIdeal.Reg0Value

end
-- ==== Proof.KerReg0Point.lean ====
import proofs.«160347_j42992622633389_2_alg».proof.Proof.KerReg0Aff

/-! # One stored block as part of one whole-array function

Each of the three results of the first kernel is, entry by entry, a function of whole arrays: entry (b, l, o) is the
affine map, at output channel o, of the layer norm of the 512 channels of batch element b at position l. The block
a grid point stores is the part of that function on the point's rows: if the loaded input block is the part of the
input array at batch element q0 and positions 1024 q1 and up, then the stored block's entry (·, p, o) is the
function at (q0, 1024 q1 + p, o). -/

noncomputable section

namespace Cert.KernelIdeal.Reg0Value

open Idealize.ShloMosaic Idealize.ShloMosaic.ValueIdx Cert.KernelIdeal Cert.KernelIdeal.Gen
open scoped BigOperators

/-- Entry (b, l, o) of a projection of the normalised input: from the input array, the gain and shift rows, a weight
    array laid out [in, out] and a bias row. -/
def rowProj (A0 : S4x512x4096.Idx → EReal) (g β : S1x512.Idx → EReal) (W : S512x512.Idx → EReal) (bias : S1x512.Idx → EReal)
    (b : Fin 4) (l : Fin 4096) (o : Fin 512) : EReal :=
  Cert.AttnSpec.aff (Cert.AttnSpec.lnRow (fun ch => A0 (ix3 b ch l)) (fun ch => g (ix2 (0 : Fin 1) ch))
      (fun ch => β (ix2 (0 : Fin 1) ch)))
    (fun o' ch => W (ix2 ch o')) (fun o' => bias (ix2 (0 : Fin 1) o')) o

/-- The same as one array over [4, 4096, 512]. -/
def projArr (A0 : S4x512x4096.Idx → EReal) (g β : S1x512.Idx → EReal) (W : S512x512.Idx → EReal) (bias : S1x512.Idx → EReal) :
    S4x4096x512.Idx → EReal := fun i => rowProj A0 g β W bias (i 0) (i 1) (i 2)

theorem projArr_ix3 (A0 : S4x512x4096.Idx → EReal) (g β : S1x512.Idx → EReal) (W : S512x512.Idx → EReal)
    (bias : S1x512.Idx → EReal) (b : Fin 4) (l : Fin 4096) (o : Fin 512) :
    projArr A0 g β W bias (ix3 b l o) = rowProj A0 g β W bias b l o := rfl

/-- THE STORED BLOCK IS A PART OF THE ARRAY FUNCTION: with the loaded input block the part of the input array at
    block (q0, 0, q1), the stored block at j is the array function at the entry whose coordinates are
    (q0, q1, 0) times the block's extents plus j's. -/
theorem point_eq (A0 : S4x512x4096.Idx → EReal) (g β : S1x512.Idx → EReal) (W : S512x512.Idx → EReal) (bias : S1x512.Idx → EReal)
    (x0 : Vec Ideal S1x512x1024 .f32) (q0 q1 : Nat)
    (hx : ∀ (y : S1x512x1024.Idx) (i : S4x512x4096.Idx), (i 0).val = q0 * 1 + (y 0).val → (i 1).val = 0 * 512 + (y 1).val →
      (i 2).val = q1 * 1024 + (y 2).val → x0 y = A0 i)
    (j : S1x1024x512.Idx) (i : S4x4096x512.Idx)
    (h0 : (i 0).val = q0 * 1 + (j 0).val) (h1 : (i 1).val = q1 * 1024 + (j 1).val) (h2 : (i 2).val = 0 * 512 + (j 2).val) :
    stored (blockAff (k0_pay4 x0 g β) W bias) j = projArr A0 g β W bias i := by
  obtain ⟨u, p, o, rfl⟩ : ∃ (u : Fin 1) (p : Fin 1024) (o : Fin 512), j = ix3 u p o := ⟨j 0, j 1, j 2, eq_ix3 j⟩
  obtain ⟨b, l, o', rfl⟩ : ∃ (b : Fin 4) (l : Fin 4096) (o' : Fin 512), i = ix3 b l o' := ⟨i 0, i 1, i 2, eq_ix3 i⟩
  have hu : u.val = 0 := by omega
  have eo : o' = o := Fin.ext (by
    have : o'.val = 0 * 512 + o.val := h2
    omega)
  subst eo
  rw [outBlock_apply, projArr_ix3]
  unfold rowProj
  refine congrArg (fun r => Cert.AttnSpec.aff r _ _ o') ?_
  refine congrArg (fun r => Cert.AttnSpec.lnRow r _ _) ?_
  funext ch
  refine hx (ix3 (0 : Fin 1) ch p) (ix3 b ch l) ?_ ?_ ?_
  · show b.val = q0 * 1 + 0
    have : b.val = q0 * 1 + u.val := h0
    omega
  · show ch.val = 0 * 512 + ch.val
    omega
  · show l.val = q1 * 1024 + p.val
    exact h1

end Cert.KernelIdeal.Reg0Value

end
-- ==== Proof.KerReg0Q.lean ====
import proofs.«160347_j42992622633389_2_alg».proof.Proof.KerReg0Blocks
import proofs.«160347_j42992622633389_2_alg».proof.Proof.KerReg0Point

set_option maxRecDepth 16384

/-! # The query array after the first kernel

Every grid point stores, into rows 1024 k to 1024 k + 1023 of batch element b of the query array, its part of one
whole-array function: entry (b, l, o) is the query projection (weight [in, out], bias row) of the layer norm of the
input's 512 channels at batch element b, position l. The 16 blocks tile the array, so after the last point the array
is that function everywhere, whatever the arrays held when the kernel was entered. -/

noncomputable section

namespace Cert.KernelIdeal.Reg0Value

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- What a point writes back is its block of the array function. -/
theorem flushed_q (c : Dev nD) (t : Fin cfg0.N) :
    (dat0 V c).flushed 9 t = ((cfg0.win 9).blk t).view.read (Elt Ideal)
      (projArr (V c main_arg0) (V c main_v0) (V c main_v1) (V c main_v7) (V c main_v2)) := by
  show (cfg0.win 9).cut (grid0.coords t) ((dat0 V c).after 9 t) = _
  rw [after0_9]
  unfold out0_9
  rw [View.canon_unit_zero hz3]
  simp only [View.ld_unit_zero (S := S1x512x1024) hz3, View.ld_unit_zero (S := S1x512) hz2,
    View.ld_unit_zero (S := S512x512) hz2]
  rw [payQ_eq (iblk0 V c 0 t) (iblk0 V c 1 t) (iblk0 V c 2 t) (iblk0 V c 3 t) (iblk0 V c 6 t),
    pblk1 V c t, pblk2 V c t, pblk3 V c t, pblk6 V c t]
  obtain ⟨e0, e1, e2, e3, e4, e5, e10, e11⟩ := idx_facts t
  funext j
  show stored (blockAff (k0_pay4 (iblk0 V c 0 t) (V c main_v0) (V c main_v1)) (V c main_v7) (V c main_v2)) j
    = projArr (V c main_arg0) (V c main_v0) (V c main_v1) (V c main_v7) (V c main_v2) (((cfg0.win 9).blk t).view.emb j)
  refine point_eq (V c main_arg0) (V c main_v0) (V c main_v1) (V c main_v7) (V c main_v2) (iblk0 V c 0 t)
    (win0_9.index t (0 : Fin 3)) (win0_9.index t (1 : Fin 3))
    (fun y i h0 h1 h2 => xblk_apply V c t y i (by rw [e0]; exact h0) (by rw [e1]; exact h1) (by rw [e2]; exact h2))
    j _ ?_ ?_ ?_
  · show win0_9.index t (0 : Fin 3) * 1 + 1 * (j 0).val = _
    omega
  · show win0_9.index t (1 : Fin 3) * 1024 + 1 * (j 1).val = _
    omega
  · show win0_9.index t (2 : Fin 3) * 512 + 1 * (j 2).val = _
    rw [e3]; omega

/-- An entry of the array is in point t's block iff each coordinate is in the block's range on its axis. -/
theorem mem_blk_q (t : Fin cfg0.N) (i : S4x4096x512.Idx) :
    i ∈ ((cfg0.win 9).blk t).view.set ↔ ∀ a : Fin 3, win0_9.index t a * S1x1024x512.size a ≤ (i a).val
      ∧ (i a).val < win0_9.index t a * S1x1024x512.size a + S1x1024x512.size a := by
  show i ∈ ((View.whole main_v14_0).slice (win0_9.rect t)).set ↔ _
  rw [View.set_slice_whole, Rect.mem_set_unit]
  exact Iff.rfl

/-- Every entry is in the block of the point (its batch element, its position's block of 1024). -/
theorem cover_q (i : S4x4096x512.Idx) :
    ∃ t : Fin cfg0.N, (cfg0.win 9).flush t = true ∧ i ∈ ((cfg0.win 9).blk t).view.set := by
  have hi0 : (i 0).val < 4 := (i 0).isLt
  have hi1 : (i 1).val < 4096 := (i 1).isLt
  have hi2 : (i 2).val < 512 := (i 2).isLt
  obtain ⟨t, ht⟩ := idx_onto ⟨(i 0).val, hi0⟩ ⟨(i 1).val / 1024, by omega⟩
  have q0 : win0_9.index t (0 : Fin 3) = (i 0).val := congrFun ht 0
  have q1 : win0_9.index t (1 : Fin 3) = (i 1).val / 1024 := congrFun ht 1
  have q2 : win0_9.index t (2 : Fin 3) = 0 := congrFun ht 2
  obtain ⟨-, -, -, -, -, -, e10, e11⟩ := idx_facts t
  refine ⟨t, flush0_9 t, ?_⟩
  rw [mem_blk_q]
  intro a
  match a with
  | ⟨0, _⟩ =>
    show win0_9.index t (0 : Fin 3) * 1 ≤ (i 0).val ∧ (i 0).val < win0_9.index t (0 : Fin 3) * 1 + 1
    omega
  | ⟨1, _⟩ =>
    show win0_9.index t (1 : Fin 3) * 1024 ≤ (i 1).val ∧ (i 1).val < win0_9.index t (1 : Fin 3) * 1024 + 1024
    omega
  | ⟨2, _⟩ =>
    show win0_9.index t (2 : Fin 3) * 512 ≤ (i 2).val ∧ (i 2).val < win0_9.index t (2 : Fin 3) * 512 + 512
    omega

/-- THE ARRAY after the kernel is the array function. -/
theorem final_q (c : Dev nD) :
    (dat0 V c).arrAt 9 cfg0.N = projArr (V c main_arg0) (V c main_v0) (V c main_v1) (V c main_v7) (V c main_v2) :=
  (dat0 V c).arrAt_eq_of_cover 9 _ (fun t _ => flushed_q V c t) cover_q

/-- THE QUERY ARRAY AT (b, l, o): the projection, at output channel o, of the layer norm of the input's
    channels at batch element b and position l, for any contents V of the arrays at the kernel's entry. -/
theorem reg0_q (c : Dev nD) (b : Fin 4) (l : Fin 4096) (o : Fin 512) :
    (Gen.dat0 V c).arrAt 9 cfg0.N (ValueIdx.ix3 b l o)
      = Cert.AttnSpec.aff (Cert.AttnSpec.lnRow (fun ch => V c main_arg0 (ValueIdx.ix3 b ch l))
            (fun ch => V c main_v0 (ValueIdx.ix2 0 ch)) (fun ch => V c main_v1 (ValueIdx.ix2 0 ch)))
          (fun o' ch => V c main_v7 (ValueIdx.ix2 ch o')) (fun o' => V c main_v2 (ValueIdx.ix2 0 o')) o :=
  congrFun (final_q V c) (ix3 b l o)

end Cert.KernelIdeal.Reg0Value

end
-- ==== Proof.KerReg0K.lean ====
import proofs.«160347_j42992622633389_2_alg».proof.Proof.KerReg0Blocks
import proofs.«160347_j42992622633389_2_alg».proof.Proof.KerReg0Point

set_option maxRecDepth 16384

/-! # The key array after the first kernel

Every grid point stores, into rows 1024 k to 1024 k + 1023 of batch element b of the key array, its part of one
whole-array function: entry (b, l, o) is the key projection (weight [in, out], bias row) of the layer norm of the
input's 512 channels at batch element b, position l. The 16 blocks tile the array, so after the last point the array
is that function everywhere, whatever the arrays held when the kernel was entered. -/

noncomputable section

namespace Cert.KernelIdeal.Reg0Value

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- What a point writes back is its block of the array function. -/
theorem flushed_k (c : Dev nD) (t : Fin cfg0.N) :
    (dat0 V c).flushed 10 t = ((cfg0.win 10).blk t).view.read (Elt Ideal)
      (projArr (V c main_arg0) (V c main_v0) (V c main_v1) (V c main_v9) (V c main_v3)) := by
  show (cfg0.win 10).cut (grid0.coords t) ((dat0 V c).after 10 t) = _
  rw [after0_10]
  unfold out0_10
  rw [View.canon_unit_zero hz3]
  simp only [View.ld_unit_zero (S := S1x512x1024) hz3, View.ld_unit_zero (S := S1x512) hz2,
    View.ld_unit_zero (S := S512x512) hz2]
  rw [payK_eq (iblk0 V c 0 t) (iblk0 V c 1 t) (iblk0 V c 2 t) (iblk0 V c 4 t) (iblk0 V c 7 t),
    pblk1 V c t, pblk2 V c t, pblk4 V c t, pblk7 V c t]
  obtain ⟨e0, e1, e2, e3, e4, e5, e10, e11⟩ := idx_facts t
  funext j
  show stored (blockAff (k0_pay4 (iblk0 V c 0 t) (V c main_v0) (V c main_v1)) (V c main_v9) (V c main_v3)) j
    = projArr (V c main_arg0) (V c main_v0) (V c main_v1) (V c main_v9) (V c main_v3) (((cfg0.win 10).blk t).view.emb j)
  refine point_eq (V c main_arg0) (V c main_v0) (V c main_v1) (V c main_v9) (V c main_v3) (iblk0 V c 0 t)
    (win0_9.index t (0 : Fin 3)) (win0_9.index t (1 : Fin 3))
    (fun y i h0 h1 h2 => xblk_apply V c t y i (by rw [e0]; exact h0) (by rw [e1]; exact h1) (by rw [e2]; exact h2))
    j _ ?_ ?_ ?_
  · show win0_10.index t (0 : Fin 3) * 1 + 1 * (j 0).val = _
    rw [e10]; omega
  · show win0_10.index t (1 : Fin 3) * 1024 + 1 * (j 1).val = _
    rw [e10]; omega
  · show win0_10.index t (2 : Fin 3) * 512 + 1 * (j 2).val = _
    rw [e10, e3]; omega

/-- An entry of the array is in point t's block iff each coordinate is in the block's range on its axis. -/
theorem mem_blk_k (t : Fin cfg0.N) (i : S4x4096x512.Idx) :
    i ∈ ((cfg0.win 10).blk t).view.set ↔ ∀ a : Fin 3, win0_10.index t a * S1x1024x512.size a ≤ (i a).val
      ∧ (i a).val < win0_10.index t a * S1x1024x512.size a + S1x1024x512.size a := by
  show i ∈ ((View.whole main_v14_1).slice (win0_10.rect t)).set ↔ _
  rw [View.set_slice_whole, Rect.mem_set_unit]
  exact Iff.rfl

/-- Every entry is in the block of the point (its batch element, its position's block of 1024). -/
theorem cover_k (i : S4x4096x512.Idx) :
    ∃ t : Fin cfg0.N, (cfg0.win 10).flush t = true ∧ i ∈ ((cfg0.win 10).blk t).view.set := by
  have hi0 : (i 0).val < 4 := (i 0).isLt
  have hi1 : (i 1).val < 4096 := (i 1).isLt
  have hi2 : (i 2).val < 512 := (i 2).isLt
  obtain ⟨t, ht⟩ := idx_onto ⟨(i 0).val, hi0⟩ ⟨(i 1).val / 1024, by omega⟩
  have q0 : win0_9.index t (0 : Fin 3) = (i 0).val := congrFun ht 0
  have q1 : win0_9.index t (1 : Fin 3) = (i 1).val / 1024 := congrFun ht 1
  have q2 : win0_9.index t (2 : Fin 3) = 0 := congrFun ht 2
  obtain ⟨-, -, -, -, -, -, e10, e11⟩ := idx_facts t
  refine ⟨t, flush0_10 t, ?_⟩
  rw [mem_blk_k]
  intro a
  match a with
  | ⟨0, _⟩ =>
    show win0_10.index t (0 : Fin 3) * 1 ≤ (i 0).val ∧ (i 0).val < win0_10.index t (0 : Fin 3) * 1 + 1
    rw [e10]; omega
  | ⟨1, _⟩ =>
    show win0_10.index t (1 : Fin 3) * 1024 ≤ (i 1).val ∧ (i 1).val < win0_10.index t (1 : Fin 3) * 1024 + 1024
    rw [e10]; omega
  | ⟨2, _⟩ =>
    show win0_10.index t (2 : Fin 3) * 512 ≤ (i 2).val ∧ (i 2).val < win0_10.index t (2 : Fin 3) * 512 + 512
    rw [e10]; omega

/-- THE ARRAY after the kernel is the array function. -/
theorem final_k (c : Dev nD) :
    (dat0 V c).arrAt 10 cfg0.N = projArr (V c main_arg0) (V c main_v0) (V c main_v1) (V c main_v9) (V c main_v3) :=
  (dat0 V c).arrAt_eq_of_cover 10 _ (fun t _ => flushed_k V c t) cover_k

/-- THE KEY ARRAY AT (b, l, o): the projection, at output channel o, of the layer norm of the input's
    channels at batch element b and position l, for any contents V of the arrays at the kernel's entry. -/
theorem reg0_k (c : Dev nD) (b : Fin 4) (l : Fin 4096) (o : Fin 512) :
    (Gen.dat0 V c).arrAt 10 cfg0.N (ValueIdx.ix3 b l o)
      = Cert.AttnSpec.aff (Cert.AttnSpec.lnRow (fun ch => V c main_arg0 (ValueIdx.ix3 b ch l))
            (fun ch => V c main_v0 (ValueIdx.ix2 0 ch)) (fun ch => V c main_v1 (ValueIdx.ix2 0 ch)))
          (fun o' ch => V c main_v9 (ValueIdx.ix2 ch o')) (fun o' => V c main_v3 (ValueIdx.ix2 0 o')) o :=
  congrFun (final_k V c) (ix3 b l o)

end Cert.KernelIdeal.Reg0Value

end
-- ==== Proof.KerReg0V.lean ====
import proofs.«160347_j42992622633389_2_alg».proof.Proof.KerReg0Blocks
import proofs.«160347_j42992622633389_2_alg».proof.Proof.KerReg0Point

set_option maxRecDepth 16384

/-! # The value array after the first kernel

Every grid point stores, into rows 1024 k to 1024 k + 1023 of batch element b of the value array, its part of one
whole-array function: entry (b, l, o) is the value projection (weight [in, out], bias row) of the layer norm of the
input's 512 channels at batch element b, position l. The 16 blocks tile the array, so after the last point the array
is that function everywhere, whatever the arrays held when the kernel was entered. -/

noncomputable section

namespace Cert.KernelIdeal.Reg0Value

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- What a point writes back is its block of the array function. -/
theorem flushed_v (c : Dev nD) (t : Fin cfg0.N) :
    (dat0 V c).flushed 11 t = ((cfg0.win 11).blk t).view.read (Elt Ideal)
      (projArr (V c main_arg0) (V c main_v0) (V c main_v1) (V c main_v11) (V c main_v4)) := by
  show (cfg0.win 11).cut (grid0.coords t) ((dat0 V c).after 11 t) = _
  rw [after0_11]
  unfold out0_11
  rw [View.canon_unit_zero hz3]
  simp only [View.ld_unit_zero (S := S1x512x1024) hz3, View.ld_unit_zero (S := S1x512) hz2,
    View.ld_unit_zero (S := S512x512) hz2]
  rw [payV_eq (iblk0 V c 0 t) (iblk0 V c 1 t) (iblk0 V c 2 t) (iblk0 V c 5 t) (iblk0 V c 8 t),
    pblk1 V c t, pblk2 V c t, pblk5 V c t, pblk8 V c t]
  obtain ⟨e0, e1, e2, e3, e4, e5, e10, e11⟩ := idx_facts t
  funext j
  show stored (blockAff (k0_pay4 (iblk0 V c 0 t) (V c main_v0) (V c main_v1)) (V c main_v11) (V c main_v4)) j
    = projArr (V c main_arg0) (V c main_v0) (V c main_v1) (V c main_v11) (V c main_v4) (((cfg0.win 11).blk t).view.emb j)
  refine point_eq (V c main_arg0) (V c main_v0) (V c main_v1) (V c main_v11) (V c main_v4) (iblk0 V c 0 t)
    (win0_9.index t (0 : Fin 3)) (win0_9.index t (1 : Fin 3))
    (fun y i h0 h1 h2 => xblk_apply V c t y i (by rw [e0]; exact h0) (by rw [e1]; exact h1) (by rw [e2]; exact h2))
    j _ ?_ ?_ ?_
  · show win0_11.index t (0 : Fin 3) * 1 + 1 * (j 0).val = _
    rw [e11]; omega
  · show win0_11.index t (1 : Fin 3) * 1024 + 1 * (j 1).val = _
    rw [e11]; omega
  · show win0_11.index t (2 : Fin 3) * 512 + 1 * (j 2).val = _
    rw [e11, e3]; omega

/-- An entry of the array is in point t's block iff each coordinate is in the block's range on its axis. -/
theorem mem_blk_v (t : Fin cfg0.N) (i : S4x4096x512.Idx) :
    i ∈ ((cfg0.win 11).blk t).view.set ↔ ∀ a : Fin 3, win0_11.index t a * S1x1024x512.size a ≤ (i a).val
      ∧ (i a).val < win0_11.index t a * S1x1024x512.size a + S1x1024x512.size a := by
  show i ∈ ((View.whole main_v14_2).slice (win0_11.rect t)).set ↔ _
  rw [View.set_slice_whole, Rect.mem_set_unit]
  exact Iff.rfl

/-- Every entry is in the block of the point (its batch element, its position's block of 1024). -/
theorem cover_v (i : S4x4096x512.Idx) :
    ∃ t : Fin cfg0.N, (cfg0.win 11).flush t = true ∧ i ∈ ((cfg0.win 11).blk t).view.set := by
  have hi0 : (i 0).val < 4 := (i 0).isLt
  have hi1 : (i 1).val < 4096 := (i 1).isLt
  have hi2 : (i 2).val < 512 := (i 2).isLt
  obtain ⟨t, ht⟩ := idx_onto ⟨(i 0).val, hi0⟩ ⟨(i 1).val / 1024, by omega⟩
  have q0 : win0_9.index t (0 : Fin 3) = (i 0).val := congrFun ht 0
  have q1 : win0_9.index t (1 : Fin 3) = (i 1).val / 1024 := congrFun ht 1
  have q2 : win0_9.index t (2 : Fin 3) = 0 := congrFun ht 2
  obtain ⟨-, -, -, -, -, -, e10, e11⟩ := idx_facts t
  refine ⟨t, flush0_11 t, ?_⟩
  rw [mem_blk_v]
  intro a
  match a with
  | ⟨0, _⟩ =>
    show win0_11.index t (0 : Fin 3) * 1 ≤ (i 0).val ∧ (i 0).val < win0_11.index t (0 : Fin 3) * 1 + 1
    rw [e11]; omega
  | ⟨1, _⟩ =>
    show win0_11.index t (1 : Fin 3) * 1024 ≤ (i 1).val ∧ (i 1).val < win0_11.index t (1 : Fin 3) * 1024 + 1024
    rw [e11]; omega
  | ⟨2, _⟩ =>
    show win0_11.index t (2 : Fin 3) * 512 ≤ (i 2).val ∧ (i 2).val < win0_11.index t (2 : Fin 3) * 512 + 512
    rw [e11]; omega

/-- THE ARRAY after the kernel is the array function. -/
theorem final_v (c : Dev nD) :
    (dat0 V c).arrAt 11 cfg0.N = projArr (V c main_arg0) (V c main_v0) (V c main_v1) (V c main_v11) (V c main_v4) :=
  (dat0 V c).arrAt_eq_of_cover 11 _ (fun t _ => flushed_v V c t) cover_v

/-- THE VALUE ARRAY AT (b, l, o): the projection, at output channel o, of the layer norm of the input's
    channels at batch element b and position l, for any contents V of the arrays at the kernel's entry. -/
theorem reg0_v (c : Dev nD) (b : Fin 4) (l : Fin 4096) (o : Fin 512) :
    (Gen.dat0 V c).arrAt 11 cfg0.N (ValueIdx.ix3 b l o)
      = Cert.AttnSpec.aff (Cert.AttnSpec.lnRow (fun ch => V c main_arg0 (ValueIdx.ix3 b ch l))
            (fun ch => V c main_v0 (ValueIdx.ix2 0 ch)) (fun ch => V c main_v1 (ValueIdx.ix2 0 ch)))
          (fun o' ch => V c main_v11 (ValueIdx.ix2 ch o')) (fun o' => V c main_v4 (ValueIdx.ix2 0 o')) o :=
  congrFun (final_v V c) (ix3 b l o)

end Cert.KernelIdeal.Reg0Value

end
-- ==== Proof.Reg1Arr.lean ====
/-
  Region 1's output array after the region, read at an index: every block the pipeline writes back is the
  corresponding block of one whole-array function of the arrays the region is entered with (per position, the residual
  plus SELU of the projected streamed attention of that position's query row against all key and value rows of its
  batch element), and the blocks tile the array.  The value of one block, as the kernel body computes it from its
  loaded blocks, is taken as a hypothesis here.
-/
import proofs.«160347_j42992622633389_2_alg».proof.Proof.Gen.KernelIdeal.Frame
import proofs.«160347_j42992622633389_2_alg».proof.Proof.Spec
import Idealize.ShloMosaic.Lib.Pipeline.Value

set_option maxRecDepth 16384

noncomputable section

namespace Cert.KernelIdeal.Reg1

open Idealize.ShloMosaic Idealize.ShloMosaic.TcCoe Idealize.ShloMosaic.Tactic
open Idealize.ShloMosaic.Pipeline (Dat Cfg Window BodyObligation cellOf)
open Idealize.ShloMosaic.ValueIdx
open Cert.KernelIdeal.Gen
open Cert.AttnSpec

variable (V : (c : Dev nD) → (b : Ref sig .tc) → Buf (Elt Ideal) ((c : Thread nD τ).loc b))

/-- The printed index maps over the grid's 32 points, relative to the output window's. -/
theorem idx_facts : ∀ t : Fin cfg1.N,
    win1_6.index t (1 : Fin 3) = 0 ∧ win1_6.index t (0 : Fin 3) < 4 ∧ win1_6.index t (2 : Fin 3) < 8
    ∧ win1_0.index t (0 : Fin 3) = win1_6.index t (0 : Fin 3) ∧ win1_0.index t (1 : Fin 3) = win1_6.index t (2 : Fin 3) ∧ win1_0.index t (2 : Fin 3) = 0
    ∧ win1_1.index t (0 : Fin 3) = win1_6.index t (0 : Fin 3) ∧ win1_1.index t (1 : Fin 3) = 0 ∧ win1_1.index t (2 : Fin 3) = 0
    ∧ win1_2.index t (0 : Fin 3) = win1_6.index t (0 : Fin 3) ∧ win1_2.index t (1 : Fin 3) = 0 ∧ win1_2.index t (2 : Fin 3) = 0
    ∧ win1_3.index t (0 : Fin 3) = win1_6.index t (0 : Fin 3) ∧ win1_3.index t (1 : Fin 3) = 0 ∧ win1_3.index t (2 : Fin 3) = win1_6.index t (2 : Fin 3)
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Every block of the output array is some point's. -/
theorem idx_onto : ∀ (q0 : Fin 4) (q2 : Fin 8), ∃ t : Fin cfg1.N, win1_6.index t = ![q0.val, 0, q2.val] :=
  (by decide +kernel : ∀ (q0 : Fin 4) (q2 : Fin 8), ∃ t : Fin grid1.N, win1_6.index t = ![q0.val, 0, q2.val])

/-- The batch element of point t. -/
def pb (t : Fin cfg1.N) : Fin 4 := ⟨win1_6.index t (0 : Fin 3), (idx_facts t).2.1⟩
/-- The chunk of 512 positions of point t. -/
def pq (t : Fin cfg1.N) : Fin 8 := ⟨win1_6.index t (2 : Fin 3), (idx_facts t).2.2.1⟩
/-- Position r of point t's chunk. -/
def pos (t : Fin cfg1.N) (r : Fin 512) : Fin 4096 := ⟨512 * (pq t).val + r.val, by have := (pq t).isLt; omega⟩

/-! ## The input blocks of a point, read at explicit coordinates -/

theorem blk3 (c : Dev nD) (t : Fin cfg1.N) (ch r : Fin 512) :
    iblk1 V c 3 t (ix3 (0 : Fin 1) ch r) = V c main_arg0 (ix3 (pb t) ch (pos t r)) := by
  obtain ⟨f61, f60, f62, f00, f01, f02, f10, f11, f12, f20, f21, f22, f30, f31, f32, f40, f41, f50, f51⟩ := idx_facts t
  show V c main_arg0 (((cfg1.win 3).blk t).view.emb (ix3 (0 : Fin 1) ch r)) = _
  refine congrArg _ ?_
  funext a; apply Fin.ext
  match a with
  | ⟨0, _⟩ => show win1_3.index t (0 : Fin 3) * 1 + 1 * 0 = win1_6.index t (0 : Fin 3); omega
  | ⟨1, _⟩ => show win1_3.index t (1 : Fin 3) * 512 + 1 * ch.val = ch.val; omega
  | ⟨2, _⟩ => show win1_3.index t (2 : Fin 3) * 512 + 1 * r.val = 512 * win1_6.index t (2 : Fin 3) + r.val; omega

theorem blk0 (c : Dev nD) (t : Fin cfg1.N) (r cc : Fin 512) :
    iblk1 V c 0 t (ix3 (0 : Fin 1) r cc) = V c main_v14_0 (ix3 (pb t) (pos t r) cc) := by
  obtain ⟨f61, f60, f62, f00, f01, f02, f10, f11, f12, f20, f21, f22, f30, f31, f32, f40, f41, f50, f51⟩ := idx_facts t
  show V c main_v14_0 (((cfg1.win 0).blk t).view.emb (ix3 (0 : Fin 1) r cc)) = _
  refine congrArg _ ?_
  funext a; apply Fin.ext
  match a with
  | ⟨0, _⟩ => show win1_0.index t (0 : Fin 3) * 1 + 1 * 0 = win1_6.index t (0 : Fin 3); omega
  | ⟨1, _⟩ => show win1_0.index t (1 : Fin 3) * 512 + 1 * r.val = 512 * win1_6.index t (2 : Fin 3) + r.val; omega
  | ⟨2, _⟩ => show win1_0.index t (2 : Fin 3) * 512 + 1 * cc.val = cc.val; omega

theorem blk1 (c : Dev nD) (t : Fin cfg1.N) (mm : Fin 4096) (cc : Fin 512) :
    iblk1 V c 1 t (ix3 (0 : Fin 1) mm cc) = V c main_v14_1 (ix3 (pb t) mm cc) := by
  obtain ⟨f61, f60, f62, f00, f01, f02, f10, f11, f12, f20, f21, f22, f30, f31, f32, f40, f41, f50, f51⟩ := idx_facts t
  show V c main_v14_1 (((cfg1.win 1).blk t).view.emb (ix3 (0 : Fin 1) mm cc)) = _
  refine congrArg _ ?_
  funext a; apply Fin.ext
  match a with
  | ⟨0, _⟩ => show win1_1.index t (0 : Fin 3) * 1 + 1 * 0 = win1_6.index t (0 : Fin 3); omega
  | ⟨1, _⟩ => show win1_1.index t (1 : Fin 3) * 4096 + 1 * mm.val = mm.val; omega
  | ⟨2, _⟩ => show win1_1.index t (2 : Fin 3) * 512 + 1 * cc.val = cc.val; omega

theorem blk2 (c : Dev nD) (t : Fin cfg1.N) (mm : Fin 4096) (cc : Fin 512) :
    iblk1 V c 2 t (ix3 (0 : Fin 1) mm cc) = V c main_v14_2 (ix3 (pb t) mm cc) := by
  obtain ⟨f61, f60, f62, f00, f01, f02, f10, f11, f12, f20, f21, f22, f30, f31, f32, f40, f41, f50, f51⟩ := idx_facts t
  show V c main_v14_2 (((cfg1.win 2).blk t).view.emb (ix3 (0 : Fin 1) mm cc)) = _
  refine congrArg _ ?_
  funext a; apply Fin.ext
  match a with
  | ⟨0, _⟩ => show win1_2.index t (0 : Fin 3) * 1 + 1 * 0 = win1_6.index t (0 : Fin 3); omega
  | ⟨1, _⟩ => show win1_2.index t (1 : Fin 3) * 4096 + 1 * mm.val = mm.val; omega
  | ⟨2, _⟩ => show win1_2.index t (2 : Fin 3) * 512 + 1 * cc.val = cc.val; omega

theorem blk4 (c : Dev nD) (t : Fin cfg1.N) (i o : Fin 512) :
    iblk1 V c 4 t (ix2 i o) = V c main_v13 (ix2 i o) := by
  obtain ⟨f61, f60, f62, f00, f01, f02, f10, f11, f12, f20, f21, f22, f30, f31, f32, f40, f41, f50, f51⟩ := idx_facts t
  show V c main_v13 (((cfg1.win 4).blk t).view.emb (ix2 i o)) = _
  refine congrArg _ ?_
  funext a; apply Fin.ext
  match a with
  | ⟨0, _⟩ => show win1_4.index t (0 : Fin 2) * 512 + 1 * i.val = i.val; omega
  | ⟨1, _⟩ => show win1_4.index t (1 : Fin 2) * 512 + 1 * o.val = o.val; omega

theorem blk5 (c : Dev nD) (t : Fin cfg1.N) (o : Fin 512) :
    iblk1 V c 5 t (ix2 (0 : Fin 1) o) = V c main_v5 (ix2 (0 : Fin 1) o) := by
  obtain ⟨f61, f60, f62, f00, f01, f02, f10, f11, f12, f20, f21, f22, f30, f31, f32, f40, f41, f50, f51⟩ := idx_facts t
  show V c main_v5 (((cfg1.win 5).blk t).view.emb (ix2 (0 : Fin 1) o)) = _
  refine congrArg _ ?_
  funext a; apply Fin.ext
  match a with
  | ⟨0, _⟩ => show win1_5.index t (0 : Fin 2) * 1 + 1 * 0 = 0; omega
  | ⟨1, _⟩ => show win1_5.index t (1 : Fin 2) * 512 + 1 * o.val = o.val; omega

/-! ## The whole-array function -/

/-- The block's result at batch element b, channel ch, position l, from the arrays the region is entered with. -/
def rowOut (c : Dev nD) (b : Fin 4) (ch : Fin 512) (l : Fin 4096) : EReal :=
  HAdd.hAdd (α := EReal) (β := EReal) (γ := EReal) (V c main_arg0 (ix3 b ch l))
    (seluK (aff (attnK (fun mm => score (fun cc => V c main_v14_0 (ix3 b l cc)) (fun cc => V c main_v14_1 (ix3 b mm cc)))
                  (fun mm cc => V c main_v14_2 (ix3 b mm cc)))
              (fun o cc => V c main_v13 (ix2 cc o)) (fun o => V c main_v5 (ix2 0 o)) ch))

/-- The same as an array of the output's shape. -/
def G1 (c : Dev nD) : S4x512x4096.Idx → EReal := fun i => rowOut V c (i 0) (i 1) (i 2)

/-! ## Where a point's output block sits, and that the blocks tile the array -/

/-- Where point t's output block sits in the array. -/
theorem emb6 (t : Fin cfg1.N) (ch r : Fin 512) :
    ((cfg1.win 6).blk t).view.emb (ix3 (0 : Fin 1) ch r) = (ix3 (pb t) ch (pos t r) : S4x512x4096.Idx) := by
  obtain ⟨f61, f60, f62, f00, f01, f02, f10, f11, f12, f20, f21, f22, f30, f31, f32, f40, f41, f50, f51⟩ := idx_facts t
  funext a; apply Fin.ext
  match a with
  | ⟨0, _⟩ => show win1_6.index t (0 : Fin 3) * 1 + 1 * 0 = win1_6.index t (0 : Fin 3); omega
  | ⟨1, _⟩ => show win1_6.index t (1 : Fin 3) * 512 + 1 * ch.val = ch.val; omega
  | ⟨2, _⟩ => show win1_6.index t (2 : Fin 3) * 512 + 1 * r.val = 512 * win1_6.index t (2 : Fin 3) + r.val; omega

/-- An index of the array is in point t's block iff each coordinate is in the block's range on its axis. -/
theorem mem_blk (t : Fin cfg1.N) (i : S4x512x4096.Idx) :
    i ∈ ((cfg1.win 6).blk t).view.set ↔ ∀ a : Fin 3, win1_6.index t a * S1x512x512.size a ≤ (i a).val ∧ (i a).val < win1_6.index t a * S1x512x512.size a + S1x512x512.size a := by
  show i ∈ ((View.whole main_v15).slice (win1_6.rect t)).set ↔ _
  rw [View.set_slice_whole, Rect.mem_set_unit]
  exact Iff.rfl

/-- Every index of the array is in the block of the point of its batch element and its chunk of positions. -/
theorem cover (i : S4x512x4096.Idx) :
    ∃ t : Fin cfg1.N, (cfg1.win 6).flush t = true ∧ i ∈ ((cfg1.win 6).blk t).view.set := by
  have hi0 : (i 0).val < 4 := (i 0).isLt
  have hi1 : (i 1).val < 512 := (i 1).isLt
  have hi2 : (i 2).val < 4096 := (i 2).isLt
  obtain ⟨t, ht⟩ := idx_onto ⟨(i 0).val, hi0⟩ ⟨(i 2).val / 512, by omega⟩
  have q0 : win1_6.index t (0 : Fin 3) = (i 0).val := congrFun ht 0
  have q1 : win1_6.index t (1 : Fin 3) = 0 := congrFun ht 1
  have q2 : win1_6.index t (2 : Fin 3) = (i 2).val / 512 := congrFun ht 2
  refine ⟨t, flush1_6 t, ?_⟩
  rw [mem_blk]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 512 ≤ (i 1).val ∧ (i 1).val < win1_6.index t (1 : Fin 3) * 512 + 512; omega
  | ⟨2, _⟩ => show win1_6.index t (2 : Fin 3) * 512 ≤ (i 2).val ∧ (i 2).val < win1_6.index t (2 : Fin 3) * 512 + 512; omega

/-! ## What a point writes back, and the array after the region -/

section Final

variable
  (out1_val : ∀ (c : Dev nD) (i : grid1.Coords) (arg2 : Memref sig .tc .vmem S1x512x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (x0 : Vec Ideal S1x512x512 .bf16) (x1 x2 : Vec Ideal S1x4096x512 .bf16) (x3 : Vec Ideal S1x512x512 .f32) (x4 : Vec Ideal S512x512 .bf16) (x5 : Vec Ideal S1x512 .f32) (ch r : Fin 512),
    Gen.out1_A_6 c i arg2 harg2 arg3 harg3 arg4 harg4 arg5 harg5 arg6 harg6 arg7 harg7 arg8 harg8 arg9 harg9 arg10 harg10 arg11 harg11 x0 x1 x2 x3 x4 x5 (ix3 0 ch r)
      = x3 (ix3 0 ch r) + seluK (aff (attnK (fun mm => score (fun cc => x0 (ix3 0 r cc)) (fun cc => x1 (ix3 0 mm cc))) (fun mm cc => x2 (ix3 0 mm cc))) (fun o cc => x4 (ix2 cc o)) (fun o => x5 (ix2 0 o)) ch))

include out1_val in
/-- What point t writes back is block t of the whole-array function. -/
theorem flushed_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold outsAt1
  funext j
  obtain ⟨u, ch, r, rfl⟩ : ∃ (u : Fin 1) (ch : Fin 512) (r : Fin 512), j = ix3 u ch r := ⟨j 0, j 1, j 2, eq_ix3 j⟩
  obtain rfl : u = 0 := Subsingleton.elim _ _
  refine (out1_val c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (iblk1 V c 0 t) (iblk1 V c 1 t) (iblk1 V c 2 t) (iblk1 V c 3 t) (iblk1 V c 4 t) (iblk1 V c 5 t) ch r).trans ?_
  simp only [blk0 V c t, blk1 V c t, blk2 V c t, blk3 V c t, blk4 V c t, blk5 V c t]
  refine Eq.trans ?_ (congrArg (G1 V c) (emb6 t ch r)).symm
  rfl

include out1_val in
/-- The output array ends holding the whole-array function. -/
theorem final (c : Dev nD) : (dat1 V c).arrAt 6 cfg1.N = G1 V c :=
  (dat1 V c).arrAt_eq_of_cover 6 (G1 V c) (fun t _ => flushed_eq V out1_val c t) cover

include out1_val in
/-- Region 1's output at (b, ch, l). -/
theorem reg1_out (c : Dev nD) (b : Fin 4) (ch : Fin 512) (l : Fin 4096) :
    (dat1 V c).arrAt 6 cfg1.N (ix3 b ch l)
      = HAdd.hAdd (α := EReal) (β := EReal) (γ := EReal) (V c main_arg0 (ix3 b ch l))
          (seluK (aff (attnK (fun mm => score (fun cc => V c main_v14_0 (ix3 b l cc)) (fun cc => V c main_v14_1 (ix3 b mm cc)))
                        (fun mm cc => V c main_v14_2 (ix3 b mm cc)))
                    (fun o cc => V c main_v13 (ix2 cc o)) (fun o => V c main_v5 (ix2 0 o)) ch)) :=
  congrFun (final V out1_val c) (ix3 b ch l)

end Final

end Cert.KernelIdeal.Reg1

end
-- ==== Proof.Reg1Trip.lean ====
/-
  One chunk of the streamed attention, as the three stores it makes: the running maximum, the running denominator and
  the running numerator each overwritten whole, by a function of the query block, the chunk's key and value rows and
  the three previous contents.
-/
import proofs.«160347_j42992622633389_2_alg».proof.Proof.Gen.KernelIdeal.Frame
import Idealize.ShloMosaic.Lib.Pipeline.Value
import Idealize.ShloMosaic.Lib.ValueIdx

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The rectangle covering a whole 512×1 column buffer, and a whole 512×512 buffer. -/
abbrev Rcol : Rect S512x1 := Rect.unit (s := S512x1) ![0, 0] S512x1.size inb_S512x1_S512x1_0_0
abbrev Rsq : Rect S512x512 := Rect.unit (s := S512x512) ![0, 0] S512x512.size inb_S512x512_S512x512_0_0

/-- The chunk's rows of a [1, 4096, 512] buffer's contents: 512 rows starting at row 512·k. -/
abbrev chunkOf (arg : Memref sig .tc .vmem S1x4096x512 .bf16) (X : BufTy.Contents (Elt F) arg.view.ty) (k : Fin k1_t1_loop.trips) :
    Vec F S1x512x512 .bf16 :=
  View.readAt (Elt F) arg.view (Rect.unit (s := S1x4096x512) (k1_off1 k) S1x512x512.size (k1_off1_inb k)).toLoadRect X

/-- What chunk k writes: the new maximum, denominator and numerator, each as one whole-buffer store. -/
theorem tripL_eq (𝒱 : Variants) (bd : Option 𝒱.V) (c : Dev nD) (i : grid1.Coords) (arg2 : Memref sig .tc .vmem S1x512x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (v12 : Vec F S1x512x512 .bf16) (X_arg3 : BufTy.Contents (Elt F) arg3.view.ty) (X_arg4 : BufTy.Contents (Elt F) arg4.view.ty) (k : Fin k1_t1_loop.trips) (f_arg9 : BufTy.Contents (Elt F) arg9.view.ty) (f_arg10 : BufTy.Contents (Elt F) arg10.view.ty) (f_arg11 : BufTy.Contents (Elt F) arg11.view.ty) :
    tripL_k1_t1 (F := F) 𝒱 c bd i arg2 harg2 arg3 harg3 arg4 harg4 arg5 harg5 arg6 harg6 arg7 harg7 arg8 harg8 arg9 harg9 arg10 harg10 arg11 harg11 v12 X_arg3 X_arg4 k f_arg9 f_arg10 f_arg11
      = ([⟨Rcol, k1_pay13 (k1_pay3 (k1_pay11 v12) (chunkOf arg3 X_arg3 k) (View.readAt (Elt F) arg9.view Rcol.toLoadRect f_arg9))⟩],
         [⟨Rcol, k1_pay6 (k1_pay11 v12) (chunkOf arg3 X_arg3 k) (View.readAt (Elt F) arg9.view Rcol.toLoadRect f_arg9)
              (View.readAt (Elt F) arg10.view Rcol.toLoadRect f_arg10)⟩],
         [⟨Rsq, k1_pay12 (k1_pay7 (k1_pay11 v12) (chunkOf arg3 X_arg3 k) (chunkOf arg4 X_arg4 k)
              (View.readAt (Elt F) arg9.view Rcol.toLoadRect f_arg9) (View.readAt (Elt F) arg11.view Rsq.toLoadRect f_arg11))⟩]) := by
  unfold tripL_k1_t1
  unfold trip_k1_t1
  dsimp only
  sl_unfold_words
  rfl

end Cert.KernelIdeal.Reg1

end
-- ==== Proof.Reg1Loop.lean ====
/-
  The eight chunks, folded: the contents of the three scratch buffers after n chunks, as values.  The first chunk
  finds the buffers as the body's prologue filled them (a large negative number, zero, zero); every chunk overwrites
  each buffer whole, so what a buffer holds after n chunks is the last store's payload, a function of what the
  buffers held before that chunk.
-/
import proofs.«160347_j42992622633389_2_alg».proof.Proof.Gen.KernelIdeal.Frame
import Idealize.ShloMosaic.Lib.Pipeline.Value
import Idealize.ShloMosaic.Lib.ValueIdx
import proofs.«160347_j42992622633389_2_alg».proof.Proof.Reg1Trip

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A whole-buffer load, after stores L made over a buffer that one whole-buffer store of p0 had filled, reads the
    last of those stores (p0's payload if there was none). -/
theorem readAt_writes_init {κ : Kind} {sp : Space} {S : Shape} {e : EltTy} (v : View sig κ sp S e) {off : Fin S.rank → Nat} (h : off = fun _ => 0)
    (inb : ∀ a, off a + S.size a ≤ S.size a) (p0 : S.Idx → Elt F e) (L : List (View.Piece (Elt F) S e)) :
    View.readAt (Elt F) v (Rect.unit off S.size inb).toLoadRect
        (v.writes (Elt F) (v.writes (Elt F) v.junk [⟨Rect.unit off S.size inb, p0⟩]) L)
      = View.canon (L ++ [⟨Rect.unit off S.size inb, p0⟩]) := by
  rw [← View.writes_append, View.readAt_writes_junk_eq_canon]
  exact View.ld_unit_zero h inb _

/-- The running maximum, denominator and numerator after n chunks, from the query block q and the chunks' key and
    value rows (beyond the last chunk nothing changes). -/
def stV (q : FVec F S512x512 .bf16) (kb vb : Fin k1_t1_loop.trips → Vec F S1x512x512 .bf16) :
    ℕ → FVec F S512x1 .f32 × FVec F S512x1 .f32 × FVec F S512x512 .f32
  | 0 => (k1_pay8, k1_pay9, k1_pay10)
  | n + 1 =>
    if h : n < k1_t1_loop.trips then
      (k1_pay13 (k1_pay3 q (kb ⟨n, h⟩) (stV q kb vb n).1),
       k1_pay6 q (kb ⟨n, h⟩) (stV q kb vb n).1 (stV q kb vb n).2.1,
       k1_pay12 (k1_pay7 q (kb ⟨n, h⟩) (vb ⟨n, h⟩) (stV q kb vb n).1 (stV q kb vb n).2.2))
    else stV q kb vb n

theorem stV_succ (q : FVec F S512x512 .bf16) (kb vb : Fin k1_t1_loop.trips → Vec F S1x512x512 .bf16) (k : Fin k1_t1_loop.trips) :
    stV q kb vb (k.val + 1)
      = (k1_pay13 (k1_pay3 q (kb k) (stV q kb vb k.val).1),
         k1_pay6 q (kb k) (stV q kb vb k.val).1 (stV q kb vb k.val).2.1,
         k1_pay12 (k1_pay7 q (kb k) (vb k) (stV q kb vb k.val).1 (stV q kb vb k.val).2.2)) := by
  rw [stV]; exact dif_pos k.isLt

section Inv

variable (𝒱 : Variants) (bd : Option 𝒱.V) (c : Dev nD) (i : grid1.Coords) (arg2 : Memref sig .tc .vmem S1x512x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (v12 : Vec F S1x512x512 .bf16) (X_arg3 : BufTy.Contents (Elt F) arg3.view.ty) (X_arg4 : BufTy.Contents (Elt F) arg4.view.ty)

/-- The pieces of the chunks before n, over the prologue's fills. -/
abbrev pbAt (n : ℕ) := pb_k1_t1 (F := F) 𝒱 c bd i arg2 harg2 arg3 harg3 arg4 harg4 arg5 harg5 arg6 harg6 arg7 harg7 arg8 harg8 arg9 harg9 arg10 harg10 arg11 harg11 v12 X_arg3 X_arg4
  (arg9.view.writes (Elt F) arg9.view.junk [⟨Rcol, k1_pay8⟩])
  (arg10.view.writes (Elt F) arg10.view.junk [⟨Rcol, k1_pay9⟩])
  (arg11.view.writes (Elt F) arg11.view.junk [⟨Rsq, k1_pay10⟩]) n

/-- After n chunks each scratch buffer reads as the n-th value of the recursion. -/
theorem pb_canon : ∀ (n : ℕ), n ≤ k1_t1_loop.trips →
    View.canon ((pbAt 𝒱 bd c i arg2 harg2 arg3 harg3 arg4 harg4 arg5 harg5 arg6 harg6 arg7 harg7 arg8 harg8 arg9 harg9 arg10 harg10 arg11 harg11 v12 X_arg3 X_arg4 n).1 ++ [⟨Rcol, k1_pay8⟩])
        = (stV (k1_pay11 v12) (chunkOf arg3 X_arg3) (chunkOf arg4 X_arg4) n).1
    ∧ View.canon ((pbAt 𝒱 bd c i arg2 harg2 arg3 harg3 arg4 harg4 arg5 harg5 arg6 harg6 arg7 harg7 arg8 harg8 arg9 harg9 arg10 harg10 arg11 harg11 v12 X_arg3 X_arg4 n).2.1 ++ [⟨Rcol, k1_pay9⟩])
        = (stV (k1_pay11 v12) (chunkOf arg3 X_arg3) (chunkOf arg4 X_arg4) n).2.1
    ∧ View.canon ((pbAt 𝒱 bd c i arg2 harg2 arg3 harg3 arg4 harg4 arg5 harg5 arg6 harg6 arg7 harg7 arg8 harg8 arg9 harg9 arg10 harg10 arg11 harg11 v12 X_arg3 X_arg4 n).2.2 ++ [⟨Rsq, k1_pay10⟩])
        = (stV (k1_pay11 v12) (chunkOf arg3 X_arg3) (chunkOf arg4 X_arg4) n).2.2
  | 0, _ => by
    refine ⟨?_, ?_, ?_⟩
    · show View.canon [(⟨Rcol, k1_pay8⟩ : View.Piece (Elt F) S512x1 .f32)] = k1_pay8
      exact View.canon_unit_zero hz2 _ _
    · show View.canon [(⟨Rcol, k1_pay9⟩ : View.Piece (Elt F) S512x1 .f32)] = k1_pay9
      exact View.canon_unit_zero hz2 _ _
    · show View.canon [(⟨Rsq, k1_pay10⟩ : View.Piece (Elt F) S512x512 .f32)] = k1_pay10
      exact View.canon_unit_zero hz2 _ _
  | n + 1, hn => by
    have h : n < k1_t1_loop.trips := hn
    obtain ⟨ih9, ih10, ih11⟩ := pb_canon n (Nat.le_of_lt h)
    have hs := pb_k1_t1_succ (F := F) 𝒱 c bd i arg2 harg2 arg3 harg3 arg4 harg4 arg5 harg5 arg6 harg6 arg7 harg7 arg8 harg8 arg9 harg9 arg10 harg10 arg11 harg11 v12 X_arg3 X_arg4
      (arg9.view.writes (Elt F) arg9.view.junk [⟨Rcol, k1_pay8⟩])
      (arg10.view.writes (Elt F) arg10.view.junk [⟨Rcol, k1_pay9⟩])
      (arg11.view.writes (Elt F) arg11.view.junk [⟨Rsq, k1_pay10⟩]) ⟨n, h⟩
    rw [tripL_eq] at hs
    have e9 := readAt_writes_init (F := F) arg9.view hz2 inb_S512x1_S512x1_0_0 k1_pay8 (pbAt 𝒱 bd c i arg2 harg2 arg3 harg3 arg4 harg4 arg5 harg5 arg6 harg6 arg7 harg7 arg8 harg8 arg9 harg9 arg10 harg10 arg11 harg11 v12 X_arg3 X_arg4 n).1
    have e10 := readAt_writes_init (F := F) arg10.view hz2 inb_S512x1_S512x1_0_0 k1_pay9 (pbAt 𝒱 bd c i arg2 harg2 arg3 harg3 arg4 harg4 arg5 harg5 arg6 harg6 arg7 harg7 arg8 harg8 arg9 harg9 arg10 harg10 arg11 harg11 v12 X_arg3 X_arg4 n).2.1
    have e11 := readAt_writes_init (F := F) arg11.view hz2 inb_S512x512_S512x512_0_0 k1_pay10 (pbAt 𝒱 bd c i arg2 harg2 arg3 harg3 arg4 harg4 arg5 harg5 arg6 harg6 arg7 harg7 arg8 harg8 arg9 harg9 arg10 harg10 arg11 harg11 v12 X_arg3 X_arg4 n).2.2
    rw [ih9] at e9; rw [ih10] at e10; rw [ih11] at e11
    rw [e9, e10, e11] at hs
    have hs' : pbAt 𝒱 bd c i arg2 harg2 arg3 harg3 arg4 harg4 arg5 harg5 arg6 harg6 arg7 harg7 arg8 harg8 arg9 harg9 arg10 harg10 arg11 harg11 v12 X_arg3 X_arg4 (n + 1) = _ := hs
    rw [hs', stV_succ _ _ _ ⟨n, h⟩]
    refine ⟨?_, ?_, ?_⟩
    · exact View.canon_cons_unit_zero hz2 _ _ _
    · exact View.canon_cons_unit_zero hz2 _ _ _
    · exact View.canon_cons_unit_zero hz2 _ _ _

end Inv

end Cert.KernelIdeal.Reg1

end
-- ==== Proof.Reg1Run.lean ====
/-
  What one grid point of the attention region leaves in its output block: the epilogue (normalise, project, SELU,
  residual) of the running sums after the last chunk, the sums being the recursion's values on the point's query
  block and the chunks of its key and value blocks.
-/
import proofs.«160347_j42992622633389_2_alg».proof.Proof.Gen.KernelIdeal.Frame
import Idealize.ShloMosaic.Lib.Pipeline.Value
import Idealize.ShloMosaic.Lib.ValueIdx
import proofs.«160347_j42992622633389_2_alg».proof.Proof.Reg1Loop

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- A whole-buffer load of stores made over nothing reads the last store. -/
theorem readAt_junk_whole {κ : Kind} {sp : Space} {S : Shape} {e : EltTy} (v : View sig κ sp S e) {off : Fin S.rank → Nat} (h : off = fun _ => 0)
    (inb : ∀ a, off a + S.size a ≤ S.size a) (L : List (View.Piece (Elt F) S e)) :
    View.readAt (Elt F) v (Rect.unit off S.size inb).toLoadRect (v.writes (Elt F) v.junk L) = View.canon L := by
  rw [View.readAt_writes_junk_eq_canon]
  exact View.ld_unit_zero h inb _

/-- The rows of chunk k of a [1, 4096, 512] block. -/
abbrev chunkRect (k : Fin k1_t1_loop.trips) : Rect S1x4096x512 :=
  Rect.unit (s := S1x4096x512) (k1_off1 k) S1x512x512.size (k1_off1_inb k)

/-- The output block of a point, from its six input blocks. -/
theorem out1_eq (c : Dev nD) (i : grid1.Coords) (arg2 : Memref sig .tc .vmem S1x512x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole)
    (x0 : Vec F S1x512x512 .bf16) (x1 : Vec F S1x4096x512 .bf16) (x2 : Vec F S1x4096x512 .bf16) (x3 : Vec F S1x512x512 .f32) (x4 : Vec F S512x512 .bf16) (x5 : Vec F S1x512 .f32) :
    out1_A_6 c i arg2 harg2 arg3 harg3 arg4 harg4 arg5 harg5 arg6 harg6 arg7 harg7 arg8 harg8 arg9 harg9 arg10 harg10 arg11 harg11 x0 x1 x2 x3 x4 x5
      = k1_pay1 (k1_pay14
          (stV (k1_pay11 x0) (fun k => View.ld x1 (chunkRect k)) (fun k => View.ld x2 (chunkRect k)) k1_t1_loop.trips).2.2
          (stV (k1_pay11 x0) (fun k => View.ld x1 (chunkRect k)) (fun k => View.ld x2 (chunkRect k)) k1_t1_loop.trips).2.1
          x4 x5) k1_pay15 x3 := by
  unfold out1_A_6
  rw [View.read_writes_eq_canon _ _ _ (cover1_A_6 c i arg2 harg2 arg3 harg3 arg4 harg4 arg5 harg5 arg6 harg6 arg7 harg7 arg8 harg8 arg9 harg9 arg10 harg10 arg11 harg11 x0 x1 x2 x3 x4 x5)]
  unfold kernelRun1_A
  dsimp only
  sl_unfold_words
  rw [View.canon_unit_zero hz3]
  rw [readAt_junk_whole (F := F) arg11.view hz2 inb_S512x512_S512x512_0_0, readAt_junk_whole (F := F) arg10.view hz2 inb_S512x1_S512x1_0_0]
  have hv12 : View.readAt (Elt F) arg2.view (Rect.unit (s := S1x512x512) ![0, 0, 0] S1x512x512.size inb_S1x512x512_S1x512x512_0_0_0).toLoadRect (harg2.unread x0) = x0 := by
    rw [View.readAt_eq_ld, harg2.read_unread]; exact View.ld_unit_zero hz3 _ _
  have hk : chunkOf (F := F) arg3 (harg3.unread x1) = fun k => View.ld x1 (chunkRect k) := by
    funext k; show View.readAt _ _ _ _ = _; rw [View.readAt_eq_ld, harg3.read_unread]
  have hv : chunkOf (F := F) arg4 (harg4.unread x2) = fun k => View.ld x2 (chunkRect k) := by
    funext k; show View.readAt _ _ _ _ = _; rw [View.readAt_eq_ld, harg4.read_unread]
  obtain ⟨-, h10, h11⟩ := pb_canon (F := F) Variants.none none c i arg2 harg2 arg3 harg3 arg4 harg4 arg5 harg5 arg6 harg6 arg7 harg7 arg8 harg8 arg9 harg9 arg10 harg10 arg11 harg11
    (View.readAt (Elt F) arg2.view (Rect.unit (s := S1x512x512) ![0, 0, 0] S1x512x512.size inb_S1x512x512_S1x512x512_0_0_0).toLoadRect (harg2.unread x0))
    (harg3.unread x1) (harg4.unread x2) k1_t1_loop.trips (le_refl _)
  rw [hv12, hk, hv] at h10 h11
  rw [hv12]
  rw [h11, h10]
  simp only [View.readAt_eq_ld, harg5.read_unread, harg6.read_unread, harg7.read_unread,
    View.ld_unit_zero (S := S1x512x512) hz3, View.ld_unit_zero (S := S512x512) hz2, View.ld_unit_zero (S := S1x512) hz2]

end Cert.KernelIdeal.Reg1

end
-- ==== Proof.Reg1Dot.lean ====
/-
  The square matrix product the attention body uses three times, read at an entry: row r of the left factor against
  column c of the right one.
-/
import proofs.«160347_j42992622633389_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

open Idealize.ShloMosaic.ValueIdx
open scoped BigOperators

/-- Entry (r, c) of a 512×512 product into a zero accumulator is the sum over k of a(r, k) · b(k, c). -/
theorem matmul_sq_apply {φ₁ φ₂ : FTy} (a : FVec Ideal S512x512 φ₁) (b : FVec Ideal S512x512 φ₂) (r c : Fin 512) :
    matmul dot_S512x512_S512x512_S512x512_1_0_0_1_n_n none a b (constant (F := Ideal) S512x512 .f32 0x00000000#32) (ix2 r c)
      = ∑ k : Fin 512, a (ix2 r k) * b (ix2 k c) := by
  refine (Ideal.matmul_constant_zero_apply dot_S512x512_S512x512_S512x512_1_0_0_1_n_n none a b (ix2 r c)).trans ?_
  rw [← Equiv.sum_comp (contrEquiv1 dot_S512x512_S512x512_S512x512_1_0_0_1_n_n 512 rfl rfl).symm]
  refine Finset.sum_congr rfl fun k _ => ?_
  have hl : dot_S512x512_S512x512_S512x512_1_0_0_1_n_n.lhsIdx (ix2 r c)
      ((contrEquiv1 dot_S512x512_S512x512_S512x512_1_0_0_1_n_n 512 rfl rfl).symm k) = ix2 r k := by
    funext ax; apply Fin.ext
    match ax with
    | ⟨0, _⟩ => rfl
    | ⟨1, _⟩ =>
      exact (DotDims.lhsIdx_val_of_single (d := dot_S512x512_S512x512_S512x512_1_0_0_1_n_n) (cl := 1) rfl _ _).trans
        (contrEquiv1_symm_val _ 512 rfl rfl k)
  have hr : dot_S512x512_S512x512_S512x512_1_0_0_1_n_n.rhsIdx (ix2 r c)
      ((contrEquiv1 dot_S512x512_S512x512_S512x512_1_0_0_1_n_n 512 rfl rfl).symm k) = ix2 k c := by
    funext ax; apply Fin.ext
    match ax with
    | ⟨0, _⟩ =>
      exact (DotDims.rhsIdx_val_of_single (d := dot_S512x512_S512x512_S512x512_1_0_0_1_n_n) (cr := 0) rfl _ _).trans
        (contrEquiv1_symm_val _ 512 rfl rfl k)
    | ⟨1, _⟩ => rfl
  rw [hl, hr]

end Cert.KernelIdeal.Reg1

end
-- ==== Proof.Reg1Epi.lean ====
/-
  The epilogue of a grid point, read at an entry: the numerator over the denominator, the output projection with its
  bias, SELU, and the residual added in the transposed layout of the block.
-/
import proofs.«160347_j42992622633389_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«160347_j42992622633389_2_alg».proof.Proof.Reg1Dot
import proofs.«160347_j42992622633389_2_alg».proof.Proof.LibColumnBroadcast
import proofs.«160347_j42992622633389_2_alg».proof.Proof.Spec

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

open Idealize.ShloMosaic.ValueIdx
open scoped BigOperators
open Cert.AttnSpec

/-- The projected row: entry (r, o) is the sum over channels of (acc(r, cc) / l(r)) · w(cc, o), plus the bias at o. -/
theorem pay14_apply (acc : Vec Ideal S512x512 .f32) (l : Vec Ideal S512x1 .f32) (w : Vec Ideal S512x512 .bf16) (bp : Vec Ideal S1x512 .f32)
    (r o : Fin 512) :
    k1_pay14 (F := Ideal) acc l w bp (ix2 r o)
      = (∑ cc : Fin 512, Ideal.div (acc (ix2 r cc)) (l (ix2 r (0 : Fin 1))) * w (ix2 cc o)) + bp (ix2 (0 : Fin 1) o) := by
  unfold k1_pay14
  refine (addf_apply _ _ _).trans ?_
  refine congrArg₂ (· + ·) ?_ ?_
  · refine (matmul_sq_apply _ _ r o).trans ?_
    refine Finset.sum_congr rfl fun cc _ => ?_
    refine congrArg₂ (· * ·) ?_ ?_
    · exact congrArg (Ideal.div (acc (ix2 r cc))) (ColumnBroadcast.broadcastTo_a1_ab_apply l _ r cc)
    · rw [shapeCast_self]
  · rw [shapeCast_self]
    exact broadcastTo_1b_ab_apply bp _ r o

/-- The output block at (channel ch, position r): the residual there plus SELU of the projected row's channel. -/
theorem pay1_apply (p : FVec Ideal S512x512 .f32) (xres : Vec Ideal S1x512x512 .f32) (ch r : Fin 512) :
    k1_pay1 (F := Ideal) p k1_pay15 xres (ix3 (0 : Fin 1) ch r) = xres (ix3 (0 : Fin 1) ch r) + seluK (p (ix2 r ch)) := by
  unfold k1_pay1
  refine (shapeCast_ab_1ab_apply _ _ (0 : Fin 1) ch r).trans ?_
  refine (transpose_ix2_apply _ _ ch r).trans ?_
  refine (addf_apply _ _ _).trans ?_
  refine congrArg₂ (· + ·) ?_ ?_
  · refine (transpose_ix2_apply _ _ r ch).trans ?_
    exact shapeCast_1ab_ab_apply xres _ ch r
  · rfl

end Cert.KernelIdeal.Reg1

end
-- ==== Proof.Reg1StepA.lean ====
/-
  One chunk's arithmetic read at an entry: the chunk's scores of a query row, the raised maximum, and the two
  exponential factors (of the old maximum and of each score, against the raised maximum).
-/
import proofs.«160347_j42992622633389_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«160347_j42992622633389_2_alg».proof.Proof.Reg1Dot
import proofs.«160347_j42992622633389_2_alg».proof.Proof.LibColumnCasts
import proofs.«160347_j42992622633389_2_alg».proof.Proof.LibColumnBroadcast
import proofs.«160347_j42992622633389_2_alg».proof.Proof.Spec

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

open Idealize.ShloMosaic.ValueIdx
open scoped BigOperators
open Cert.AttnSpec

/-- Row r of a 512×512 block, and row i of a [1, 512, 512] chunk, as functions of the channel. -/
abbrev rowOf (q : FVec Ideal S512x512 .bf16) (r : Fin 512) : Fin 512 → EReal := fun cc => q (ix2 r cc)
abbrev crowOf (kc : Vec Ideal S1x512x512 .bf16) (i : Fin 512) : Fin 512 → EReal := fun cc => kc (ix3 (0 : Fin 1) i cc)

/-- The scores of query row r against the chunk's key rows. -/
abbrev scoreRow (q : FVec Ideal S512x512 .bf16) (kc : Vec Ideal S1x512x512 .bf16) (r : Fin 512) : Fin 512 → EReal :=
  fun i => score (rowOf q r) (crowOf kc i)

/-- Entry (r, i) of the chunk's score block: query row r against key row i, scaled. -/
theorem pay2_apply (q : FVec Ideal S512x512 .bf16) (kc : Vec Ideal S1x512x512 .bf16) (r i : Fin 512) :
    k1_pay2 (F := Ideal) q kc (ix2 r i) = scoreRow q kc r i := by
  unfold k1_pay2
  dsimp only
  refine (mulf_apply _ _ _).trans ?_
  refine congrArg₂ (· * ·) ?_ rfl
  refine (matmul_sq_apply _ _ r i).trans ?_
  refine Finset.sum_congr rfl fun cc _ => ?_
  refine congrArg (q (ix2 r cc) * ·) ?_
  refine (transpose_ix2_apply _ _ cc i).trans ?_
  exact shapeCast_1ab_ab_apply kc _ i cc

/-- The index over row r with lane k inserted is (r, k). -/
theorem lift_row (r k : Fin 512) : reduces_S512x512_S512.lift (ix1 r) k = ix2 r k := by
  funext ax
  apply Fin.ext
  match ax with
  | ⟨0, _⟩ => rfl
  | ⟨1, _⟩ => rfl

/-- The lane maximum of a 512×512 block from minus infinity, kept as a column, at row r. -/
theorem laneMax_apply (x : FVec Ideal S512x512 .f32) (r : Fin 512) (u : Fin 1) :
    shapeCast S512x1 (multiReduction (F := Ideal) .maximumf [1] S512 x 0xFF800000#32 reduces_S512x512_S512 (.inl rfl) rfl)
        shapeCasts_S512_S512x1 (ix2 r u)
      = Finset.univ.fold max wNinf (fun i : Fin 512 => x (ix2 r i)) := by
  refine (ColumnCasts.shapeCast_a_a1_apply _ _ r u).trans ?_
  refine (Ideal.multiReduction_maximumf_single x _ reduces_S512x512_S512 _ _ (ix1 r)).trans ?_
  have e : (x ∘ reduces_S512x512_S512.lift (ix1 r)) = fun i : Fin 512 => x (ix2 r i) :=
    funext fun i => congrArg x (lift_row r i)
  rw [e]
  rfl

/-- The lane sum of a 512×512 block, kept as a column, at row r. -/
theorem laneSum_apply (x : FVec Ideal S512x512 .f32) (r : Fin 512) (u : Fin 1) :
    shapeCast S512x1 (multiReduction (F := Ideal) .add [1] S512 x 0x00000000#32 reduces_S512x512_S512 (.inl rfl) rfl)
        shapeCasts_S512_S512x1 (ix2 r u)
      = ∑ i : Fin 512, x (ix2 r i) := by
  refine (ColumnCasts.shapeCast_a_a1_apply _ _ r u).trans ?_
  refine (Ideal.multiReduction_add_single x _ reduces_S512x512_S512 _ _ (ix1 r)).trans ?_
  exact Finset.sum_congr rfl fun i _ => congrArg x (lift_row r i)

/-- The raised maximum of row r: the old one against the chunk's scores. -/
abbrev newMax (q : FVec Ideal S512x512 .bf16) (kc : Vec Ideal S1x512x512 .bf16) (m : Vec Ideal S512x1 .f32) (r : Fin 512) : EReal :=
  max (m (ix2 r (0 : Fin 1))) (Finset.univ.fold max wNinf (scoreRow q kc r))

theorem pay3_apply (q : FVec Ideal S512x512 .bf16) (kc : Vec Ideal S1x512x512 .bf16) (m : Vec Ideal S512x1 .f32) (r : Fin 512) :
    k1_pay3 (F := Ideal) q kc m (ix2 r (0 : Fin 1)) = newMax q kc m r := by
  unfold k1_pay3
  dsimp only
  refine (maximumf_apply _ _ _).trans ?_
  refine congrArg (max (m (ix2 r (0 : Fin 1)))) ?_
  refine (laneMax_apply _ r (0 : Fin 1)).trans ?_
  exact congrArg (fun f => Finset.univ.fold max wNinf f) (funext fun i => pay2_apply q kc r i)

/-- The exponential of a block at an entry. -/
theorem vexp_apply {s : Shape} {φ : FTy} (a : FVec Ideal s φ) (i : s.Idx) :
    Idealize.ShloMosaic.exp a i = Ideal.exp (a i) := rfl

/-- The factor that rescales the old sums of row r. -/
theorem pay4_apply (q : FVec Ideal S512x512 .bf16) (kc : Vec Ideal S1x512x512 .bf16) (m : Vec Ideal S512x1 .f32) (r : Fin 512) :
    k1_pay4 (F := Ideal) q kc m (ix2 r (0 : Fin 1)) = Ideal.exp (m (ix2 r (0 : Fin 1)) - newMax q kc m r) := by
  unfold k1_pay4
  refine (vexp_apply _ _).trans ?_
  refine congrArg Ideal.exp ?_
  refine (subf_apply _ _ _).trans ?_
  exact congrArg (m (ix2 r (0 : Fin 1)) - ·) (pay3_apply q kc m r)

/-- The chunk's weights of row r: each score against the raised maximum, exponentiated. -/
theorem pay5_apply (q : FVec Ideal S512x512 .bf16) (kc : Vec Ideal S1x512x512 .bf16) (m : Vec Ideal S512x1 .f32) (r i : Fin 512) :
    k1_pay5 (F := Ideal) q kc m (ix2 r i) = Ideal.exp (scoreRow q kc r i - newMax q kc m r) := by
  unfold k1_pay5
  refine (vexp_apply _ _).trans ?_
  refine congrArg Ideal.exp ?_
  refine (subf_apply _ _ _).trans ?_
  refine congrArg₂ (· - ·) (pay2_apply q kc r i) ?_
  exact (ColumnBroadcast.broadcastTo_a1_ab_apply _ _ r i).trans (pay3_apply q kc m r)

end Cert.KernelIdeal.Reg1

end
-- ==== Proof.Reg1StepB.lean ====
/-
  One chunk's two running sums read at an entry, the prologue's fills, the identity casts, and a chunk's rows as rows
  of the whole block: row i of chunk k is row 512 k + i.
-/
import proofs.«160347_j42992622633389_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«160347_j42992622633389_2_alg».proof.Proof.Reg1Run
import proofs.«160347_j42992622633389_2_alg».proof.Proof.Reg1StepA

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

open Idealize.ShloMosaic.ValueIdx
open scoped BigOperators
open Cert.AttnSpec

/-- The new denominator of row r: the old one rescaled, plus the chunk's weights. -/
theorem pay6_apply (q : FVec Ideal S512x512 .bf16) (kc : Vec Ideal S1x512x512 .bf16) (m l : Vec Ideal S512x1 .f32) (r : Fin 512) :
    k1_pay6 (F := Ideal) q kc m l (ix2 r (0 : Fin 1))
      = Ideal.exp (m (ix2 r (0 : Fin 1)) - newMax q kc m r) * l (ix2 r (0 : Fin 1))
        + ∑ i : Fin 512, Ideal.exp (scoreRow q kc r i - newMax q kc m r) := by
  unfold k1_pay6
  dsimp only
  rw [shapeCast_self]
  refine (addf_apply _ _ _).trans ?_
  refine congrArg₂ (· + ·) ?_ ?_
  · refine (mulf_apply _ _ _).trans ?_
    exact congrArg (· * l (ix2 r (0 : Fin 1))) (pay4_apply q kc m r)
  · refine (laneSum_apply _ r (0 : Fin 1)).trans ?_
    exact Finset.sum_congr rfl fun i _ => pay5_apply q kc m r i

/-- The new numerator of row r at channel c: the old one rescaled, plus the chunk's weighted value rows. -/
theorem pay7_apply (q : FVec Ideal S512x512 .bf16) (kc vc : Vec Ideal S1x512x512 .bf16) (m : Vec Ideal S512x1 .f32)
    (acc : Vec Ideal S512x512 .f32) (r c : Fin 512) :
    k1_pay7 (F := Ideal) q kc vc m acc (ix2 r c)
      = Ideal.exp (m (ix2 r (0 : Fin 1)) - newMax q kc m r) * acc (ix2 r c)
        + ∑ i : Fin 512, Ideal.exp (scoreRow q kc r i - newMax q kc m r) * vc (ix3 (0 : Fin 1) i c) := by
  unfold k1_pay7
  refine (addf_apply _ _ _).trans ?_
  refine congrArg₂ (· + ·) ?_ ?_
  · refine (mulf_apply _ _ _).trans ?_
    refine congrArg (· * acc (ix2 r c)) ?_
    exact (ColumnBroadcast.broadcastTo_a1_ab_apply _ _ r c).trans (pay4_apply q kc m r)
  · refine (matmul_sq_apply _ _ r c).trans ?_
    refine Finset.sum_congr rfl fun i _ => ?_
    refine congrArg₂ (· * ·) ?_ ?_
    · exact (truncf_apply (φ := .f32) (ψ := .bf16) (k1_pay5 q kc m) bitsLt_bf16_f32 (ix2 r i)).trans (pay5_apply q kc m r i)
    · exact shapeCast_1ab_ab_apply vc _ i c

/-- The prologue's fills. -/
theorem pay8_apply (j : S512x1.Idx) : k1_pay8 (F := Ideal) j = wNeg := by
  unfold k1_pay8
  rw [shapeCast_self]
  rfl

theorem pay9_apply (j : S512x1.Idx) : k1_pay9 (F := Ideal) j = wZero := by
  unfold k1_pay9
  rw [shapeCast_self]
  rfl

theorem pay10_apply (j : S512x512.Idx) : k1_pay10 (F := Ideal) j = wZero := by
  unfold k1_pay10
  rw [shapeCast_self]
  rfl

/-- The query block without its unit axis. -/
theorem pay11_apply (x0 : Vec Ideal S1x512x512 .bf16) (r cc : Fin 512) :
    k1_pay11 (F := Ideal) x0 (ix2 r cc) = x0 (ix3 (0 : Fin 1) r cc) := by
  unfold k1_pay11
  exact shapeCast_1ab_ab_apply x0 _ r cc

/-- The casts of a buffer's value to its own shape. -/
theorem pay12_eq (v : FVec Ideal S512x512 .f32) : k1_pay12 (F := Ideal) v = v := by
  unfold k1_pay12
  dsimp only
  exact shapeCast_self _ _

theorem pay13_eq (v : FVec Ideal S512x1 .f32) : k1_pay13 (F := Ideal) v = v := by
  unfold k1_pay13
  dsimp only
  exact shapeCast_self _ _

/-- The loop makes eight trips. -/
theorem trips_eq : k1_t1_loop.trips = 8 := by decide +kernel

/-- Row i of chunk k of a [1, 4096, 512] block is its row 512 k + i. -/
theorem chunk_apply (x : Vec Ideal S1x4096x512 .bf16) (k : Fin k1_t1_loop.trips) (k' : Fin 8) (hk : k'.val = k.val)
    (i cc : Fin 512) :
    (View.ld x (chunkRect k) : Vec Ideal S1x512x512 .bf16) (ix3 (0 : Fin 1) i cc) = x (ix3 (0 : Fin 1) (kidx k' i) cc) := by
  show x ((chunkRect k).idx (ix3 (0 : Fin 1) i cc : S1x512x512.Idx)) = x (ix3 (0 : Fin 1) (kidx k' i) cc)
  refine congrArg x ?_
  have ho := k1_off1_eq k
  have e0 : (((chunkRect k).idx (ix3 (0 : Fin 1) i cc : S1x512x512.Idx)) ⟨0, by decide⟩).val
      = ((ix3 (0 : Fin 1) (kidx k' i) cc : S1x4096x512.Idx) ⟨0, by decide⟩).val := by
    have e : (((chunkRect k).idx (ix3 (0 : Fin 1) i cc : S1x512x512.Idx)) ⟨0, by decide⟩).val
        = (k1_off1 k) ⟨0, by decide⟩ + 1 * 0 := rfl
    rw [e, ho]; rfl
  have e1 : (((chunkRect k).idx (ix3 (0 : Fin 1) i cc : S1x512x512.Idx)) ⟨1, by decide⟩).val
      = ((ix3 (0 : Fin 1) (kidx k' i) cc : S1x4096x512.Idx) ⟨1, by decide⟩).val := by
    have e : (((chunkRect k).idx (ix3 (0 : Fin 1) i cc : S1x512x512.Idx)) ⟨1, by decide⟩).val
        = (k1_off1 k) ⟨1, by decide⟩ + 1 * i.val := rfl
    have e' : ((ix3 (0 : Fin 1) (kidx k' i) cc : S1x4096x512.Idx) ⟨1, by decide⟩).val = 512 * k'.val + i.val := rfl
    rw [e, e', ho, hk]
    show 512 * k.val + 1 * i.val = 512 * k.val + i.val
    omega
  have e2 : (((chunkRect k).idx (ix3 (0 : Fin 1) i cc : S1x512x512.Idx)) ⟨2, by decide⟩).val
      = ((ix3 (0 : Fin 1) (kidx k' i) cc : S1x4096x512.Idx) ⟨2, by decide⟩).val := by
    have e : (((chunkRect k).idx (ix3 (0 : Fin 1) i cc : S1x512x512.Idx)) ⟨2, by decide⟩).val
        = (k1_off1 k) ⟨2, by decide⟩ + 1 * cc.val := rfl
    rw [e, ho]
    show 0 + 1 * cc.val = cc.val
    omega
  funext a
  apply Fin.ext
  match a with
  | ⟨0, _⟩ => exact e0
  | ⟨1, _⟩ => exact e1
  | ⟨2, _⟩ => exact e2

end Cert.KernelIdeal.Reg1

end
-- ==== Proof.Reg1Step.lean ====
/-
  The streamed recursion of the attention region, read as values: after n chunks, row r of the three scratch buffers
  holds the running maximum, denominator and numerator of the specification's recursion on the scores of query row r
  against all key rows and on the value rows.
-/
import proofs.«160347_j42992622633389_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«160347_j42992622633389_2_alg».proof.Proof.Reg1Run
import proofs.«160347_j42992622633389_2_alg».proof.Proof.Reg1StepA
import proofs.«160347_j42992622633389_2_alg».proof.Proof.Reg1StepB
import proofs.«160347_j42992622633389_2_alg».proof.Proof.Math6

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

open Idealize.ShloMosaic.ValueIdx
open scoped BigOperators
open Cert.AttnSpec

/-- One chunk: if row r of the three buffers holds a state of the recursion, the chunk's three payloads hold, at
    row r, the next state on the chunk's scores and value rows. -/
theorem step_val (q : FVec Ideal S512x512 .bf16) (kc vc : Vec Ideal S1x512x512 .bf16) (m l : Vec Ideal S512x1 .f32)
    (acc : Vec Ideal S512x512 .f32) (r : Fin 512) (st : St)
    (hm : m (ix2 r (0 : Fin 1)) = st.m) (hl : l (ix2 r (0 : Fin 1)) = st.l) (hacc : ∀ c : Fin 512, acc (ix2 r c) = st.acc c) :
    k1_pay3 (F := Ideal) q kc m (ix2 r (0 : Fin 1))
        = (step (scoreRow q kc r) (fun i c => vc (ix3 (0 : Fin 1) i c)) st).m
    ∧ k1_pay6 (F := Ideal) q kc m l (ix2 r (0 : Fin 1))
        = (step (scoreRow q kc r) (fun i c => vc (ix3 (0 : Fin 1) i c)) st).l
    ∧ ∀ c : Fin 512, k1_pay7 (F := Ideal) q kc vc m acc (ix2 r c)
        = (step (scoreRow q kc r) (fun i c => vc (ix3 (0 : Fin 1) i c)) st).acc c := by
  refine ⟨?_, ?_, fun c => ?_⟩
  · rw [pay3_apply]
    dsimp only [newMax, step]
    rw [hm]
  · rw [pay6_apply]
    dsimp only [newMax, step]
    rw [hm, hl]
  · rw [pay7_apply]
    dsimp only [newMax, step]
    rw [hm, hacc c]

theorem stV_val (x0 : Vec Ideal S1x512x512 .bf16) (x1 x2 : Vec Ideal S1x4096x512 .bf16) (r : Fin 512) (n : ℕ) (hn : n ≤ 8) :
    (stV (k1_pay11 x0) (fun k => View.ld x1 (chunkRect k)) (fun k => View.ld x2 (chunkRect k)) n).1 (ix2 r (0 : Fin 1))
        = (stAfter (fun mm => score (fun cc => x0 (ix3 (0 : Fin 1) r cc)) (fun cc => x1 (ix3 (0 : Fin 1) mm cc)))
            (fun mm cc => x2 (ix3 (0 : Fin 1) mm cc)) n).m
    ∧ (stV (k1_pay11 x0) (fun k => View.ld x1 (chunkRect k)) (fun k => View.ld x2 (chunkRect k)) n).2.1 (ix2 r (0 : Fin 1))
        = (stAfter (fun mm => score (fun cc => x0 (ix3 (0 : Fin 1) r cc)) (fun cc => x1 (ix3 (0 : Fin 1) mm cc)))
            (fun mm cc => x2 (ix3 (0 : Fin 1) mm cc)) n).l
    ∧ ∀ c : Fin 512,
        (stV (k1_pay11 x0) (fun k => View.ld x1 (chunkRect k)) (fun k => View.ld x2 (chunkRect k)) n).2.2 (ix2 r c)
          = (stAfter (fun mm => score (fun cc => x0 (ix3 (0 : Fin 1) r cc)) (fun cc => x1 (ix3 (0 : Fin 1) mm cc)))
              (fun mm cc => x2 (ix3 (0 : Fin 1) mm cc)) n).acc c := by
  induction n with
  | zero =>
    exact ⟨pay8_apply (ix2 r (0 : Fin 1)), pay9_apply (ix2 r (0 : Fin 1)), fun c => pay10_apply (ix2 r c)⟩
  | succ n ih =>
    have h8 : n < 8 := by omega
    have ht : n < k1_t1_loop.trips := by rw [trips_eq]; exact h8
    obtain ⟨ihm, ihl, ihacc⟩ := ih (by omega)
    have hs : stV (F := Ideal) (k1_pay11 x0) (fun k => View.ld x1 (chunkRect k)) (fun k => View.ld x2 (chunkRect k)) (n + 1) = _ :=
      stV_succ (F := Ideal) (k1_pay11 x0) (fun k => View.ld x1 (chunkRect k)) (fun k => View.ld x2 (chunkRect k)) ⟨n, ht⟩
    have key := step_val (k1_pay11 x0) (View.ld x1 (chunkRect ⟨n, ht⟩)) (View.ld x2 (chunkRect ⟨n, ht⟩))
      (stV (F := Ideal) (k1_pay11 x0) (fun k => View.ld x1 (chunkRect k)) (fun k => View.ld x2 (chunkRect k)) n).1
      (stV (F := Ideal) (k1_pay11 x0) (fun k => View.ld x1 (chunkRect k)) (fun k => View.ld x2 (chunkRect k)) n).2.1
      (stV (F := Ideal) (k1_pay11 x0) (fun k => View.ld x1 (chunkRect k)) (fun k => View.ld x2 (chunkRect k)) n).2.2
      r _ ihm ihl ihacc
    have es : scoreRow (k1_pay11 x0) (View.ld x1 (chunkRect ⟨n, ht⟩)) r
        = fun i => score (fun cc => x0 (ix3 (0 : Fin 1) r cc)) (fun cc => x1 (ix3 (0 : Fin 1) (kidx ⟨n, h8⟩ i) cc)) := by
      funext i
      refine congrArg₂ score ?_ ?_
      · funext cc; exact pay11_apply x0 r cc
      · funext cc; exact chunk_apply x1 ⟨n, ht⟩ ⟨n, h8⟩ rfl i cc
    have ev : (fun (i c : Fin 512) => (View.ld x2 (chunkRect ⟨n, ht⟩) : Vec Ideal S1x512x512 .bf16) (ix3 (0 : Fin 1) i c))
        = fun i c => x2 (ix3 (0 : Fin 1) (kidx ⟨n, h8⟩ i) c) := by
      funext i c; exact chunk_apply x2 ⟨n, ht⟩ ⟨n, h8⟩ rfl i c
    rw [es, ev] at key
    rw [hs, stAfter_succ _ _ n h8, pay13_eq, pay12_eq]
    exact key

end Cert.KernelIdeal.Reg1

end
-- ==== Proof.Reg1Point.lean ====
/-
  A grid point's output block, entry by entry: the residual plus SELU of the projected, normalised streamed mean of
  the value rows, the scores being those of the block's query row against every key row.
-/
import proofs.«160347_j42992622633389_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«160347_j42992622633389_2_alg».proof.Proof.Reg1Run
import proofs.«160347_j42992622633389_2_alg».proof.Proof.Reg1Epi
import proofs.«160347_j42992622633389_2_alg».proof.Proof.Reg1Step
import proofs.«160347_j42992622633389_2_alg».proof.Proof.Spec

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

open Idealize.ShloMosaic.ValueIdx
open scoped BigOperators
open Cert.AttnSpec

/-- Entry (channel ch, position r) of the block a point leaves, from its six input blocks. -/
theorem out1_val (c : Dev nD) (i : grid1.Coords) (arg2 : Memref sig .tc .vmem S1x512x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole)
    (x0 : Vec Ideal S1x512x512 .bf16) (x1 x2 : Vec Ideal S1x4096x512 .bf16) (x3 : Vec Ideal S1x512x512 .f32)
    (x4 : Vec Ideal S512x512 .bf16) (x5 : Vec Ideal S1x512 .f32) (ch r : Fin 512) :
    out1_A_6 c i arg2 harg2 arg3 harg3 arg4 harg4 arg5 harg5 arg6 harg6 arg7 harg7 arg8 harg8 arg9 harg9 arg10 harg10 arg11 harg11 x0 x1 x2 x3 x4 x5 (ix3 (0 : Fin 1) ch r)
      = x3 (ix3 (0 : Fin 1) ch r) + seluK (aff (attnK
            (fun mm => score (fun cc => x0 (ix3 (0 : Fin 1) r cc)) (fun cc => x1 (ix3 (0 : Fin 1) mm cc)))
            (fun mm cc => x2 (ix3 (0 : Fin 1) mm cc))) (fun o cc => x4 (ix2 cc o)) (fun o => x5 (ix2 (0 : Fin 1) o)) ch) := by
  rw [out1_eq]
  refine (pay1_apply _ x3 ch r).trans ?_
  refine congrArg (fun z => x3 (ix3 (0 : Fin 1) ch r) + seluK z) ?_
  refine (pay14_apply _ _ x4 x5 r ch).trans ?_
  obtain ⟨-, hl, hacc⟩ := stV_val x0 x1 x2 r 8 (le_refl 8)
  unfold aff attnK
  refine congrArg (· + x5 (ix2 (0 : Fin 1) ch)) ?_
  refine Finset.sum_congr rfl fun cc _ => ?_
  refine congrArg (· * x4 (ix2 cc ch)) ?_
  exact congrArg₂ Ideal.div (hacc cc) hl

end Cert.KernelIdeal.Reg1

end
-- ==== Proof.RefRun.lean ====
/-
  The reference's @main as one straight line of host operations: the two calls it makes are replaced by the
  operations of the called functions' bodies, written over the buffers each call names.  The line is cut into
  nine stretches (layer-norm mean; variance; normalisation; the three projections; scores and softmax-weighted
  mean; output projection; SELU; the transpose back; the residual sum), and its run is read back: every weakly
  fair execution terminates with each buffer at the fold of the operations over the launch contents.
-/
import proofs.«160347_j42992622633389_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Stretch 0 of the line. -/
abbrev ops_w0 : List (HloOp τ sig (Elt F)) :=
  [ unary main_arg0 main_v0 ((transpose S4x4096x512 [0, 2, 1] · transposes_S4x512x4096_S4x4096x512_0_2_1) : (⟨S4x512x4096, .f32⟩ : BufTy).Contents (Elt F) → (⟨S4x4096x512, .f32⟩ : BufTy).Contents (Elt F)),
    nullary main_cst (constant S_ .f32 0x00000000#32),
    binary main_v0 main_cst main_v1 ((fun x v => Host.reduceAdd x v reducesTo_S4x4096x512_S4x4096_d2 h_S_) : (⟨S4x4096x512, .f32⟩ : BufTy).Contents (Elt F) → (⟨S_, .f32⟩ : BufTy).Contents (Elt F) → (⟨S4x4096, .f32⟩ : BufTy).Contents (Elt F)),
    unary main_v1 main_v2 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_0 (constant S_ .f32 0x44000000#32),
    unary main_cst_0 main_v3 (broadcastInDim S4x4096x1 ![] bcast_S_S4x4096x1 : (⟨S_, .f32⟩ : BufTy).Contents (Elt F) → (⟨S4x4096x1, .f32⟩ : BufTy).Contents (Elt F)),
    binary main_v2 main_v3 main_v4 (Host.divf : (⟨S4x4096x1, .f32⟩ : BufTy).Contents (Elt F) → (⟨S4x4096x1, .f32⟩ : BufTy).Contents (Elt F) → (⟨S4x4096x1, .f32⟩ : BufTy).Contents (Elt F)),
    nullary main_c (constantI S_ 32 0#32) ]

/-- Stretch 1 of the line. -/
abbrev ops_w1 : List (HloOp τ sig (Elt F)) :=
  [ nullary main_call0_cst (constant S_ .f32 0x00000000#32),
    binary main_v0 main_call0_cst main_call0_v0 ((fun x v => Host.reduceAdd x v reducesTo_S4x4096x512_S4x4096_d2 h_S_) : (⟨S4x4096x512, .f32⟩ : BufTy).Contents (Elt F) → (⟨S_, .f32⟩ : BufTy).Contents (Elt F) → (⟨S4x4096, .f32⟩ : BufTy).Contents (Elt F)),
    unary main_call0_v0 main_call0_v1 ((broadcastInDim S4x4096x1 ![0, 1] bcast_S4x4096_S4x4096x1_0_1) : (⟨S4x4096, .f32⟩ : BufTy).Contents (Elt F) → (⟨S4x4096x1, .f32⟩ : BufTy).Contents (Elt F)),
    nullary main_call0_cst_0 (constant S_ .f32 0x44000000#32),
    unary main_call0_cst_0 main_call0_v2 ((broadcastInDim S4x4096x1 ![] bcast_S_S4x4096x1) : (⟨S_, .f32⟩ : BufTy).Contents (Elt F) → (⟨S4x4096x1, .f32⟩ : BufTy).Contents (Elt F)),
    binary main_call0_v1 main_call0_v2 main_call0_v3 ((Host.divf) : (⟨S4x4096x1, .f32⟩ : BufTy).Contents (Elt F) → (⟨S4x4096x1, .f32⟩ : BufTy).Contents (Elt F) → (⟨S4x4096x1, .f32⟩ : BufTy).Contents (Elt F)),
    unary main_call0_v3 main_call0_v4 ((broadcastInDim S4x4096x512 ![0, 1, 2] bcast_S4x4096x1_S4x4096x512_0_1_2) : (⟨S4x4096x1, .f32⟩ : BufTy).Contents (Elt F) → (⟨S4x4096x512, .f32⟩ : BufTy).Contents (Elt F)),
    binary main_v0 main_call0_v4 main_call0_v5 ((subf) : (⟨S4x4096x512, .f32⟩ : BufTy).Contents (Elt F) → (⟨S4x4096x512, .f32⟩ : BufTy).Contents (Elt F) → (⟨S4x4096x512, .f32⟩ : BufTy).Contents (Elt F)),
    binary main_call0_v5 main_call0_v5 main_call0_v6 ((mulf) : (⟨S4x4096x512, .f32⟩ : BufTy).Contents (Elt F) → (⟨S4x4096x512, .f32⟩ : BufTy).Contents (Elt F) → (⟨S4x4096x512, .f32⟩ : BufTy).Contents (Elt F)),
    unary main_c main_call0_v7 ((sitofp .f32) : (⟨S_, .i32⟩ : BufTy).Contents (Elt F) → (⟨S_, .f32⟩ : BufTy).Contents (Elt F)),
    nullary main_call0_cst_1 (constant S_ .f32 0x44000000#32),
    binary main_call0_cst_1 main_call0_v7 main_call0_v8 ((subf) : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S4x4096x512_S4x4096_d2 h_S_) : (⟨S4x4096x512, .f32⟩ : BufTy).Contents (Elt F) → (⟨S_, .f32⟩ : BufTy).Contents (Elt F) → (⟨S4x4096, .f32⟩ : BufTy).Contents (Elt F)),
    unary main_call0_v9 main_call0_v10 ((broadcastInDim S4x4096x1 ![0, 1] bcast_S4x4096_S4x4096x1_0_1) : (⟨S4x4096, .f32⟩ : BufTy).Contents (Elt F) → (⟨S4x4096x1, .f32⟩ : BufTy).Contents (Elt F)),
    unary main_call0_v8 main_call0_v11 ((broadcastInDim S4x4096x1 ![] bcast_S_S4x4096x1) : (⟨S_, .f32⟩ : BufTy).Contents (Elt F) → (⟨S4x4096x1, .f32⟩ : BufTy).Contents (Elt F)),
    binary main_call0_v10 main_call0_v11 main_call0_v12 ((Host.divf) : (⟨S4x4096x1, .f32⟩ : BufTy).Contents (Elt F) → (⟨S4x4096x1, .f32⟩ : BufTy).Contents (Elt F) → (⟨S4x4096x1, .f32⟩ : BufTy).Contents (Elt F)),
    nullary main_call0_cst_3 (constant S_ .f32 0x00000000#32),
    binary main_call0_v8 main_call0_cst_3 main_call0_v13 ((cmpf .ogt) : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 ((id) : (⟨S_, .f32⟩ : BufTy).Contents (Elt F) → (⟨S_, .f32⟩ : BufTy).Contents (Elt F)),
    unary main_call0_call0_v0 main_call0_call0_v1 ((broadcastInDim S4x4096x1 ![] bcast_S_S4x4096x1) : (⟨S_, .f32⟩ : BufTy).Contents (Elt F) → (⟨S4x4096x1, .f32⟩ : BufTy).Contents (Elt F)),
    ternary main_call0_v13 main_call0_v12 main_call0_call0_v1 main_v5 ((fun p a b => select (broadcastInDim S4x4096x1 ![] bcast_S_S4x4096x1 p) a b) : (⟨S_, .i1⟩ : BufTy).Contents (Elt F) → (⟨S4x4096x1, .f32⟩ : BufTy).Contents (Elt F) → (⟨S4x4096x1, .f32⟩ : BufTy).Contents (Elt F) → (⟨S4x4096x1, .f32⟩ : BufTy).Contents (Elt F)) ]

/-- Stretch 2 of the line. -/
abbrev ops_w2 : List (HloOp τ sig (Elt F)) :=
  [ unary main_v4 main_v6 (broadcastInDim S4x4096x512 ![0, 1, 2] bcast_S4x4096x1_S4x4096x512_0_1_2 : (⟨S4x4096x1, .f32⟩ : BufTy).Contents (Elt F) → (⟨S4x4096x512, .f32⟩ : BufTy).Contents (Elt F)),
    binary main_v0 main_v6 main_v7 (subf : (⟨S4x4096x512, .f32⟩ : BufTy).Contents (Elt F) → (⟨S4x4096x512, .f32⟩ : BufTy).Contents (Elt F) → (⟨S4x4096x512, .f32⟩ : BufTy).Contents (Elt F)),
    nullary main_cst_1 (constant S_ .f32 0x3727C5AC#32),
    unary main_cst_1 main_v8 (broadcastInDim S4x4096x1 ![] bcast_S_S4x4096x1 : (⟨S_, .f32⟩ : BufTy).Contents (Elt F) → (⟨S4x4096x1, .f32⟩ : BufTy).Contents (Elt F)),
    binary main_v5 main_v8 main_v9 (addf : (⟨S4x4096x1, .f32⟩ : BufTy).Contents (Elt F) → (⟨S4x4096x1, .f32⟩ : BufTy).Contents (Elt F) → (⟨S4x4096x1, .f32⟩ : BufTy).Contents (Elt F)),
    unary main_v9 main_v10 (Host.rsqrt : (⟨S4x4096x1, .f32⟩ : BufTy).Contents (Elt F) → (⟨S4x4096x1, .f32⟩ : BufTy).Contents (Elt F)),
    unary main_v10 main_v11 (broadcastInDim S4x4096x512 ![0, 1, 2] bcast_S4x4096x1_S4x4096x512_0_1_2 : (⟨S4x4096x1, .f32⟩ : BufTy).Contents (Elt F) → (⟨S4x4096x512, .f32⟩ : BufTy).Contents (Elt F)),
    binary main_v7 main_v11 main_v12 (mulf : (⟨S4x4096x512, .f32⟩ : BufTy).Contents (Elt F) → (⟨S4x4096x512, .f32⟩ : BufTy).Contents (Elt F) → (⟨S4x4096x512, .f32⟩ : BufTy).Contents (Elt F)),
    unary main_arg1 main_v13 (broadcastInDim S1x1x512 ![2] bcast_S512_S1x1x512_2 : (⟨S512, .f32⟩ : BufTy).Contents (Elt F) → (⟨S1x1x512, .f32⟩ : BufTy).Contents (Elt F)),
    unary main_v13 main_v14 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v12 main_v14 main_v15 (mulf : (⟨S4x4096x512, .f32⟩ : BufTy).Contents (Elt F) → (⟨S4x4096x512, .f32⟩ : BufTy).Contents (Elt F) → (⟨S4x4096x512, .f32⟩ : BufTy).Contents (Elt F)),
    unary main_arg2 main_v16 (broadcastInDim S1x1x512 ![2] bcast_S512_S1x1x512_2 : (⟨S512, .f32⟩ : BufTy).Contents (Elt F) → (⟨S1x1x512, .f32⟩ : BufTy).Contents (Elt F)),
    unary main_v16 main_v17 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v15 main_v17 main_v18 (addf : (⟨S4x4096x512, .f32⟩ : BufTy).Contents (Elt F) → (⟨S4x4096x512, .f32⟩ : BufTy).Contents (Elt F) → (⟨S4x4096x512, .f32⟩ : BufTy).Contents (Elt F)) ]

/-- Stretch 3 of the line. -/
abbrev ops_w3 : List (HloOp τ sig (Elt F)) :=
  [ binary main_v18 main_arg3 main_v19 ((fun l r => Host.dotGeneral dot_S4x4096x512_S512x512_S4x4096x512_2_1_01_0_n_n none l r) : (⟨S4x4096x512, .f32⟩ : BufTy).Contents (Elt F) → (⟨S512x512, .f32⟩ : BufTy).Contents (Elt F) → (⟨S4x4096x512, .f32⟩ : BufTy).Contents (Elt F)),
    unary main_arg4 main_v20 (broadcastInDim S1x1x512 ![2] bcast_S512_S1x1x512_2 : (⟨S512, .f32⟩ : BufTy).Contents (Elt F) → (⟨S1x1x512, .f32⟩ : BufTy).Contents (Elt F)),
    unary main_v20 main_v21 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v19 main_v21 main_v22 (addf : (⟨S4x4096x512, .f32⟩ : BufTy).Contents (Elt F) → (⟨S4x4096x512, .f32⟩ : BufTy).Contents (Elt F) → (⟨S4x4096x512, .f32⟩ : BufTy).Contents (Elt F)),
    binary main_v18 main_arg5 main_v23 ((fun l r => Host.dotGeneral dot_S4x4096x512_S512x512_S4x4096x512_2_1_01_0_n_n none l r) : (⟨S4x4096x512, .f32⟩ : BufTy).Contents (Elt F) → (⟨S512x512, .f32⟩ : BufTy).Contents (Elt F) → (⟨S4x4096x512, .f32⟩ : BufTy).Contents (Elt F)),
    unary main_arg6 main_v24 (broadcastInDim S1x1x512 ![2] bcast_S512_S1x1x512_2 : (⟨S512, .f32⟩ : BufTy).Contents (Elt F) → (⟨S1x1x512, .f32⟩ : BufTy).Contents (Elt F)),
    unary main_v24 main_v25 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v23 main_v25 main_v26 (addf : (⟨S4x4096x512, .f32⟩ : BufTy).Contents (Elt F) → (⟨S4x4096x512, .f32⟩ : BufTy).Contents (Elt F) → (⟨S4x4096x512, .f32⟩ : BufTy).Contents (Elt F)),
    binary main_v18 main_arg7 main_v27 ((fun l r => Host.dotGeneral dot_S4x4096x512_S512x512_S4x4096x512_2_1_01_0_n_n none l r) : (⟨S4x4096x512, .f32⟩ : BufTy).Contents (Elt F) → (⟨S512x512, .f32⟩ : BufTy).Contents (Elt F) → (⟨S4x4096x512, .f32⟩ : BufTy).Contents (Elt F)),
    unary main_arg8 main_v28 (broadcastInDim S1x1x512 ![2] bcast_S512_S1x1x512_2 : (⟨S512, .f32⟩ : BufTy).Contents (Elt F) → (⟨S1x1x512, .f32⟩ : BufTy).Contents (Elt F)),
    unary main_v28 main_v29 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v27 main_v29 main_v30 (addf : (⟨S4x4096x512, .f32⟩ : BufTy).Contents (Elt F) → (⟨S4x4096x512, .f32⟩ : BufTy).Contents (Elt F) → (⟨S4x4096x512, .f32⟩ : BufTy).Contents (Elt F)) ]

/-- Stretch 4 of the line. -/
abbrev ops_w4 : List (HloOp τ sig (Elt F)) :=
  [ binary main_v22 main_v26 main_v31 ((fun l r => Host.dotGeneral dot_S4x4096x512_S4x4096x512_S4x4096x4096_2_2_1_1_0_0 none l r) : (⟨S4x4096x512, .f32⟩ : BufTy).Contents (Elt F) → (⟨S4x4096x512, .f32⟩ : BufTy).Contents (Elt F) → (⟨S4x4096x4096, .f32⟩ : BufTy).Contents (Elt F)),
    nullary main_cst_2 (constant S_ .f32 0x3D3504F3#32),
    unary main_cst_2 main_v32 (broadcastInDim S4x4096x4096 ![] bcast_S_S4x4096x4096 : (⟨S_, .f32⟩ : BufTy).Contents (Elt F) → (⟨S4x4096x4096, .f32⟩ : BufTy).Contents (Elt F)),
    binary main_v31 main_v32 main_v33 (mulf : (⟨S4x4096x4096, .f32⟩ : BufTy).Contents (Elt F) → (⟨S4x4096x4096, .f32⟩ : BufTy).Contents (Elt F) → (⟨S4x4096x4096, .f32⟩ : BufTy).Contents (Elt F)),
    nullary main_cst_3 (constant S_ .f32 0xFF800000#32),
    binary main_v33 main_cst_3 main_v34 ((fun x v => Host.reduce FloatOps.maximumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    nullary main_cst_4 (constant S_ .f32 0xFF800000#32),
    unary main_cst_4 main_v35 (broadcastInDim S4x4096 ![] bcast_S_S4x4096 : (⟨S_, .f32⟩ : BufTy).Contents (Elt F) → (⟨S4x4096, .f32⟩ : BufTy).Contents (Elt F)),
    binary main_v35 main_v34 main_v36 (maximumf : (⟨S4x4096, .f32⟩ : BufTy).Contents (Elt F) → (⟨S4x4096, .f32⟩ : BufTy).Contents (Elt F) → (⟨S4x4096, .f32⟩ : BufTy).Contents (Elt F)),
    unary main_v36 main_v37 (broadcastInDim S4x4096x1 ![0, 1] bcast_S4x4096_S4x4096x1_0_1 : (⟨S4x4096, .f32⟩ : BufTy).Contents (Elt F) → (⟨S4x4096x1, .f32⟩ : BufTy).Contents (Elt F)),
    unary main_v37 main_v38 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v33 main_v38 main_v39 (subf : (⟨S4x4096x4096, .f32⟩ : BufTy).Contents (Elt F) → (⟨S4x4096x4096, .f32⟩ : BufTy).Contents (Elt F) → (⟨S4x4096x4096, .f32⟩ : BufTy).Contents (Elt F)),
    unary main_v39 main_v40 (Host.exp : (⟨S4x4096x4096, .f32⟩ : BufTy).Contents (Elt F) → (⟨S4x4096x4096, .f32⟩ : BufTy).Contents (Elt F)),
    nullary main_cst_5 (constant S_ .f32 0x00000000#32),
    binary main_v40 main_cst_5 main_v41 ((fun x v => Host.reduceAdd x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    unary main_v41 main_v42 (broadcastInDim S4x4096x1 ![0, 1] bcast_S4x4096_S4x4096x1_0_1 : (⟨S4x4096, .f32⟩ : BufTy).Contents (Elt F) → (⟨S4x4096x1, .f32⟩ : BufTy).Contents (Elt F)),
    unary main_v42 main_v43 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v40 main_v43 main_v44 (Host.divf : (⟨S4x4096x4096, .f32⟩ : BufTy).Contents (Elt F) → (⟨S4x4096x4096, .f32⟩ : BufTy).Contents (Elt F) → (⟨S4x4096x4096, .f32⟩ : BufTy).Contents (Elt F)),
    binary main_v44 main_v30 main_v45 ((fun l r => Host.dotGeneral dot_S4x4096x4096_S4x4096x512_S4x4096x512_2_1_1_2_0_0 none l r) : (⟨S4x4096x4096, .f32⟩ : BufTy).Contents (Elt F) → (⟨S4x4096x512, .f32⟩ : BufTy).Contents (Elt F) → (⟨S4x4096x512, .f32⟩ : BufTy).Contents (Elt F)) ]

/-- Stretch 5 of the line. -/
abbrev ops_w5 : List (HloOp τ sig (Elt F)) :=
  [ binary main_v45 main_arg9 main_v46 ((fun l r => Host.dotGeneral dot_S4x4096x512_S512x512_S4x4096x512_2_1_01_0_n_n none l r) : (⟨S4x4096x512, .f32⟩ : BufTy).Contents (Elt F) → (⟨S512x512, .f32⟩ : BufTy).Contents (Elt F) → (⟨S4x4096x512, .f32⟩ : BufTy).Contents (Elt F)),
    unary main_arg10 main_v47 (broadcastInDim S1x1x512 ![2] bcast_S512_S1x1x512_2 : (⟨S512, .f32⟩ : BufTy).Contents (Elt F) → (⟨S1x1x512, .f32⟩ : BufTy).Contents (Elt F)),
    unary main_v47 main_v48 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v46 main_v48 main_v49 (addf : (⟨S4x4096x512, .f32⟩ : BufTy).Contents (Elt F) → (⟨S4x4096x512, .f32⟩ : BufTy).Contents (Elt F) → (⟨S4x4096x512, .f32⟩ : BufTy).Contents (Elt F)) ]

/-- Stretch 6 of the line. -/
abbrev ops_w6 : List (HloOp τ sig (Elt F)) :=
  [ nullary main_call1_cst (constant S_ .f32 0x3FD62D7D#32),
    nullary main_call1_call0_cst (constant S_ .f32 0x00000000#32),
    unary main_call1_call0_cst main_call1_call0_v0 ((broadcastInDim S4x4096x512 ![] bcast_S_S4x4096x512) : (⟨S_, .f32⟩ : BufTy).Contents (Elt F) → (⟨S4x4096x512, .f32⟩ : BufTy).Contents (Elt F)),
    binary main_v49 main_call1_call0_v0 main_call1_call0_v1 ((cmpf .ogt) : (⟨S4x4096x512, .f32⟩ : BufTy).Contents (Elt F) → (⟨S4x4096x512, .f32⟩ : BufTy).Contents (Elt F) → (⟨S4x4096x512, .i1⟩ : BufTy).Contents (Elt F)),
    nullary main_call1_call0_cst_0 (constant S_ .f32 0x00000000#32),
    unary main_call1_call0_cst_0 main_call1_call0_v2 ((broadcastInDim S4x4096x512 ![] bcast_S_S4x4096x512) : (⟨S_, .f32⟩ : BufTy).Contents (Elt F) → (⟨S4x4096x512, .f32⟩ : BufTy).Contents (Elt F)),
    binary main_v49 main_call1_call0_v2 main_call1_call0_v3 ((cmpf .ogt) : (⟨S4x4096x512, .f32⟩ : BufTy).Contents (Elt F) → (⟨S4x4096x512, .f32⟩ : BufTy).Contents (Elt F) → (⟨S4x4096x512, .i1⟩ : BufTy).Contents (Elt F)),
    nullary main_call1_call0_cst_1 (constant S_ .f32 0x00000000#32),
    unary main_call1_call0_cst_1 main_call1_call0_call0_v0 ((id) : (⟨S_, .f32⟩ : BufTy).Contents (Elt F) → (⟨S_, .f32⟩ : BufTy).Contents (Elt F)),
    unary main_call1_call0_call0_v0 main_call1_call0_call0_v1 ((broadcastInDim S4x4096x512 ![] bcast_S_S4x4096x512) : (⟨S_, .f32⟩ : BufTy).Contents (Elt F) → (⟨S4x4096x512, .f32⟩ : BufTy).Contents (Elt F)),
    ternary main_call1_call0_v3 main_call1_call0_call0_v1 main_v49 main_call1_call0_v4 ((select) : (⟨S4x4096x512, .i1⟩ : BufTy).Contents (Elt F) → (⟨S4x4096x512, .f32⟩ : BufTy).Contents (Elt F) → (⟨S4x4096x512, .f32⟩ : BufTy).Contents (Elt F) → (⟨S4x4096x512, .f32⟩ : BufTy).Contents (Elt F)),
    unary main_call1_call0_v4 main_call1_call0_v5 ((Host.expm1) : (⟨S4x4096x512, .f32⟩ : BufTy).Contents (Elt F) → (⟨S4x4096x512, .f32⟩ : BufTy).Contents (Elt F)),
    unary main_call1_cst main_call1_call0_v6 ((id) : (⟨S_, .f32⟩ : BufTy).Contents (Elt F) → (⟨S_, .f32⟩ : BufTy).Contents (Elt F)),
    unary main_call1_call0_v6 main_call1_call0_v7 ((broadcastInDim S4x4096x512 ![] bcast_S_S4x4096x512) : (⟨S_, .f32⟩ : BufTy).Contents (Elt F) → (⟨S4x4096x512, .f32⟩ : BufTy).Contents (Elt F)),
    binary main_call1_call0_v7 main_call1_call0_v5 main_call1_call0_v8 ((mulf) : (⟨S4x4096x512, .f32⟩ : BufTy).Contents (Elt F) → (⟨S4x4096x512, .f32⟩ : BufTy).Contents (Elt F) → (⟨S4x4096x512, .f32⟩ : BufTy).Contents (Elt F)),
    ternary main_call1_call0_v1 main_v49 main_call1_call0_v8 main_call1_v0 ((select) : (⟨S4x4096x512, .i1⟩ : BufTy).Contents (Elt F) → (⟨S4x4096x512, .f32⟩ : BufTy).Contents (Elt F) → (⟨S4x4096x512, .f32⟩ : BufTy).Contents (Elt F) → (⟨S4x4096x512, .f32⟩ : BufTy).Contents (Elt F)),
    nullary main_call1_cst_0 (constant S_ .f32 0x3F867D5F#32),
    unary main_call1_cst_0 main_call1_v1 ((broadcastInDim S4x4096x512 ![] bcast_S_S4x4096x512) : (⟨S_, .f32⟩ : BufTy).Contents (Elt F) → (⟨S4x4096x512, .f32⟩ : BufTy).Contents (Elt F)),
    binary main_call1_v1 main_call1_v0 main_v50 ((mulf) : (⟨S4x4096x512, .f32⟩ : BufTy).Contents (Elt F) → (⟨S4x4096x512, .f32⟩ : BufTy).Contents (Elt F) → (⟨S4x4096x512, .f32⟩ : BufTy).Contents (Elt F)) ]

/-- Stretch 7 of the line. -/
abbrev ops_w7 : List (HloOp τ sig (Elt F)) :=
  [ unary main_v50 main_v51 ((transpose S4x512x4096 [0, 2, 1] · transposes_S4x4096x512_S4x512x4096_0_2_1) : (⟨S4x4096x512, .f32⟩ : BufTy).Contents (Elt F) → (⟨S4x512x4096, .f32⟩ : BufTy).Contents (Elt F)) ]

/-- Stretch 8 of the line. -/
abbrev ops_w8 : List (HloOp τ sig (Elt F)) :=
  [ binary main_arg0 main_v51 main_v52 (addf : (⟨S4x512x4096, .f32⟩ : BufTy).Contents (Elt F) → (⟨S4x512x4096, .f32⟩ : BufTy).Contents (Elt F) → (⟨S4x512x4096, .f32⟩ : BufTy).Contents (Elt F)) ]

/-- The operations of @main's first sixty statements. -/
abbrev ops_part0 : List (HloOp τ sig (Elt F)) :=
  ops_w0 ++ (ops_w1 ++ (ops_w2 ++ (ops_w3 ++ (ops_w4 ++ (ops_w5 ++ (ops_w6 ++ ops_w7))))))

/-- All of @main's operations, in order. -/
abbrev ops : List (HloOp τ sig (Elt F)) := ops_part0 ++ ops_w8

set_option maxHeartbeats 8000000 in
set_option maxRecDepth 16384 in
theorem main_part0_eq (c : Dev nD) : main_part0 (F := F) c = seq ops_part0 := rfl
set_option maxRecDepth 16384 in
theorem main_part1_eq (c : Dev nD) : main_part1 (F := F) c = seq ops_w8 := rfl
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide
theorem ops_w0_sub : (ops_w0 : List (HloOp τ sig (Elt F))).Forall fun op => op.bufs ⊆ tcRefs τ sig :=
  ⟨unary_bufs_sub .., nullary_bufs_sub .., binary_bufs_sub .., unary_bufs_sub .., nullary_bufs_sub .., unary_bufs_sub .., binary_bufs_sub .., nullary_bufs_sub ..⟩
theorem ops_w1_sub : (ops_w1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem ops_w2_sub : (ops_w2 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem ops_w3_sub : (ops_w3 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub ..⟩
theorem ops_w4_sub : (ops_w4 : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
theorem ops_w5_sub : (ops_w5 : List (HloOp τ sig (Elt F))).Forall fun op => op.bufs ⊆ tcRefs τ sig :=
  ⟨binary_bufs_sub .., unary_bufs_sub .., unary_bufs_sub .., binary_bufs_sub ..⟩
theorem ops_w6_sub : (ops_w6 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩
theorem ops_w7_sub : (ops_w7 : List (HloOp τ sig (Elt F))).Forall fun op => op.bufs ⊆ tcRefs τ sig :=
  unary_bufs_sub ..
theorem ops_w8_sub : (ops_w8 : List (HloOp τ sig (Elt F))).Forall fun op => op.bufs ⊆ tcRefs τ sig :=
  binary_bufs_sub ..
theorem ops_sub : (ops : List (HloOp τ sig (Elt F))).Forall fun op => op.bufs ⊆ tcRefs τ sig :=
  List.forall_iff_forall_mem.mpr fun op h => by
    simp only [ops, ops_part0, List.mem_append] at h
    rcases h with (h | h | h | h | h | h | h | h) | h
    exacts [List.forall_iff_forall_mem.mp ops_w0_sub op h, List.forall_iff_forall_mem.mp ops_w1_sub op h, List.forall_iff_forall_mem.mp ops_w2_sub op h, List.forall_iff_forall_mem.mp ops_w3_sub op h, List.forall_iff_forall_mem.mp ops_w4_sub op h, List.forall_iff_forall_mem.mp ops_w5_sub op h, List.forall_iff_forall_mem.mp ops_w6_sub op h, List.forall_iff_forall_mem.mp ops_w7_sub op h, List.forall_iff_forall_mem.mp ops_w8_sub op h]

/-- From any memory with zero counters every weakly fair execution of @main terminates, each buffer ending at the
    fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefValue

end
-- ==== Proof.RefStages.lean ====
/-
  The reference's line read stretch by stretch.  Each stage is a function of its operand arrays (kept as variables,
  so that nothing of the size of an array is ever computed with): the transpose to rows, the row mean, the row
  variance, the normalised rows, an affine map of rows, the scores, the softmax-weighted mean of the value rows,
  SELU, and the residual sum after the transpose back.  For a variable valuation each stretch leaves, in the
  buffer of its result, the stage applied to the valuation at the stretch's operands.
-/
import proofs.«160347_j42992622633389_2_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Rows-last view of the input: [4, 512, 4096] to [4, 4096, 512]. -/
def sXt (x : (⟨S4x512x4096, .f32⟩ : BufTy).Contents (Elt F)) : (⟨S4x4096x512, .f32⟩ : BufTy).Contents (Elt F) :=
  transpose S4x4096x512 [0, 2, 1] x transposes_S4x512x4096_S4x4096x512_0_2_1

/-- The mean of every row, kept with a unit last axis. -/
def sMean (xt : (⟨S4x4096x512, .f32⟩ : BufTy).Contents (Elt F)) : (⟨S4x4096x1, .f32⟩ : BufTy).Contents (Elt F) :=
  Host.divf
    (broadcastInDim S4x4096x1 ![0, 1] bcast_S4x4096_S4x4096x1_0_1
      (Host.reduceAdd xt (constant S_ .f32 0x00000000#32) reducesTo_S4x4096x512_S4x4096_d2 h_S_))
    (broadcastInDim S4x4096x1 ![] bcast_S_S4x4096x1 (constant S_ .f32 0x44000000#32))

/-- The divisor of the variance: 512 less the count correction, a scalar. -/
def sDen (c : (⟨S_, .i32⟩ : BufTy).Contents (Elt F)) : (⟨S_, .f32⟩ : BufTy).Contents (Elt F) :=
  subf (constant S_ .f32 0x44000000#32) (sitofp .f32 c)

/-- The variance of every row as the called function computes it: the mean of the squared deviations over the
    divisor, selected against a not-a-number fill where the divisor is not positive. -/
def sVar (xt : (⟨S4x4096x512, .f32⟩ : BufTy).Contents (Elt F)) (c : (⟨S_, .i32⟩ : BufTy).Contents (Elt F)) : (⟨S4x4096x1, .f32⟩ : BufTy).Contents (Elt F) :=
  select (broadcastInDim S4x4096x1 ![] bcast_S_S4x4096x1 (cmpf .ogt (sDen c) (constant S_ .f32 0x00000000#32)))
    (Host.divf
      (broadcastInDim S4x4096x1 ![0, 1] bcast_S4x4096_S4x4096x1_0_1
        (Host.reduceAdd
          (mulf (subf xt (broadcastInDim S4x4096x512 ![0, 1, 2] bcast_S4x4096x1_S4x4096x512_0_1_2 (sMean xt)))
            (subf xt (broadcastInDim S4x4096x512 ![0, 1, 2] bcast_S4x4096x1_S4x4096x512_0_1_2 (sMean xt))))
          (constant S_ .f32 0x00000000#32) reducesTo_S4x4096x512_S4x4096_d2 h_S_))
      (broadcastInDim S4x4096x1 ![] bcast_S_S4x4096x1 (sDen c)))
    (broadcastInDim S4x4096x1 ![] bcast_S_S4x4096x1 (id (constant S_ .f32 0x7FC00000#32)))

/-- A vector of 512 channel values spread over every row. -/
def sChan (g : (⟨S512, .f32⟩ : BufTy).Contents (Elt F)) : (⟨S4x4096x512, .f32⟩ : BufTy).Contents (Elt F) :=
  broadcastInDim S4x4096x512 ![0, 1, 2] bcast_S1x1x512_S4x4096x512_0_1_2 (broadcastInDim S1x1x512 ![2] bcast_S512_S1x1x512_2 g)

/-- The normalised rows: ((row - mean) * (var + ε)^(-1/2)) * gain + shift. -/
def sH (xt : (⟨S4x4096x512, .f32⟩ : BufTy).Contents (Elt F)) (mean var : (⟨S4x4096x1, .f32⟩ : BufTy).Contents (Elt F)) (g β : (⟨S512, .f32⟩ : BufTy).Contents (Elt F)) : (⟨S4x4096x512, .f32⟩ : BufTy).Contents (Elt F) :=
  addf
    (mulf
      (mulf (subf xt (broadcastInDim S4x4096x512 ![0, 1, 2] bcast_S4x4096x1_S4x4096x512_0_1_2 mean))
        (broadcastInDim S4x4096x512 ![0, 1, 2] bcast_S4x4096x1_S4x4096x512_0_1_2
          (Host.rsqrt (addf var (broadcastInDim S4x4096x1 ![] bcast_S_S4x4096x1 (constant S_ .f32 0x3727C5AC#32))))))
      (sChan g))
    (sChan β)

/-- An affine map of every row: the contraction with a weight indexed [out, in], plus the bias. -/
def sProj (h : (⟨S4x4096x512, .f32⟩ : BufTy).Contents (Elt F)) (W : (⟨S512x512, .f32⟩ : BufTy).Contents (Elt F)) (b : (⟨S512, .f32⟩ : BufTy).Contents (Elt F)) : (⟨S4x4096x512, .f32⟩ : BufTy).Contents (Elt F) :=
  addf (Host.dotGeneral dot_S4x4096x512_S512x512_S4x4096x512_2_1_01_0_n_n none h W) (sChan b)

/-- The scaled scores of every query row against every key row of the same batch element. -/
def sScore (q k : (⟨S4x4096x512, .f32⟩ : BufTy).Contents (Elt F)) : (⟨S4x4096x4096, .f32⟩ : BufTy).Contents (Elt F) :=
  mulf (Host.dotGeneral dot_S4x4096x512_S4x4096x512_S4x4096x4096_2_2_1_1_0_0 none q k)
    (broadcastInDim S4x4096x4096 ![] bcast_S_S4x4096x4096 (constant S_ .f32 0x3D3504F3#32))

/-- The row maxima of the scores, spread back over the rows. -/
def sMaxB (s : (⟨S4x4096x4096, .f32⟩ : BufTy).Contents (Elt F)) : (⟨S4x4096x4096, .f32⟩ : BufTy).Contents (Elt F) :=
  broadcastInDim S4x4096x4096 ![0, 1, 2] bcast_S4x4096x1_S4x4096x4096_0_1_2
    (broadcastInDim S4x4096x1 ![0, 1] bcast_S4x4096_S4x4096x1_0_1
      (maximumf (broadcastInDim S4x4096 ![] bcast_S_S4x4096 (constant S_ .f32 0xFF800000#32))
        (Host.reduce FloatOps.maximumf s (constant S_ .f32 0xFF800000#32) reducesTo_S4x4096x4096_S4x4096_d2 h_S_)))

/-- The exponentials of the scores less their row maximum. -/
def sExp (s : (⟨S4x4096x4096, .f32⟩ : BufTy).Contents (Elt F)) : (⟨S4x4096x4096, .f32⟩ : BufTy).Contents (Elt F) :=
  Host.exp (subf s (sMaxB s))

/-- The softmax weights: the exponentials over their row sums. -/
def sSoft (s : (⟨S4x4096x4096, .f32⟩ : BufTy).Contents (Elt F)) : (⟨S4x4096x4096, .f32⟩ : BufTy).Contents (Elt F) :=
  Host.divf (sExp s)
    (broadcastInDim S4x4096x4096 ![0, 1, 2] bcast_S4x4096x1_S4x4096x4096_0_1_2
      (broadcastInDim S4x4096x1 ![0, 1] bcast_S4x4096_S4x4096x1_0_1
        (Host.reduceAdd (sExp s) (constant S_ .f32 0x00000000#32) reducesTo_S4x4096x4096_S4x4096_d2 h_S_)))

/-- The softmax-weighted mean of the value rows. -/
def sAttn (s : (⟨S4x4096x4096, .f32⟩ : BufTy).Contents (Elt F)) (v : (⟨S4x4096x512, .f32⟩ : BufTy).Contents (Elt F)) : (⟨S4x4096x512, .f32⟩ : BufTy).Contents (Elt F) :=
  Host.dotGeneral dot_S4x4096x4096_S4x4096x512_S4x4096x512_2_1_1_2_0_0 none (sSoft s) v

/-- A scalar constant spread over every row and channel. -/
def sSplat (w : BitVec 32) : (⟨S4x4096x512, .f32⟩ : BufTy).Contents (Elt F) :=
  broadcastInDim S4x4096x512 ![] bcast_S_S4x4096x512 (constant S_ .f32 w)

/-- SELU as the called functions compute it. -/
def sSelu (p : (⟨S4x4096x512, .f32⟩ : BufTy).Contents (Elt F)) : (⟨S4x4096x512, .f32⟩ : BufTy).Contents (Elt F) :=
  mulf (sSplat 0x3F867D5F#32)
    (select (cmpf .ogt p (sSplat 0x00000000#32)) p
      (mulf (broadcastInDim S4x4096x512 ![] bcast_S_S4x4096x512 (id (constant S_ .f32 0x3FD62D7D#32)))
        (Host.expm1 (select (cmpf .ogt p (sSplat 0x00000000#32))
          (broadcastInDim S4x4096x512 ![] bcast_S_S4x4096x512 (id (constant S_ .f32 0x00000000#32))) p))))

/-- Back to channels-first. -/
def sBack (o : (⟨S4x4096x512, .f32⟩ : BufTy).Contents (Elt F)) : (⟨S4x512x4096, .f32⟩ : BufTy).Contents (Elt F) :=
  transpose S4x512x4096 [0, 2, 1] o transposes_S4x4096x512_S4x512x4096_0_2_1

/-! ## Each stretch, over a variable valuation -/

section Reads
variable (V : Valuation τ sig (Elt F))

theorem w0_v0 : after ops_w0 V (Proc.devRef .tc main_v0) = sXt (V (Proc.devRef .tc main_arg0)) := by
  simp only [ops_w0]; after_results_simp; rfl
theorem w0_v4 : after ops_w0 V (Proc.devRef .tc main_v4) = sMean (sXt (V (Proc.devRef .tc main_arg0))) := by
  simp only [ops_w0]; after_results_simp; rfl
theorem w0_c : after ops_w0 V (Proc.devRef .tc main_c) = constantI S_ 32 0#32 := by
  simp only [ops_w0]; after_results_simp
theorem w1_v5 : after ops_w1 V (Proc.devRef .tc main_v5) = sVar (V (Proc.devRef .tc main_v0)) (V (Proc.devRef .tc main_c)) := by
  simp only [ops_w1]; after_results_simp; rfl
theorem w2_v18 : after ops_w2 V (Proc.devRef .tc main_v18)
    = sH (V (Proc.devRef .tc main_v0)) (V (Proc.devRef .tc main_v4)) (V (Proc.devRef .tc main_v5)) (V (Proc.devRef .tc main_arg1)) (V (Proc.devRef .tc main_arg2)) := by
  simp only [ops_w2]; after_results_simp; rfl
theorem w3_v22 : after ops_w3 V (Proc.devRef .tc main_v22) = sProj (V (Proc.devRef .tc main_v18)) (V (Proc.devRef .tc main_arg3)) (V (Proc.devRef .tc main_arg4)) := by
  simp only [ops_w3]; after_results_simp; rfl
theorem w3_v26 : after ops_w3 V (Proc.devRef .tc main_v26) = sProj (V (Proc.devRef .tc main_v18)) (V (Proc.devRef .tc main_arg5)) (V (Proc.devRef .tc main_arg6)) := by
  simp only [ops_w3]; after_results_simp; rfl
theorem w3_v30 : after ops_w3 V (Proc.devRef .tc main_v30) = sProj (V (Proc.devRef .tc main_v18)) (V (Proc.devRef .tc main_arg7)) (V (Proc.devRef .tc main_arg8)) := by
  simp only [ops_w3]; after_results_simp; rfl
theorem w4_v45 : after ops_w4 V (Proc.devRef .tc main_v45)
    = sAttn (sScore (V (Proc.devRef .tc main_v22)) (V (Proc.devRef .tc main_v26))) (V (Proc.devRef .tc main_v30)) := by
  simp only [ops_w4]; after_results_simp; rfl
theorem w5_v49 : after ops_w5 V (Proc.devRef .tc main_v49) = sProj (V (Proc.devRef .tc main_v45)) (V (Proc.devRef .tc main_arg9)) (V (Proc.devRef .tc main_arg10)) := by
  simp only [ops_w5]; after_results_simp; rfl
theorem w6_v50 : after ops_w6 V (Proc.devRef .tc main_v50) = sSelu (V (Proc.devRef .tc main_v49)) := by
  simp only [ops_w6]; after_results_simp; rfl
theorem w7_v51 : after ops_w7 V (Proc.devRef .tc main_v51) = sBack (V (Proc.devRef .tc main_v50)) := by
  simp only [ops_w7]; after_results_simp; rfl
theorem w8_v52 : after ops_w8 V (Proc.devRef .tc main_v52) = addf (V (Proc.devRef .tc main_arg0)) (V (Proc.devRef .tc main_v51)) := by
  simp only [ops_w8]; after_results_simp

end Reads

end Cert.ReferenceIdeal.RefValue

end
-- ==== Proof.RefChain.lean ====
/-
  The stretches composed.  A buffer a stretch does not write keeps its contents through it; following each value
  from the stretch that writes it to the one that reads it gives the contents of the result buffer after the whole
  line as the stages composed over the eleven argument arrays, and leaves the arguments as they were.
-/
import proofs.«160347_j42992622633389_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers stretch 0 writes. -/
abbrev ops_w0_W : List (Ref sig .tc) := [main_v0, main_cst, main_v1, main_v2, main_cst_0, main_v3, main_v4, main_c]
theorem ops_w0_writes : (ops_w0 : List (HloOp τ sig (Elt F))).Forall fun op => op.writes ⊆ (ops_w0_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem w0_keep (V : Valuation τ sig (Elt F)) (r : Ref sig .tc) (h : r ∉ ops_w0_W) :
    after ops_w0 V (Proc.devRef .tc r) = V (Proc.devRef .tc r) :=
  after_of_writes_sub ops_w0 _ ops_w0_writes h

/-- The buffers stretch 1 writes. -/
abbrev ops_w1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v5]
theorem ops_w1_writes : (ops_w1 : List (HloOp τ sig (Elt F))).Forall fun op => op.writes ⊆ (ops_w1_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem w1_keep (V : Valuation τ sig (Elt F)) (r : Ref sig .tc) (h : r ∉ ops_w1_W) :
    after ops_w1 V (Proc.devRef .tc r) = V (Proc.devRef .tc r) :=
  after_of_writes_sub ops_w1 _ ops_w1_writes h

/-- The buffers stretch 2 writes. -/
abbrev ops_w2_W : List (Ref sig .tc) := [main_v6, main_v7, main_cst_1, main_v8, main_v9, main_v10, main_v11, main_v12, main_v13, main_v14, main_v15, main_v16, main_v17, main_v18]
theorem ops_w2_writes : (ops_w2 : List (HloOp τ sig (Elt F))).Forall fun op => op.writes ⊆ (ops_w2_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem w2_keep (V : Valuation τ sig (Elt F)) (r : Ref sig .tc) (h : r ∉ ops_w2_W) :
    after ops_w2 V (Proc.devRef .tc r) = V (Proc.devRef .tc r) :=
  after_of_writes_sub ops_w2 _ ops_w2_writes h

/-- The buffers stretch 3 writes. -/
abbrev ops_w3_W : List (Ref sig .tc) := [main_v19, main_v20, main_v21, main_v22, main_v23, main_v24, main_v25, main_v26, main_v27, main_v28, main_v29, main_v30]
theorem ops_w3_writes : (ops_w3 : List (HloOp τ sig (Elt F))).Forall fun op => op.writes ⊆ (ops_w3_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem w3_keep (V : Valuation τ sig (Elt F)) (r : Ref sig .tc) (h : r ∉ ops_w3_W) :
    after ops_w3 V (Proc.devRef .tc r) = V (Proc.devRef .tc r) :=
  after_of_writes_sub ops_w3 _ ops_w3_writes h

/-- The buffers stretch 4 writes. -/
abbrev ops_w4_W : List (Ref sig .tc) := [main_v31, main_cst_2, main_v32, main_v33, main_cst_3, main_v34, main_cst_4, main_v35, main_v36, main_v37, main_v38, main_v39, main_v40, main_cst_5, main_v41, main_v42, main_v43, main_v44, main_v45]
theorem ops_w4_writes : (ops_w4 : List (HloOp τ sig (Elt F))).Forall fun op => op.writes ⊆ (ops_w4_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem w4_keep (V : Valuation τ sig (Elt F)) (r : Ref sig .tc) (h : r ∉ ops_w4_W) :
    after ops_w4 V (Proc.devRef .tc r) = V (Proc.devRef .tc r) :=
  after_of_writes_sub ops_w4 _ ops_w4_writes h

/-- The buffers stretch 5 writes. -/
abbrev ops_w5_W : List (Ref sig .tc) := [main_v46, main_v47, main_v48, main_v49]
theorem ops_w5_writes : (ops_w5 : List (HloOp τ sig (Elt F))).Forall fun op => op.writes ⊆ (ops_w5_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem w5_keep (V : Valuation τ sig (Elt F)) (r : Ref sig .tc) (h : r ∉ ops_w5_W) :
    after ops_w5 V (Proc.devRef .tc r) = V (Proc.devRef .tc r) :=
  after_of_writes_sub ops_w5 _ ops_w5_writes h

/-- The buffers stretch 6 writes. -/
abbrev ops_w6_W : List (Ref sig .tc) := [main_call1_cst, main_call1_call0_cst, main_call1_call0_v0, main_call1_call0_v1, main_call1_call0_cst_0, main_call1_call0_v2, main_call1_call0_v3, main_call1_call0_cst_1, main_call1_call0_call0_v0, main_call1_call0_call0_v1, main_call1_call0_v4, main_call1_call0_v5, main_call1_call0_v6, main_call1_call0_v7, main_call1_call0_v8, main_call1_v0, main_call1_cst_0, main_call1_v1, main_v50]
theorem ops_w6_writes : (ops_w6 : List (HloOp τ sig (Elt F))).Forall fun op => op.writes ⊆ (ops_w6_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem w6_keep (V : Valuation τ sig (Elt F)) (r : Ref sig .tc) (h : r ∉ ops_w6_W) :
    after ops_w6 V (Proc.devRef .tc r) = V (Proc.devRef .tc r) :=
  after_of_writes_sub ops_w6 _ ops_w6_writes h

/-- The buffers stretch 7 writes. -/
abbrev ops_w7_W : List (Ref sig .tc) := [main_v51]
theorem ops_w7_writes : (ops_w7 : List (HloOp τ sig (Elt F))).Forall fun op => op.writes ⊆ (ops_w7_W.map (Proc.devRef (τ := τ) .tc)).toFinset := by
  simp only [List.Forall]; exact (by simp only [nullary_writes, unary_writes, binary_writes, ternary_writes, Finset.singleton_subset_iff, List.mem_toFinset]; exact List.mem_map_of_mem (by decide))
theorem w7_keep (V : Valuation τ sig (Elt F)) (r : Ref sig .tc) (h : r ∉ ops_w7_W) :
    after ops_w7 V (Proc.devRef .tc r) = V (Proc.devRef .tc r) :=
  after_of_writes_sub ops_w7 _ ops_w7_writes h

/-- The buffers stretch 8 writes. -/
abbrev ops_w8_W : List (Ref sig .tc) := [main_v52]
theorem ops_w8_writes : (ops_w8 : List (HloOp τ sig (Elt F))).Forall fun op => op.writes ⊆ (ops_w8_W.map (Proc.devRef (τ := τ) .tc)).toFinset := by
  simp only [List.Forall]; exact (by simp only [nullary_writes, unary_writes, binary_writes, ternary_writes, Finset.singleton_subset_iff, List.mem_toFinset]; exact List.mem_map_of_mem (by decide))
theorem w8_keep (V : Valuation τ sig (Elt F)) (r : Ref sig .tc) (h : r ∉ ops_w8_W) :
    after ops_w8 V (Proc.devRef .tc r) = V (Proc.devRef .tc r) :=
  after_of_writes_sub ops_w8 _ ops_w8_writes h

/-- The contents after the first stretches. -/
def val0 (V : Valuation τ sig (Elt F)) : Valuation τ sig (Elt F) := after ops_w0 V
def val1 (V : Valuation τ sig (Elt F)) : Valuation τ sig (Elt F) := after ops_w1 (val0 V)
def val2 (V : Valuation τ sig (Elt F)) : Valuation τ sig (Elt F) := after ops_w2 (val1 V)
def val3 (V : Valuation τ sig (Elt F)) : Valuation τ sig (Elt F) := after ops_w3 (val2 V)
def val4 (V : Valuation τ sig (Elt F)) : Valuation τ sig (Elt F) := after ops_w4 (val3 V)
def val5 (V : Valuation τ sig (Elt F)) : Valuation τ sig (Elt F) := after ops_w5 (val4 V)
def val6 (V : Valuation τ sig (Elt F)) : Valuation τ sig (Elt F) := after ops_w6 (val5 V)
def val7 (V : Valuation τ sig (Elt F)) : Valuation τ sig (Elt F) := after ops_w7 (val6 V)
def val8 (V : Valuation τ sig (Elt F)) : Valuation τ sig (Elt F) := after ops_w8 (val7 V)

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_ops (V : Valuation τ sig (Elt F)) : after ops V = val8 V := by
  simp only [ops, ops_part0, after_app]
  rfl

/-- Every buffer the line writes. -/
abbrev allW : List (Ref sig .tc) := ops_w0_W ++ ops_w1_W ++ ops_w2_W ++ ops_w3_W ++ ops_w4_W ++ ops_w5_W ++ ops_w6_W ++ ops_w7_W ++ ops_w8_W

/-- A buffer no stretch writes (an argument) holds its launch contents after any number of stretches. -/
theorem val0_keep (V : Valuation τ sig (Elt F)) (r : Ref sig .tc) (h : r ∉ allW) : val0 V (Proc.devRef .tc r) = V (Proc.devRef .tc r) :=
  w0_keep V r (fun hm => h (by simp only [allW, List.mem_append]; tauto))
theorem val1_keep (V : Valuation τ sig (Elt F)) (r : Ref sig .tc) (h : r ∉ allW) : val1 V (Proc.devRef .tc r) = V (Proc.devRef .tc r) :=
  (w1_keep (val0 V) r (fun hm => h (by simp only [allW, List.mem_append]; tauto))).trans (val0_keep V r h)
theorem val2_keep (V : Valuation τ sig (Elt F)) (r : Ref sig .tc) (h : r ∉ allW) : val2 V (Proc.devRef .tc r) = V (Proc.devRef .tc r) :=
  (w2_keep (val1 V) r (fun hm => h (by simp only [allW, List.mem_append]; tauto))).trans (val1_keep V r h)
theorem val3_keep (V : Valuation τ sig (Elt F)) (r : Ref sig .tc) (h : r ∉ allW) : val3 V (Proc.devRef .tc r) = V (Proc.devRef .tc r) :=
  (w3_keep (val2 V) r (fun hm => h (by simp only [allW, List.mem_append]; tauto))).trans (val2_keep V r h)
theorem val4_keep (V : Valuation τ sig (Elt F)) (r : Ref sig .tc) (h : r ∉ allW) : val4 V (Proc.devRef .tc r) = V (Proc.devRef .tc r) :=
  (w4_keep (val3 V) r (fun hm => h (by simp only [allW, List.mem_append]; tauto))).trans (val3_keep V r h)
theorem val5_keep (V : Valuation τ sig (Elt F)) (r : Ref sig .tc) (h : r ∉ allW) : val5 V (Proc.devRef .tc r) = V (Proc.devRef .tc r) :=
  (w5_keep (val4 V) r (fun hm => h (by simp only [allW, List.mem_append]; tauto))).trans (val4_keep V r h)
theorem val6_keep (V : Valuation τ sig (Elt F)) (r : Ref sig .tc) (h : r ∉ allW) : val6 V (Proc.devRef .tc r) = V (Proc.devRef .tc r) :=
  (w6_keep (val5 V) r (fun hm => h (by simp only [allW, List.mem_append]; tauto))).trans (val5_keep V r h)
theorem val7_keep (V : Valuation τ sig (Elt F)) (r : Ref sig .tc) (h : r ∉ allW) : val7 V (Proc.devRef .tc r) = V (Proc.devRef .tc r) :=
  (w7_keep (val6 V) r (fun hm => h (by simp only [allW, List.mem_append]; tauto))).trans (val6_keep V r h)
theorem val8_keep (V : Valuation τ sig (Elt F)) (r : Ref sig .tc) (h : r ∉ allW) : val8 V (Proc.devRef .tc r) = V (Proc.devRef .tc r) :=
  (w8_keep (val7 V) r (fun hm => h (by simp only [allW, List.mem_append]; tauto))).trans (val7_keep V r h)

/-! ## The stages composed over the argument arrays -/

section Composed
variable (x : (⟨S4x512x4096, .f32⟩ : BufTy).Contents (Elt F)) (g β : (⟨S512, .f32⟩ : BufTy).Contents (Elt F))
  (wq : (⟨S512x512, .f32⟩ : BufTy).Contents (Elt F)) (bq : (⟨S512, .f32⟩ : BufTy).Contents (Elt F)) (wk : (⟨S512x512, .f32⟩ : BufTy).Contents (Elt F)) (bk : (⟨S512, .f32⟩ : BufTy).Contents (Elt F))
  (wv : (⟨S512x512, .f32⟩ : BufTy).Contents (Elt F)) (bv : (⟨S512, .f32⟩ : BufTy).Contents (Elt F)) (wp : (⟨S512x512, .f32⟩ : BufTy).Contents (Elt F)) (bp : (⟨S512, .f32⟩ : BufTy).Contents (Elt F))

/-- The normalised rows of the input. -/
def cH : (⟨S4x4096x512, .f32⟩ : BufTy).Contents (Elt F) := sH (sXt x) (sMean (sXt x)) (sVar (sXt x) (constantI S_ 32 0#32)) g β
/-- The softmax-weighted mean of the value rows. -/
def cAttn : (⟨S4x4096x512, .f32⟩ : BufTy).Contents (Elt F) :=
  sAttn (sScore (sProj (cH x g β) wq bq) (sProj (cH x g β) wk bk)) (sProj (cH x g β) wv bv)
/-- The block's result. -/
def cOut : (⟨S4x512x4096, .f32⟩ : BufTy).Contents (Elt F) :=
  addf x (sBack (sSelu (sProj (cAttn x g β wq bq wk bk wv bv) wp bp)))

end Composed

section Chain
variable (V : Valuation τ sig (Elt F))

theorem val0_v0 : val0 V (Proc.devRef .tc main_v0) = sXt (V (Proc.devRef .tc main_arg0)) := w0_v0 V
theorem val0_v4 : val0 V (Proc.devRef .tc main_v4) = sMean (sXt (V (Proc.devRef .tc main_arg0))) := w0_v4 V
theorem val0_c : val0 V (Proc.devRef .tc main_c) = constantI S_ 32 0#32 := w0_c V
theorem val1_v0 : val1 V (Proc.devRef .tc main_v0) = sXt (V (Proc.devRef .tc main_arg0)) :=
  (w1_keep (val0 V) main_v0 (by decide)).trans (val0_v0 V)
theorem val1_v4 : val1 V (Proc.devRef .tc main_v4) = sMean (sXt (V (Proc.devRef .tc main_arg0))) :=
  (w1_keep (val0 V) main_v4 (by decide)).trans (val0_v4 V)
theorem val1_v5 : val1 V (Proc.devRef .tc main_v5) = sVar (sXt (V (Proc.devRef .tc main_arg0))) (constantI S_ 32 0#32) := by
  unfold val1; rw [w1_v5, val0_v0, val0_c]
theorem val2_v18 : val2 V (Proc.devRef .tc main_v18) = cH (V (Proc.devRef .tc main_arg0)) (V (Proc.devRef .tc main_arg1)) (V (Proc.devRef .tc main_arg2)) := by
  unfold val2; rw [w2_v18, val1_v0, val1_v4, val1_v5, val1_keep V main_arg1 (by decide), val1_keep V main_arg2 (by decide)]; rfl
theorem val3_v22 : val3 V (Proc.devRef .tc main_v22)
    = sProj (cH (V (Proc.devRef .tc main_arg0)) (V (Proc.devRef .tc main_arg1)) (V (Proc.devRef .tc main_arg2))) (V (Proc.devRef .tc main_arg3)) (V (Proc.devRef .tc main_arg4)) := by
  unfold val3; rw [w3_v22, val2_v18, val2_keep V main_arg3 (by decide), val2_keep V main_arg4 (by decide)]
theorem val3_v26 : val3 V (Proc.devRef .tc main_v26)
    = sProj (cH (V (Proc.devRef .tc main_arg0)) (V (Proc.devRef .tc main_arg1)) (V (Proc.devRef .tc main_arg2))) (V (Proc.devRef .tc main_arg5)) (V (Proc.devRef .tc main_arg6)) := by
  unfold val3; rw [w3_v26, val2_v18, val2_keep V main_arg5 (by decide), val2_keep V main_arg6 (by decide)]
theorem val3_v30 : val3 V (Proc.devRef .tc main_v30)
    = sProj (cH (V (Proc.devRef .tc main_arg0)) (V (Proc.devRef .tc main_arg1)) (V (Proc.devRef .tc main_arg2))) (V (Proc.devRef .tc main_arg7)) (V (Proc.devRef .tc main_arg8)) := by
  unfold val3; rw [w3_v30, val2_v18, val2_keep V main_arg7 (by decide), val2_keep V main_arg8 (by decide)]
theorem val4_v45 : val4 V (Proc.devRef .tc main_v45)
    = cAttn (V (Proc.devRef .tc main_arg0)) (V (Proc.devRef .tc main_arg1)) (V (Proc.devRef .tc main_arg2)) (V (Proc.devRef .tc main_arg3)) (V (Proc.devRef .tc main_arg4))
        (V (Proc.devRef .tc main_arg5)) (V (Proc.devRef .tc main_arg6)) (V (Proc.devRef .tc main_arg7)) (V (Proc.devRef .tc main_arg8)) := by
  unfold val4; rw [w4_v45, val3_v22, val3_v26, val3_v30]; rfl
theorem val8_v52 : val8 V (Proc.devRef .tc main_v52)
    = cOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  unfold val8; rw [w8_v52, val7_keep V main_arg0 (by decide)]
  unfold val7; rw [w7_v51]
  unfold val6; rw [w6_v50]
  unfold val5; rw [w5_v49, val4_v45, val4_keep V main_arg9 (by decide), val4_keep V main_arg10 (by decide)]
  rfl

end Chain

/-- From any memory with zero counters every weakly fair execution of @main terminates with the result buffer at the
    stages composed over the arguments' launch contents, the arguments unchanged. -/
theorem run_composed (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
        = cOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v52).trans (by rw [after_ops]; exact val8_v52 (launchContents m c)),
      (h c main_arg0).trans (by rw [after_ops]; exact val8_keep (launchContents m c) main_arg0 (by decide)),
      (h c main_arg1).trans (by rw [after_ops]; exact val8_keep (launchContents m c) main_arg1 (by decide)),
      (h c main_arg2).trans (by rw [after_ops]; exact val8_keep (launchContents m c) main_arg2 (by decide)),
      (h c main_arg3).trans (by rw [after_ops]; exact val8_keep (launchContents m c) main_arg3 (by decide)),
      (h c main_arg4).trans (by rw [after_ops]; exact val8_keep (launchContents m c) main_arg4 (by decide)),
      (h c main_arg5).trans (by rw [after_ops]; exact val8_keep (launchContents m c) main_arg5 (by decide)),
      (h c main_arg6).trans (by rw [after_ops]; exact val8_keep (launchContents m c) main_arg6 (by decide)),
      (h c main_arg7).trans (by rw [after_ops]; exact val8_keep (launchContents m c) main_arg7 (by decide)),
      (h c main_arg8).trans (by rw [after_ops]; exact val8_keep (launchContents m c) main_arg8 (by decide)),
      (h c main_arg9).trans (by rw [after_ops]; exact val8_keep (launchContents m c) main_arg9 (by decide)),
      (h c main_arg10).trans (by rw [after_ops]; exact val8_keep (launchContents m c) main_arg10 (by decide))⟩)
    (run_after m ρ)

end Cert.ReferenceIdeal.RefValue

end
-- ==== Proof.RefApplyA.lean ====
/-
  The stages read at an index, at the ideal values: each is the matching function of the specification applied to
  the rows of its operands.
-/
import proofs.«160347_j42992622633389_2_alg».proof.Proof.RefStages
import proofs.«160347_j42992622633389_2_alg».proof.Proof.Spec
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx Cert.AttnSpec
open scoped BigOperators

/-! ## Layout operations at an index -/

/-- The rows-last view at (b, l, c) is the input at (b, c, l). -/
theorem sXt_apply (x : (⟨S4x512x4096, .f32⟩ : BufTy).Contents (Elt Ideal)) (b : Fin 4) (l : Fin 4096) (c : Fin 512) :
    sXt x (ix3 b l c) = x (ix3 b c l) := by
  unfold sXt
  exact transpose_apply _ x _ (ix3 b l c) (ix3 b c l) (fun a => by fin_cases a <;> rfl)

/-- The channels-first view at (b, c, l) is the operand at (b, l, c). -/
theorem sBack_apply (o : (⟨S4x4096x512, .f32⟩ : BufTy).Contents (Elt Ideal)) (b : Fin 4) (c : Fin 512) (l : Fin 4096) :
    sBack o (ix3 b c l) = o (ix3 b l c) := by
  unfold sBack
  exact transpose_apply _ o _ (ix3 b c l) (ix3 b l c) (fun a => by fin_cases a <;> rfl)

/-- A per-row value spread over the row's channels. -/
theorem bcastRow_apply (v : (⟨S4x4096x1, .f32⟩ : BufTy).Contents (Elt Ideal)) (b : Fin 4) (l : Fin 4096) (c : Fin 512) :
    broadcastInDim S4x4096x512 ![0, 1, 2] bcast_S4x4096x1_S4x4096x512_0_1_2 v (ix3 b l c) = v (ix3 b l 0) :=
  broadcastInDim_apply _ _ v (ix3 b l c) (ix3 b l 0) (fun a => by fin_cases a <;> rfl)

/-- A per-row value spread over the row's 4096 score positions. -/
theorem bcastRowS_apply (v : (⟨S4x4096x1, .f32⟩ : BufTy).Contents (Elt Ideal)) (b : Fin 4) (l m : Fin 4096) :
    broadcastInDim S4x4096x4096 ![0, 1, 2] bcast_S4x4096x1_S4x4096x4096_0_1_2 v (ix3 b l m) = v (ix3 b l 0) :=
  broadcastInDim_apply _ _ v (ix3 b l m) (ix3 b l 0) (fun a => by fin_cases a <;> rfl)

/-- A [4, 4096] array given a unit last axis. -/
theorem bcastUnit_apply (v : (⟨S4x4096, .f32⟩ : BufTy).Contents (Elt Ideal)) (b : Fin 4) (l : Fin 4096) (z : Fin 1) :
    broadcastInDim S4x4096x1 ![0, 1] bcast_S4x4096_S4x4096x1_0_1 v (ix3 b l z) = v (ix2 b l) :=
  broadcastInDim_apply _ _ v (ix3 b l z) (ix2 b l) (fun a => by fin_cases a <;> rfl)

/-- A vector of channel values spread over every row. -/
theorem sChan_apply (g : (⟨S512, .f32⟩ : BufTy).Contents (Elt Ideal)) (b : Fin 4) (l : Fin 4096) (c : Fin 512) : sChan g (ix3 b l c) = g (ix1 c) := by
  unfold sChan
  rw [broadcastInDim_apply _ _ _ (ix3 b l c) (ix3 (0 : Fin 1) (0 : Fin 1) c) (fun a => by fin_cases a <;> rfl)]
  exact broadcastInDim_apply _ _ g (ix3 (0 : Fin 1) (0 : Fin 1) c) (ix1 c) (fun a => by fin_cases a <;> rfl)

/-- A scalar constant spread over every row and channel reads the word's value. -/
theorem sSplat_apply (w : BitVec 32) (j : S4x4096x512.Idx) : sSplat (F := Ideal) w j = Ideal.ofBits .f32 w := by
  unfold sSplat
  rw [broadcastInDim_scalar_apply]; rfl

/-! ## The row sums -/

/-- Row (b, l) of a [4, 4096, 512] array with channel k inserted. -/
theorem lift512 (h : S4x4096x512.Reduces [2] S4x4096) (b : Fin 4) (l : Fin 4096) (k : Fin (S4x4096x512.size 2)) :
    h.lift (ix2 b l) k = ix3 b l (⟨k.val, k.isLt⟩ : Fin 512) := by
  funext c; apply Fin.ext
  fin_cases c <;> rfl

/-- Row (b, l) of a [4, 4096, 4096] array with position k inserted. -/
theorem lift4096 (h : S4x4096x4096.Reduces [2] S4x4096) (b : Fin 4) (l : Fin 4096) (k : Fin (S4x4096x4096.size 2)) :
    h.lift (ix2 b l) k = ix3 b l (⟨k.val, k.isLt⟩ : Fin 4096) := by
  funext c; apply Fin.ext
  fin_cases c <;> rfl

/-- The host sum over the channels of row (b, l), from the zero word: the sum of the row. -/
theorem rowSum512 (x : (⟨S4x4096x512, .f32⟩ : BufTy).Contents (Elt Ideal)) (b : Fin 4) (l : Fin 4096) :
    Host.reduceAdd x (constant (F := Ideal) S_ .f32 0x00000000#32) reducesTo_S4x4096x512_S4x4096_d2 h_S_ (ix2 b l)
      = ∑ c : Fin 512, x (ix3 b l c) := by
  rw [hostReduceAdd_apply, Ideal.hostReduceAdd_single _ (by decide : S4x4096x512.Reduces [2] S4x4096)]
  rw [constant_apply, Ideal.ofBits_zero_f32, zero_add]
  exact Finset.sum_congr rfl fun k _ => congrArg x (lift512 _ b l k)

/-- The host sum over the positions of row (b, l), from the zero word, the word kept as the program has it. -/
theorem rowSum4096 (x : (⟨S4x4096x4096, .f32⟩ : BufTy).Contents (Elt Ideal)) (b : Fin 4) (l : Fin 4096) :
    Host.reduceAdd x (constant (F := Ideal) S_ .f32 0x00000000#32) reducesTo_S4x4096x4096_S4x4096_d2 h_S_ (ix2 b l)
      = wZero + ∑ m : Fin 4096, x (ix3 b l m) := by
  rw [hostReduceAdd_apply, Ideal.hostReduceAdd_single _ (by decide : S4x4096x4096.Reduces [2] S4x4096)]
  rw [constant_apply]
  exact congrArg (wZero + ·) (Finset.sum_congr rfl fun k _ => congrArg x (lift4096 _ b l k))

end Cert.ReferenceIdeal.RefValue

end
-- ==== Proof.RefApplyB.lean ====
/-
  The contractions read at an index, and the layer-norm stages against the specification.
-/
import proofs.«160347_j42992622633389_2_alg».proof.Proof.RefApplyA

noncomputable section

namespace Cert.ReferenceIdeal.RefValue

open Cert.ReferenceIdeal Cert.ReferenceIdeal.Gen Idealize.ShloMosaic Idealize.ShloMosaic.ValueIdx Cert.AttnSpec
open scoped BigOperators

/-! ## The three contractions at an index -/

/-- Rows against a weight indexed [out, in]: output (b, l, o) sums h (b, l, c) * W (o, c) over the channels c. -/
theorem dotW_apply (h : (⟨S4x4096x512, .f32⟩ : BufTy).Contents (Elt Ideal)) (W : (⟨S512x512, .f32⟩ : BufTy).Contents (Elt Ideal)) (b : Fin 4) (l : Fin 4096) (o : Fin 512) :
    Host.dotGeneral (F := Ideal) (φ₁ := .f32) (φ₂ := .f32) dot_S4x4096x512_S512x512_S4x4096x512_2_1_01_0_n_n none h W (ix3 b l o)
      = ∑ c : Fin 512, h (ix3 b l c) * W (ix2 o c) := by
  show FloatOps.dotGeneral (F := Ideal) (φ₁ := .f32) (φ₂ := .f32) _ none .single h W (ix3 b l o) = _
  rw [Ideal.dotGeneral_apply,
    ← Equiv.sum_comp (contrEquiv1 dot_S4x4096x512_S512x512_S4x4096x512_2_1_01_0_n_n 512 rfl rfl).symm]
  refine Finset.sum_congr rfl fun c _ => ?_
  congr 2
  · funext a; apply Fin.ext; fin_cases a <;> rfl
  · funext a; apply Fin.ext; fin_cases a <;> rfl

/-- Query rows against key rows of the same batch element: output (b, l, m) sums q (b, l, c) * k (b, m, c). -/
theorem dotQK_apply (q k : (⟨S4x4096x512, .f32⟩ : BufTy).Contents (Elt Ideal)) (b : Fin 4) (l m : Fin 4096) :
    Host.dotGeneral (F := Ideal) (φ₁ := .f32) (φ₂ := .f32) dot_S4x4096x512_S4x4096x512_S4x4096x4096_2_2_1_1_0_0 none q k (ix3 b l m)
      = ∑ c : Fin 512, q (ix3 b l c) * k (ix3 b m c) := by
  show FloatOps.dotGeneral (F := Ideal) (φ₁ := .f32) (φ₂ := .f32) _ none .single q k (ix3 b l m) = _
  rw [Ideal.dotGeneral_apply,
    ← Equiv.sum_comp (contrEquiv1 dot_S4x4096x512_S4x4096x512_S4x4096x4096_2_2_1_1_0_0 512 rfl rfl).symm]
  refine Finset.sum_congr rfl fun c _ => ?_
  congr 2
  · funext a; apply Fin.ext; fin_cases a <;> rfl
  · funext a; apply Fin.ext; fin_cases a <;> rfl

/-- Weights against value rows of the same batch element: output (b, l, c) sums p (b, l, m) * v (b, m, c). -/
theorem dotPV_apply (p : (⟨S4x4096x4096, .f32⟩ : BufTy).Contents (Elt Ideal)) (v : (⟨S4x4096x512, .f32⟩ : BufTy).Contents (Elt Ideal)) (b : Fin 4) (l : Fin 4096) (c : Fin 512) :
    Host.dotGeneral (F := Ideal) (φ₁ := .f32) (φ₂ := .f32) dot_S4x4096x4096_S4x4096x512_S4x4096x512_2_1_1_2_0_0 none p v (ix3 b l c)
      = ∑ m : Fin 4096, p (ix3 b l m) * v (ix3 b m c) := by
  show FloatOps.dotGeneral (F := Ideal) (φ₁ := .f32) (φ₂ := .f32) _ none .single p v (ix3 b l c) = _
  rw [Ideal.dotGeneral_apply,
    ← Equiv.sum_comp (contrEquiv1 dot_S4x4096x4096_S4x4096x512_S4x4096x512_2_1_1_2_0_0 4096 rfl rfl).symm]
  refine Finset.sum_congr rfl fun m _ => ?_
  congr 2
  · funext a; apply Fin.ext; fin_cases a <;> rfl
  · funext a; apply Fin.ext; fin_cases a <;> rfl

end Cert.ReferenceIdeal.RefValue

end
-- ==== Proof.RefApplyC.lean ====
/-
  The stages against the specification: the layer norm of a row, an affine map of a row, the scores, the
  softmax-weighted mean of the value rows, and SELU.
-/
import proofs.«160347_j42992622633389_2_alg».proof.Proof.RefApplyB

noncomputable section

namespace Cert.ReferenceIdeal.RefValue

open Cert.ReferenceIdeal Cert.ReferenceIdeal.Gen Idealize.ShloMosaic Idealize.ShloMosaic.ValueIdx Cert.AttnSpec
open scoped BigOperators

/-! ## The host's unary functions at an index -/

theorem hostRsqrt_apply {s : Shape} {φ : FTy} (v : FVec Ideal s φ) (j : s.Idx) : Host.rsqrt v j = Ideal.rsqrt (v j) := rfl
theorem hostExp_apply {s : Shape} {φ : FTy} (v : FVec Ideal s φ) (j : s.Idx) : Host.exp v j = Ideal.exp (v j) := rfl
theorem hostExpm1_apply {s : Shape} {φ : FTy} (v : FVec Ideal s φ) (j : s.Idx) : Host.expm1 v j = Ideal.exp (v j) - 1 := rfl

/-! ## Layer norm -/

/-- The word 0x44000000 is 512. -/
theorem w512_eq : w512 = ((512 : ℝ) : EReal) := by
  unfold w512
  simp [Ideal.ofBits, Ideal.ieee, -EReal.coe_mul]; norm_num

/-- The mean stage at row (b, l) is the row's mean. -/
theorem sMean_apply (xt : (⟨S4x4096x512, .f32⟩ : BufTy).Contents (Elt Ideal)) (b : Fin 4) (l : Fin 4096) (z : Fin 1) :
    sMean xt (ix3 b l z) = rowMean (fun c => xt (ix3 b l c)) := by
  unfold sMean rowMean
  rw [hostDivf_apply, bcastUnit_apply, rowSum512, broadcastInDim_scalar_apply, constant_apply]
  rfl

/-- The variance's divisor, 512 less the conversion of the integer zero, is 512. -/
theorem sDen_zero (j : S_.Idx) : sDen (F := Ideal) (constantI S_ 32 0#32) j = w512 := by
  show Ideal.ofBits .f32 0x44000000#32 - (((0#32 : BitVec 32).toInt : ℝ) : EReal) = w512
  simp [w512]

/-- The variance stage at row (b, l) is the row's variance: the divisor is positive, so the select takes the quotient. -/
theorem sVar_apply (xt : (⟨S4x4096x512, .f32⟩ : BufTy).Contents (Elt Ideal)) (b : Fin 4) (l : Fin 4096) (z : Fin 1) :
    sVar xt (constantI S_ 32 0#32) (ix3 b l z) = rowVar (fun c => xt (ix3 b l c)) := by
  unfold sVar rowVar
  rw [select_apply, broadcastInDim_scalar_apply, cmpf_apply, sDen_zero, constant_apply, Ideal.ofBits_zero_f32]
  have hpos : FloatOps.cmpf (F := Ideal) (φ := .f32) .ogt w512 0 = 1#1 := by
    show Ideal.cmp .ogt w512 0 = 1#1
    unfold Ideal.cmp
    rw [w512_eq]
    have : (0 : EReal) < ((512 : ℝ) : EReal) := by exact_mod_cast (by norm_num : (0 : ℝ) < 512)
    simp [this]
  rw [hpos, select_one, hostDivf_apply, bcastUnit_apply, rowSum512, broadcastInDim_scalar_apply, sDen_zero]
  refine congrArg (fun s => Ideal.div s w512) (Finset.sum_congr rfl fun c _ => ?_)
  rw [mulf_apply, subf_apply, bcastRow_apply, sMean_apply]

/-- The normalised rows at (b, l, c). -/
theorem sH_apply (xt : (⟨S4x4096x512, .f32⟩ : BufTy).Contents (Elt Ideal)) (mean var : (⟨S4x4096x1, .f32⟩ : BufTy).Contents (Elt Ideal)) (g β : (⟨S512, .f32⟩ : BufTy).Contents (Elt Ideal))
    (b : Fin 4) (l : Fin 4096) (c : Fin 512) :
    sH xt mean var g β (ix3 b l c)
      = (xt (ix3 b l c) - mean (ix3 b l 0)) * Ideal.rsqrt (var (ix3 b l 0) + wEps) * g (ix1 c) + β (ix1 c) := by
  unfold sH
  rw [addf_apply, mulf_apply, mulf_apply, subf_apply, bcastRow_apply, bcastRow_apply, sChan_apply, sChan_apply]
  rw [hostRsqrt_apply, addf_apply, broadcastInDim_scalar_apply, constant_apply]
  rfl

/-! ## An affine map of rows, and the scores -/

/-- The affine stage at (b, l, o) is the affine map of row (b, l), read at o. -/
theorem sProj_apply (h : (⟨S4x4096x512, .f32⟩ : BufTy).Contents (Elt Ideal)) (W : (⟨S512x512, .f32⟩ : BufTy).Contents (Elt Ideal)) (bias : (⟨S512, .f32⟩ : BufTy).Contents (Elt Ideal)) (b : Fin 4) (l : Fin 4096) (o : Fin 512) :
    sProj h W bias (ix3 b l o) = aff (fun c => h (ix3 b l c)) (cur2 W) (cur1 bias) o := by
  unfold sProj aff
  rw [addf_apply, dotW_apply, sChan_apply]

/-- The score stage at (b, l, m) is the score of query row (b, l) against key row (b, m). -/
theorem sScore_apply (q k : (⟨S4x4096x512, .f32⟩ : BufTy).Contents (Elt Ideal)) (b : Fin 4) (l m : Fin 4096) :
    sScore q k (ix3 b l m) = score (fun c => q (ix3 b l c)) (fun c => k (ix3 b m c)) := by
  unfold sScore score
  rw [mulf_apply, dotQK_apply, broadcastInDim_scalar_apply, constant_apply]
  rfl

end Cert.ReferenceIdeal.RefValue

end
-- ==== Proof.RefApplyD.lean ====
/-
  The softmax-weighted mean of the value rows and SELU against the specification.
-/
import proofs.«160347_j42992622633389_2_alg».proof.Proof.RefApplyC

noncomputable section

namespace Cert.ReferenceIdeal.RefValue

open Cert.ReferenceIdeal Cert.ReferenceIdeal.Gen Idealize.ShloMosaic Idealize.ShloMosaic.ValueIdx Cert.AttnSpec
open scoped BigOperators

/-! ## The softmax-weighted mean -/

/-- The spread row maxima at (b, l, m): the row maximum of row (b, l), taken as the program takes it. -/
theorem sMaxB_apply (s : (⟨S4x4096x4096, .f32⟩ : BufTy).Contents (Elt Ideal)) (b : Fin 4) (l m : Fin 4096) :
    sMaxB s (ix3 b l m) = rowMaxR (fun m' => s (ix3 b l m')) := by
  unfold sMaxB rowMaxR
  rw [bcastRowS_apply, bcastUnit_apply, maximumf_apply, broadcastInDim_scalar_apply, constant_apply]
  have hR : S4x4096x4096.Reduces [2] S4x4096 := by decide
  have h1 := Host.reduce_eq_fold_single (FloatOps.maximumf (F := Ideal) (φ := .f32)) s
    (constant (F := Ideal) S_ .f32 0xFF800000#32) reducesTo_S4x4096x4096_S4x4096_d2 hR h_S_ (ix2 b l)
  have hf : (s ∘ hR.lift (ix2 b l)) = fun k : Fin 4096 => s (ix3 b l k) :=
    funext fun k => congrArg s (lift4096 hR b l k)
  exact congrArg (max (Ideal.ofBits .f32 0xFF800000#32))
    (h1.trans (congrArg (fun f => Finset.fold max (Ideal.ofBits .f32 0xFF800000#32) f (Finset.univ : Finset (Fin 4096))) hf))

/-- The exponentials at (b, l, m). -/
theorem sExp_apply (s : (⟨S4x4096x4096, .f32⟩ : BufTy).Contents (Elt Ideal)) (b : Fin 4) (l m : Fin 4096) :
    sExp s (ix3 b l m) = Ideal.exp (s (ix3 b l m) - rowMaxR (fun m' => s (ix3 b l m'))) := by
  unfold sExp
  rw [hostExp_apply, subf_apply, sMaxB_apply]

/-- The softmax weights at (b, l, m). -/
theorem sSoft_apply (s : (⟨S4x4096x4096, .f32⟩ : BufTy).Contents (Elt Ideal)) (b : Fin 4) (l m : Fin 4096) :
    sSoft s (ix3 b l m)
      = Ideal.div (Ideal.exp (s (ix3 b l m) - rowMaxR (fun m' => s (ix3 b l m'))))
          (wZero + ∑ m' : Fin 4096, Ideal.exp (s (ix3 b l m') - rowMaxR (fun m'' => s (ix3 b l m'')))) := by
  unfold sSoft
  rw [hostDivf_apply, bcastRowS_apply, bcastUnit_apply, rowSum4096, sExp_apply]
  exact congrArg (fun t => Ideal.div _ (wZero + t)) (Finset.sum_congr rfl fun m' _ => sExp_apply s b l m')

/-- The weighted mean at (b, l, c) is the specification's, of the scores of row (b, l) and the value rows of b. -/
theorem sAttn_apply (s : (⟨S4x4096x4096, .f32⟩ : BufTy).Contents (Elt Ideal)) (v : (⟨S4x4096x512, .f32⟩ : BufTy).Contents (Elt Ideal)) (b : Fin 4) (l : Fin 4096) (c : Fin 512) :
    sAttn s v (ix3 b l c) = attnR (fun m => s (ix3 b l m)) (fun m c' => v (ix3 b m c')) c := by
  unfold sAttn attnR
  rw [dotPV_apply]
  exact Finset.sum_congr rfl fun m _ => by rw [sSoft_apply]

/-! ## SELU -/

/-- SELU as the called functions compute it, at an index. -/
theorem sSelu_apply (p : (⟨S4x4096x512, .f32⟩ : BufTy).Contents (Elt Ideal)) (j : S4x4096x512.Idx) : sSelu p j = seluR (p j) := by
  unfold sSelu seluR
  rw [mulf_apply, sSplat_apply, select_apply, cmpf_apply, sSplat_apply, mulf_apply, broadcastInDim_scalar_apply,
    hostExpm1_apply, select_apply, cmpf_apply, sSplat_apply, broadcastInDim_scalar_apply]
  rfl

end Cert.ReferenceIdeal.RefValue

end
-- ==== Proof.RefValue.lean ====
/-
  The reference's run and its value: every weakly fair execution of the reference terminates with its result buffer
  at refOut of the eleven argument arrays and the arguments unchanged, and refOut read at (b, c, l) is the
  specification's plain spelling of the block, outR, of the arguments' arrays.
-/
import proofs.«160347_j42992622633389_2_alg».proof.Proof.RefChain
import proofs.«160347_j42992622633389_2_alg».proof.Proof.RefApplyD

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.AttnSpec
open scoped BigOperators

section Rows
variable (x : (⟨S4x512x4096, .f32⟩ : BufTy).Contents (Elt Ideal)) (g β : (⟨S512, .f32⟩ : BufTy).Contents (Elt Ideal))
  (wq : (⟨S512x512, .f32⟩ : BufTy).Contents (Elt Ideal)) (bq : (⟨S512, .f32⟩ : BufTy).Contents (Elt Ideal)) (wk : (⟨S512x512, .f32⟩ : BufTy).Contents (Elt Ideal)) (bk : (⟨S512, .f32⟩ : BufTy).Contents (Elt Ideal))
  (wv : (⟨S512x512, .f32⟩ : BufTy).Contents (Elt Ideal)) (bv : (⟨S512, .f32⟩ : BufTy).Contents (Elt Ideal)) (wp : (⟨S512x512, .f32⟩ : BufTy).Contents (Elt Ideal)) (bp : (⟨S512, .f32⟩ : BufTy).Contents (Elt Ideal))

/-- Row (b, l) of the normalised rows is the specification's normalised row. -/
theorem cH_row (b : Fin 4) (l : Fin 4096) :
    (fun c => cH x g β (ix3 b l c)) = hRow (cur3 x) (cur1 g) (cur1 β) b l := by
  funext c
  unfold cH hRow lnRow
  rw [sH_apply, sMean_apply, sVar_apply, sXt_apply]
  have hrow : (fun c' => sXt x (ix3 b l c')) = fun c' => x (ix3 b c' l) := funext fun c' => sXt_apply x b l c'
  rw [hrow]

/-- Row (b, l) of an affine map of the normalised rows is the affine map of the specification's normalised row. -/
theorem proj_row (W : (⟨S512x512, .f32⟩ : BufTy).Contents (Elt Ideal)) (bias : (⟨S512, .f32⟩ : BufTy).Contents (Elt Ideal)) (b : Fin 4) (l : Fin 4096) :
    (fun o => sProj (cH x g β) W bias (ix3 b l o)) = aff (hRow (cur3 x) (cur1 g) (cur1 β) b l) (cur2 W) (cur1 bias) := by
  funext o
  rw [sProj_apply, cH_row]

/-- Row (b, l) of the scores. -/
theorem score_row (b : Fin 4) (l : Fin 4096) :
    (fun m => sScore (sProj (cH x g β) wq bq) (sProj (cH x g β) wk bk) (ix3 b l m))
      = sRow (cur3 x) (cur1 g) (cur1 β) (cur2 wq) (cur1 bq) (cur2 wk) (cur1 bk) b l := by
  funext m
  rw [sScore_apply, proj_row, proj_row]
  rfl

/-- Row (b, l) of the softmax-weighted mean. -/
theorem cAttn_row (b : Fin 4) (l : Fin 4096) :
    (fun c => cAttn x g β wq bq wk bk wv bv (ix3 b l c))
      = attnR (sRow (cur3 x) (cur1 g) (cur1 β) (cur2 wq) (cur1 bq) (cur2 wk) (cur1 bk) b l)
          (vRow (cur3 x) (cur1 g) (cur1 β) (cur2 wv) (cur1 bv) b) := by
  funext c
  unfold cAttn
  rw [sAttn_apply, score_row]
  have hv : (fun m c' => sProj (cH x g β) wv bv (ix3 b m c')) = vRow (cur3 x) (cur1 g) (cur1 β) (cur2 wv) (cur1 bv) b :=
    funext fun m => proj_row x g β wv bv b m
  rw [hv]

/-- The composed stages at (b, c, l) are the specification's plain spelling of the block. -/
theorem cOut_apply (b : Fin 4) (ch : Fin 512) (l : Fin 4096) :
    cOut x g β wq bq wk bk wv bv wp bp (ix3 b ch l)
      = outR (cur3 x) (cur1 g) (cur1 β) (cur2 wq) (cur1 bq) (cur2 wk) (cur1 bk) (cur2 wv) (cur1 bv) (cur2 wp) (cur1 bp) b ch l := by
  unfold cOut outR
  rw [addf_apply, sBack_apply, sSelu_apply, sProj_apply, cAttn_row]

end Rows

/-- The reference's result, as a term of the eleven argument arrays of the launch memory. -/
def refOut (m : (ℓ : Loc nD τ sig) → Buf (Elt Ideal) ℓ) (c : Dev nD) : Buf (Elt Ideal) ((c.tc : Thread nD τ).loc main_v52) :=
  cOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- From any memory with zero counters every weakly fair execution of the reference terminates with its result at
    refOut of the launch memory and its eleven arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v52) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_composed m ρ

/-- The same run, read for the arguments alone: the reference terminates and leaves its eleven arguments unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun _ h c => (h c).2) (run m ρ)

/-- The reference's result at (b, c, l) is the specification's plain spelling of the block at the arguments' arrays. -/
theorem refOut_apply (m : (ℓ : Loc nD τ sig) → Buf (Elt Ideal) ℓ) (c : Dev nD) (b : Fin 4) (ch : Fin 512) (l : Fin 4096) :
    refOut m c (ValueIdx.ix3 b ch l)
      = Cert.AttnSpec.outR (cur3 (m ((c.tc : Thread nD τ).loc main_arg0))) (cur1 (m ((c.tc : Thread nD τ).loc main_arg1))) (cur1 (m ((c.tc : Thread nD τ).loc main_arg2))) (cur2 (m ((c.tc : Thread nD τ).loc main_arg3))) (cur1 (m ((c.tc : Thread nD τ).loc main_arg4))) (cur2 (m ((c.tc : Thread nD τ).loc main_arg5))) (cur1 (m ((c.tc : Thread nD τ).loc main_arg6))) (cur2 (m ((c.tc : Thread nD τ).loc main_arg7))) (cur1 (m ((c.tc : Thread nD τ).loc main_arg8))) (cur2 (m ((c.tc : Thread nD τ).loc main_arg9))) (cur1 (m ((c.tc : Thread nD τ).loc main_arg10))) b ch l :=
  cOut_apply _ _ _ _ _ _ _ _ _ _ _ b ch l

end Cert.ReferenceIdeal.RefValue

end
-- ==== Proof.lean ====
/-
  The attention block — layer norm over channels, query / key / value projections, softmax attention over 4096
  positions, output projection, SELU, residual — computed by two kernel regions (the second streaming the softmax
  over 8 chunks of 512 positions with a running maximum, denominator and numerator) equals the plain formulation
  on finite inputs.

  Both programs are read as one function of the eleven argument arrays (Spec.lean): the kernel's result is the
  streamed spelling (region 0's blocks give the projections, region 1's loop is the chunk recursion, its epilogue the
  normalisation, projection, SELU and residual), the reference's result the plain spelling.  On real-valued inputs
  every score and value row is real, so the streamed numerator over denominator is the softmax-weighted mean (softmax
  is invariant under subtracting any real number from the scores, which is all the running maxima do), and the two
  spellings of SELU agree everywhere.  The precondition makes every argument entry real.  The frames are the
  generated ones, the reference's its run with the result dropped; the idealization rewrote nothing.
-/
import proofs.«160347_j42992622633389_2_alg».proof.Defs
import proofs.«160347_j42992622633389_2_alg».proof.Proof.Gen.Kernel
import proofs.«160347_j42992622633389_2_alg».proof.Proof.Gen.KernelIdeal
import proofs.«160347_j42992622633389_2_alg».proof.Proof.Gen.ReferenceIdeal
import proofs.«160347_j42992622633389_2_alg».proof.Proof.Gen.Pre_finite_inputs
import proofs.«160347_j42992622633389_2_alg».proof.Proof.Claims
import proofs.«160347_j42992622633389_2_alg».proof.Proof.KerValue
import proofs.«160347_j42992622633389_2_alg».proof.Proof.KerReg0Q
import proofs.«160347_j42992622633389_2_alg».proof.Proof.KerReg0K
import proofs.«160347_j42992622633389_2_alg».proof.Proof.KerReg0V
import proofs.«160347_j42992622633389_2_alg».proof.Proof.Reg1Arr
import proofs.«160347_j42992622633389_2_alg».proof.Proof.Reg1Point
import proofs.«160347_j42992622633389_2_alg».proof.Proof.RefValue
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_p, Cert.Proof.Claims.frame_pi,
    Cert.Proof.Claims.frame_ri_of Cert.ReferenceIdeal.RefValue.refOut Cert.ReferenceIdeal.RefValue.run,
    Cert.Proof.Claims.preserves,
    Cert.Proof.Claims.algebraic_of Cert.ReferenceIdeal.RefValue.refOut Cert.ReferenceIdeal.RefValue.run
      (fun m ρ c b ch l =>
        Cert.KernelIdeal.KerValue.result_value m ρ Cert.KernelIdeal.Reg0Value.reg0_q Cert.KernelIdeal.Reg0Value.reg0_k
          Cert.KernelIdeal.Reg0Value.reg0_v (fun V => Cert.KernelIdeal.Reg1.reg1_out V Cert.KernelIdeal.Reg1.out1_val) c b ch l)
      Cert.ReferenceIdeal.RefValue.refOut_apply⟩

end Cert.Proof

end
